-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x32 : Shape := ⟨3, ![4, 128, 32]⟩
abbrev S21x10000 : Shape := ⟨2, ![21, 10000]⟩
abbrev S32x10000 : Shape := ⟨2, ![32, 10000]⟩
abbrev S128x10000 : Shape := ⟨2, ![128, 10000]⟩
abbrev S10x10000 : Shape := ⟨2, ![10, 10000]⟩
abbrev S_ : Shape := ⟨0, ![]⟩

class Facts : Prop where
  bcast_S_S4x128x32 : S_.BroadcastsInDim S4x128x32 (![] : Fin 0 → Fin S4x128x32.rank)
  reducesTo_S4x128x32_S_d0_1_2 : S4x128x32.ReducesTo [0, 1, 2] S_
  h_S_ : 0 < S_.numel
  bcast_S_S21x10000 : S_.BroadcastsInDim S21x10000 (![] : Fin 0 → Fin S21x10000.rank)
  reducesTo_S21x10000_S_d0_1 : S21x10000.ReducesTo [0, 1] S_
  bcast_S_S32x10000 : S_.BroadcastsInDim S32x10000 (![] : Fin 0 → Fin S32x10000.rank)
  reducesTo_S32x10000_S_d0_1 : S32x10000.ReducesTo [0, 1] S_
  bcast_S_S128x10000 : S_.BroadcastsInDim S128x10000 (![] : Fin 0 → Fin S128x10000.rank)
  reducesTo_S128x10000_S_d0_1 : S128x10000.ReducesTo [0, 1] S_
  bcast_S_S10x10000 : S_.BroadcastsInDim S10x10000 (![] : Fin 0 → Fin S10x10000.rank)
  reducesTo_S10x10000_S_d0_1 : S10x10000.ReducesTo [0, 1] S_

variable [Facts]

def fn_part1 {F : FTy → Type} [FloatOps F] (main_arg4 : FVec F S10x10000 .f32) (main_v13 : IVec S_ 1) (main_v16 : IVec S128x10000 1) : IVec S_ 1 :=
  let main_c_5 : IVec S_ 1 := constantI S_ 1 1#1
  let main_v17 : IVec S_ 1 := (fun x v => Host.reduce IntOp.andi x v reducesTo_S128x10000_S_d0_1 h_S_) main_v16 main_c_5
  let main_v18 : IVec S_ 1 := andi main_v13 main_v17
  let main_v19 : FVec F S10x10000 .f32 := Host.absf main_arg4
  let main_cst_6 : FVec F S_ .f32 := constant S_ .f32 0x7F800000#32
  let main_v20 : FVec F S10x10000 .f32 := broadcastInDim S10x10000 ![] bcast_S_S10x10000 main_cst_6
  let main_v21 : IVec S10x10000 1 := cmpf .olt main_v19 main_v20
  let main_c_7 : IVec S_ 1 := constantI S_ 1 1#1
  let main_v22 : IVec S_ 1 := (fun x v => Host.reduce IntOp.andi x v reducesTo_S10x10000_S_d0_1 h_S_) main_v21 main_c_7
  let main_v23 : IVec S_ 1 := andi main_v18 main_v22
  main_v23

def fn {F : FTy → Type} [FloatOps F] (main_arg0 : FVec F S4x128x32 .f32) (main_arg1 : FVec F S21x10000 .f32) (main_arg2 : FVec F S32x10000 .f32) (main_arg3 : FVec F S128x10000 .f32) (main_arg4 : FVec F S10x10000 .f32) : IVec S_ 1 :=
  let main_v0 : FVec F S4x128x32 .f32 := Host.absf main_arg0
  let main_cst : FVec F S_ .f32 := constant S_ .f32 0x7F800000#32
  let main_v1 : FVec F S4x128x32 .f32 := broadcastInDim S4x128x32 ![] bcast_S_S4x128x32 main_cst
  let main_v2 : IVec S4x128x32 1 := cmpf .olt main_v0 main_v1
  let main_c : IVec S_ 1 := constantI S_ 1 1#1
  let main_v3 : IVec S_ 1 := (fun x v => Host.reduce IntOp.andi x v reducesTo_S4x128x32_S_d0_1_2 h_S_) main_v2 main_c
  let main_v4 : FVec F S21x10000 .f32 := Host.absf main_arg1
  let main_cst_0 : FVec F S_ .f32 := constant S_ .f32 0x7F800000#32
  let main_v5 : FVec F S21x10000 .f32 := broadcastInDim S21x10000 ![] bcast_S_S21x10000 main_cst_0
  let main_v6 : IVec S21x10000 1 := cmpf .olt main_v4 main_v5
  let main_c_1 : IVec S_ 1 := constantI S_ 1 1#1
  let main_v7 : IVec S_ 1 := (fun x v => Host.reduce IntOp.andi x v reducesTo_S21x10000_S_d0_1 h_S_) main_v6 main_c_1
  let main_v8 : IVec S_ 1 := andi main_v3 main_v7
  let main_v9 : FVec F S32x10000 .f32 := Host.absf main_arg2
  let main_cst_2 : FVec F S_ .f32 := constant S_ .f32 0x7F800000#32
  let main_v10 : FVec F S32x10000 .f32 := broadcastInDim S32x10000 ![] bcast_S_S32x10000 main_cst_2
  let main_v11 : IVec S32x10000 1 := cmpf .olt main_v9 main_v10
  let main_c_3 : IVec S_ 1 := constantI S_ 1 1#1
  let main_v12 : IVec S_ 1 := (fun x v => Host.reduce IntOp.andi x v reducesTo_S32x10000_S_d0_1 h_S_) main_v11 main_c_3
  let main_v13 : IVec S_ 1 := andi main_v8 main_v12
  let main_v14 : FVec F S128x10000 .f32 := Host.absf main_arg3
  let main_cst_4 : FVec F S_ .f32 := constant S_ .f32 0x7F800000#32
  let main_v15 : FVec F S128x10000 .f32 := broadcastInDim S128x10000 ![] bcast_S_S128x10000 main_cst_4
  let main_v16 : IVec S128x10000 1 := cmpf .olt main_v14 main_v15
  fn_part1 (F := F) main_arg4 main_v13 main_v16
-- ==== Kernel.lean ====
abbrev S4x128x32 : Shape := ⟨3, ![4, 128, 32]⟩
abbrev S21x10000 : Shape := ⟨2, ![21, 10000]⟩
abbrev S32x10000 : Shape := ⟨2, ![32, 10000]⟩
abbrev S128x10000 : Shape := ⟨2, ![128, 10000]⟩
abbrev S10x10000 : Shape := ⟨2, ![10, 10000]⟩
abbrev S_ : Shape := ⟨0, ![]⟩
abbrev S4x128x32x1 : Shape := ⟨4, ![4, 128, 32, 1]⟩
abbrev S1x1x1x21 : Shape := ⟨4, ![1, 1, 1, 21]⟩
abbrev S4x128x32x21 : Shape := ⟨4, ![4, 128, 32, 21]⟩
abbrev S4x128x21 : Shape := ⟨3, ![4, 128, 21]⟩
abbrev S4x1x10 : Shape := ⟨3, ![4, 1, 10]⟩
abbrev S1x128x21 : Shape := ⟨3, ![1, 128, 21]⟩
abbrev S1x1x10 : Shape := ⟨3, ![1, 1, 10]⟩
abbrev S128x21 : Shape := ⟨2, ![128, 21]⟩
abbrev S125x10000 : Shape := ⟨2, ![125, 10000]⟩
abbrev S125x3 : Shape := ⟨2, ![125, 3]⟩
abbrev S125x9997 : Shape := ⟨2, ![125, 9997]⟩
abbrev S125x2 : Shape := ⟨2, ![125, 2]⟩
abbrev S125x9998 : Shape := ⟨2, ![125, 9998]⟩
abbrev S125x1 : Shape := ⟨2, ![125, 1]⟩
abbrev S125x9999 : Shape := ⟨2, ![125, 9999]⟩
abbrev S10000 : Shape := ⟨1, ![10000]⟩
abbrev S1x10000 : Shape := ⟨2, ![1, 10000]⟩
abbrev S1x10 : Shape := ⟨2, ![1, 10]⟩
abbrev S10 : Shape := ⟨1, ![10]⟩
abbrev S4x10 : Shape := ⟨2, ![4, 10]⟩

abbrev nBuf : Space → Nat
  | .hbm => 34
  | .vmem => 7
  | .smem => 0
  | _ => 0

abbrev bufTy : (tb : Table) → Fin (tcTables nBuf tb) → BufTy
  | .hbm, ⟨0, _⟩ => ⟨S4x128x32, .f32⟩
  | .hbm, ⟨1, _⟩ => ⟨S21x10000, .f32⟩
  | .hbm, ⟨2, _⟩ => ⟨S32x10000, .f32⟩
  | .hbm, ⟨3, _⟩ => ⟨S128x10000, .f32⟩
  | .hbm, ⟨4, _⟩ => ⟨S10x10000, .f32⟩
  | .hbm, ⟨5, _⟩ => ⟨S_, .f32⟩
  | .hbm, ⟨6, _⟩ => ⟨S4x128x32, .f32⟩
  | .hbm, ⟨7, _⟩ => ⟨S4x128x32, .f32⟩
  | .hbm, ⟨8, _⟩ => ⟨S_, .f32⟩
  | .hbm, ⟨9, _⟩ => ⟨S4x128x32, .f32⟩
  | .hbm, ⟨10, _⟩ => ⟨S4x128x32, .f32⟩
  | .hbm, ⟨11, _⟩ => ⟨S4x128x32, .f32⟩
  | .hbm, ⟨12, _⟩ => ⟨S_, .i32⟩
  | .hbm, ⟨13, _⟩ => ⟨S_, .i32⟩
  | .hbm, ⟨14, _⟩ => ⟨S_, .f32⟩
  | .hbm, ⟨15, _⟩ => ⟨S4x128x32, .f32⟩
  | .hbm, ⟨16, _⟩ => ⟨S4x128x32, .f32⟩
  | .hbm, ⟨17, _⟩ => ⟨S_, .f32⟩
  | .hbm, ⟨18, _⟩ => ⟨S4x128x32, .f32⟩
  | .hbm, ⟨19, _⟩ => ⟨S4x128x32, .f32⟩
  | .hbm, ⟨20, _⟩ => ⟨S4x128x32, .i32⟩
  | .hbm, ⟨21, _⟩ => ⟨S4x128x32x1, .i32⟩
  | .hbm, ⟨22, _⟩ => ⟨S1x1x1x21, .i32⟩
  | .hbm, ⟨23, _⟩ => ⟨S4x128x32x21, .i32⟩
  | .hbm, ⟨24, _⟩ => ⟨S4x128x32x21, .i32⟩
  | .hbm, ⟨25, _⟩ => ⟨S4x128x32x21, .i1⟩
  | .hbm, ⟨26, _⟩ => ⟨S4x128x32x21, .f32⟩
  | .hbm, ⟨27, _⟩ => ⟨S_, .f32⟩
  | .hbm, ⟨28, _⟩ => ⟨S4x128x21, .f32⟩
  | .hbm, ⟨29, _⟩ => ⟨S4x128x21, .bf16⟩
  | .hbm, ⟨30, _⟩ => ⟨S128x10000, .bf16⟩
  | .hbm, ⟨31, _⟩ => ⟨S21x10000, .bf16⟩
  | .hbm, ⟨32, _⟩ => ⟨S4x1x10, .f32⟩
  | .hbm, ⟨33, _⟩ => ⟨S4x10, .f32⟩
  | .local _ .vmem, ⟨0, _⟩ => ⟨S1x128x21, .bf16⟩
  | .local _ .vmem, ⟨1, _⟩ => ⟨S1x128x21, .bf16⟩
  | .local _ .vmem, ⟨2, _⟩ => ⟨S128x10000, .bf16⟩
  | .local _ .vmem, ⟨3, _⟩ => ⟨S21x10000, .bf16⟩
  | .local _ .vmem, ⟨4, _⟩ => ⟨S10x10000, .f32⟩
  | .local _ .vmem, ⟨5, _⟩ => ⟨S1x1x10, .f32⟩
  | .local _ .vmem, ⟨6, _⟩ => ⟨S1x1x10, .f32⟩
  | _, _ => ⟨S4x128x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_c_1 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v5 : Ref sig .tc := ⟨.hbm, 19, rfl⟩
abbrev main_v6 : Ref sig .tc := ⟨.hbm, 20, rfl⟩
abbrev main_call2_v0 : Ref sig .tc := ⟨.hbm, 21, rfl⟩
abbrev main_call2_v1 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x21 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x10000 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S21x10000 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x10000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x10 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S4x128x32 : S_.BroadcastsInDim S4x128x32 (![] : Fin 0 → Fin S4x128x32.rank)
  bcast_S4x128x32_S4x128x32x1_0_1_2 : S4x128x32.BroadcastsInDim S4x128x32x1 (![0, 1, 2] : Fin 3 → Fin S4x128x32x1.rank)
  bcast_S4x128x32x1_S4x128x32x21_0_1_2_3 : S4x128x32x1.BroadcastsInDim S4x128x32x21 (![0, 1, 2, 3] : Fin 4 → Fin S4x128x32x21.rank)
  bcast_S1x1x1x21_S4x128x32x21_0_1_2_3 : S1x1x1x21.BroadcastsInDim S4x128x32x21 (![0, 1, 2, 3] : Fin 4 → Fin S4x128x32x21.rank)
  reducesTo_S4x128x32x21_S4x128x21_d2 : S4x128x32x21.ReducesTo [2] S4x128x21
  h_S_ : 0 < S_.numel
  bitsLt_bf16_f32 : FTy.bits .bf16 < FTy.bits .f32
  inb_S128x10000_S128x10000_0_0 : ∀ a, (![0, 0] : Fin 2 → Nat) a + S128x10000.size a ≤ S128x10000.size a
  h_S128x10000 : 0 < S128x10000.numel
  shapeCasts_S128x10000_S128x10000 : S128x10000.ShapeCasts S128x10000
  inb_S21x10000_S21x10000_0_0 : ∀ a, (![0, 0] : Fin 2 → Nat) a + S21x10000.size a ≤ S21x10000.size a
  h_S21x10000 : 0 < S21x10000.numel
  shapeCasts_S21x10000_S21x10000 : S21x10000.ShapeCasts S21x10000
  inb_S10x10000_S10x10000_0_0 : ∀ a, (![0, 0] : Fin 2 → Nat) a + S10x10000.size a ≤ S10x10000.size a
  h_S10x10000 : 0 < S10x10000.numel
  inb_S1x128x21_S1x128x21_0_0_0 : ∀ a, (![0, 0, 0] : Fin 3 → Nat) a + S1x128x21.size a ≤ S1x128x21.size a
  h_S1x128x21 : 0 < S1x128x21.numel
  shapeCasts_S1x128x21_S128x21 : S1x128x21.ShapeCasts S128x21
  slices_S128x10000_o0_0_S125x10000 : S128x10000.Slices ![0, 0] S125x10000
  slices_S125x10000_o0_9997_S125x3 : S125x10000.Slices ![0, 9997] S125x3
  slices_S125x10000_o0_0_S125x9997 : S125x10000.Slices ![0, 0] S125x9997
  concatenates_S125x3_S125x9997_S125x10000_d1 : Shape.Concatenates [S125x3, S125x9997] S125x10000 1
  slices_S128x10000_o1_0_S125x10000 : S128x10000.Slices ![1, 0] S125x10000
  slices_S125x10000_o0_9998_S125x2 : S125x10000.Slices ![0, 9998] S125x2
  slices_S125x10000_o0_0_S125x9998 : S125x10000.Slices ![0, 0] S125x9998
  concatenates_S125x2_S125x9998_S125x10000_d1 : Shape.Concatenates [S125x2, S125x9998] S125x10000 1
  slices_S128x10000_o2_0_S125x10000 : S128x10000.Slices ![2, 0] S125x10000
  slices_S125x10000_o0_9999_S125x1 : S125x10000.Slices ![0, 9999] S125x1
  slices_S125x10000_o0_0_S125x9999 : S125x10000.Slices ![0, 0] S125x9999
  concatenates_S125x1_S125x9999_S125x10000_d1 : Shape.Concatenates [S125x1, S125x9999] S125x10000 1
  slices_S128x10000_o3_0_S125x10000 : S128x10000.Slices ![3, 0] S125x10000
  reduces_S125x10000_S10000 : S125x10000.Reduces [0] S10000
  shapeCasts_S10000_S1x10000 : S10000.ShapeCasts S1x10000
  shapeCasts_S1x10_S10 : S1x10.ShapeCasts S10
  inb_S1x1x10_S1x1x10_0_0_0 : ∀ a, (![0, 0, 0] : Fin 3 → Nat) a + S1x1x10.size a ≤ S1x1x10.size a
  h_S1x1x10 : 0 < S1x1x10.numel
  shapeCasts_S1x1x10_S10 : S1x1x10.ShapeCasts S10
  shapeCasts_S10_S1x1x10 : S10.ShapeCasts S1x1x10
  shapeCasts_S4x1x10_S4x10 : S4x1x10.ShapeCasts S4x10
  dot_S128x21_S21x10000_S128x10000_1_0_0_1_n_n_wf : DotDims.WF S128x21 S21x10000 S128x10000 [1] [0] [0] [1] [] []
  dot_S1x10000_S10x10000_S1x10_1_1_0_0_n_n_wf : DotDims.WF S1x10000 S10x10000 S1x10 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x21.size a ≤ S4x128x21.size a
  hwx0_0 : ∀ i : grid0.Coords, EltTy.bits .bf16 = 32 ∨ (Rect.block (s := S4x128x21) S1x128x21.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x10000.size a ≤ S128x10000.size a
  hwx0_1 : ∀ i : grid0.Coords, EltTy.bits .bf16 = 32 ∨ (Rect.block (s := S128x10000) S128x10000.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S21x10000.size a ≤ S21x10000.size a
  hwx0_2 : ∀ i : grid0.Coords, EltTy.bits .bf16 = 32 ∨ (Rect.block (s := S21x10000) S21x10000.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x10000.size a ≤ S10x10000.size a
  hwx0_3 : ∀ i : grid0.Coords, EltTy.bits .f32 = 32 ∨ (Rect.block (s := S10x10000) S10x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x10.size a ≤ S4x1x10.size a
  hwx0_4 : ∀ i : grid0.Coords, EltTy.bits .f32 = 32 ∨ (Rect.block (s := S4x1x10) S1x1x10.size (cc0_transform_4 i) (hinb0_4 i)).WholeWords (EltTy.packing .f32)

variable [Facts₀]

def dot_S128x21_S21x10000_S128x10000_1_0_0_1_n_n : DotDims S128x21 S21x10000 S128x10000 where
  lhsContracting := [1]
  rhsContracting := [0]
  lhsNonContracting := [0]
  rhsNonContracting := [1]
  lhsBatch := []
  rhsBatch := []
  wf := dot_S128x21_S21x10000_S128x10000_1_0_0_1_n_n_wf
def dot_S1x10000_S10x10000_S1x10_1_1_0_0_n_n : DotDims S1x10000 S10x10000 S1x10 where
  lhsContracting := [1]
  rhsContracting := [1]
  lhsNonContracting := [0]
  rhsNonContracting := [0]
  lhsBatch := []
  rhsBatch := []
  wf := dot_S1x10000_S10x10000_S1x10_1_1_0_0_n_n_wf

abbrev win0_0 : Pipeline.Window sig grid0 :=
  Pipeline.Window.ofSpec (Memref.whole main_v9) S1x128x21.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S128x10000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S21x10000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S10x10000.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x1x10.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x128x32 : Shape := ⟨3, ![4, 128, 32]⟩
abbrev S21x10000 : Shape := ⟨2, ![21, 10000]⟩
abbrev S32x10000 : Shape := ⟨2, ![32, 10000]⟩
abbrev S128x10000 : Shape := ⟨2, ![128, 10000]⟩
abbrev S10x10000 : Shape := ⟨2, ![10, 10000]⟩
abbrev S_ : Shape := ⟨0, ![]⟩
abbrev S4x128x32x1 : Shape := ⟨4, ![4, 128, 32, 1]⟩
abbrev S4x128x32x10000 : Shape := ⟨4, ![4, 128, 32, 10000]⟩
abbrev S1x128x1x10000 : Shape := ⟨4, ![1, 128, 1, 10000]⟩
abbrev S4x128x10000 : Shape := ⟨3, ![4, 128, 10000]⟩
abbrev S4x125x10000 : Shape := ⟨3, ![4, 125, 10000]⟩
abbrev S4x125x3 : Shape := ⟨3, ![4, 125, 3]⟩
abbrev S4x125x9997 : Shape := ⟨3, ![4, 125, 9997]⟩
abbrev S4x125x2 : Shape := ⟨3, ![4, 125, 2]⟩
abbrev S4x125x9998 : Shape := ⟨3, ![4, 125, 9998]⟩
abbrev S4x125x1 : Shape := ⟨3, ![4, 125, 1]⟩
abbrev S4x125x9999 : Shape := ⟨3, ![4, 125, 9999]⟩
abbrev S4x125x0 : Shape := ⟨3, ![4, 125, 0]⟩
abbrev S4x10000 : Shape := ⟨2, ![4, 10000]⟩
abbrev S10000x10 : Shape := ⟨2, ![10000, 10]⟩
abbrev S4x10 : Shape := ⟨2, ![4, 10]⟩

abbrev nBuf : Space → Nat
  | .hbm => 66
  | .vmem => 0
  | .smem => 0
  | _ => 0

abbrev bufTy : (tb : Table) → Fin (tcTables nBuf tb) → BufTy
  | .hbm, ⟨0, _⟩ => ⟨S4x128x32, .f32⟩
  | .hbm, ⟨1, _⟩ => ⟨S21x10000, .f32⟩
  | .hbm, ⟨2, _⟩ => ⟨S32x10000, .f32⟩
  | .hbm, ⟨3, _⟩ => ⟨S128x10000, .f32⟩
  | .hbm, ⟨4, _⟩ => ⟨S10x10000, .f32⟩
  | .hbm, ⟨5, _⟩ => ⟨S_, .f32⟩
  | .hbm, ⟨6, _⟩ => ⟨S4x128x32, .f32⟩
  | .hbm, ⟨7, _⟩ => ⟨S4x128x32, .f32⟩
  | .hbm, ⟨8, _⟩ => ⟨S_, .f32⟩
  | .hbm, ⟨9, _⟩ => ⟨S4x128x32, .f32⟩
  | .hbm, ⟨10, _⟩ => ⟨S4x128x32, .f32⟩
  | .hbm, ⟨11, _⟩ => ⟨S4x128x32, .f32⟩
  | .hbm, ⟨12, _⟩ => ⟨S_, .i32⟩
  | .hbm, ⟨13, _⟩ => ⟨S_, .i32⟩
  | .hbm, ⟨14, _⟩ => ⟨S_, .f32⟩
  | .hbm, ⟨15, _⟩ => ⟨S4x128x32, .f32⟩
  | .hbm, ⟨16, _⟩ => ⟨S4x128x32, .f32⟩
  | .hbm, ⟨17, _⟩ => ⟨S_, .f32⟩
  | .hbm, ⟨18, _⟩ => ⟨S4x128x32, .f32⟩
  | .hbm, ⟨19, _⟩ => ⟨S4x128x32, .f32⟩
  | .hbm, ⟨20, _⟩ => ⟨S4x128x32, .i32⟩
  | .hbm, ⟨21, _⟩ => ⟨S_, .i32⟩
  | .hbm, ⟨22, _⟩ => ⟨S4x128x32, .i32⟩
  | .hbm, ⟨23, _⟩ => ⟨S4x128x32, .i1⟩
  | .hbm, ⟨24, _⟩ => ⟨S_, .i32⟩
  | .hbm, ⟨25, _⟩ => ⟨S4x128x32, .i32⟩
  | .hbm, ⟨26, _⟩ => ⟨S4x128x32, .i32⟩
  | .hbm, ⟨27, _⟩ => ⟨S4x128x32, .i32⟩
  | .hbm, ⟨28, _⟩ => ⟨S4x128x32x1, .i32⟩
  | .hbm, ⟨29, _⟩ => ⟨S4x128x32x10000, .f32⟩
  | .hbm, ⟨30, _⟩ => ⟨S1x128x1x10000, .f32⟩
  | .hbm, ⟨31, _⟩ => ⟨S4x128x32x10000, .f32⟩
  | .hbm, ⟨32, _⟩ => ⟨S4x128x32x10000, .f32⟩
  | .hbm, ⟨33, _⟩ => ⟨S_, .f32⟩
  | .hbm, ⟨34, _⟩ => ⟨S4x128x10000, .f32⟩
  | .hbm, ⟨35, _⟩ => ⟨S4x125x10000, .f32⟩
  | .hbm, ⟨36, _⟩ => ⟨S4x125x3, .f32⟩
  | .hbm, ⟨37, _⟩ => ⟨S4x125x9997, .f32⟩
  | .hbm, ⟨38, _⟩ => ⟨S4x125x10000, .f32⟩
  | .hbm, ⟨39, _⟩ => ⟨S4x125x10000, .f32⟩
  | .hbm, ⟨40, _⟩ => ⟨S4x125x2, .f32⟩
  | .hbm, ⟨41, _⟩ => ⟨S4x125x9998, .f32⟩
  | .hbm, ⟨42, _⟩ => ⟨S4x125x10000, .f32⟩
  | .hbm, ⟨43, _⟩ => ⟨S4x125x10000, .f32⟩
  | .hbm, ⟨44, _⟩ => ⟨S4x125x10000, .f32⟩
  | .hbm, ⟨45, _⟩ => ⟨S4x125x1, .f32⟩
  | .hbm, ⟨46, _⟩ => ⟨S4x125x9999, .f32⟩
  | .hbm, ⟨47, _⟩ => ⟨S4x125x10000, .f32⟩
  | .hbm, ⟨48, _⟩ => ⟨S4x125x10000, .f32⟩
  | .hbm, ⟨49, _⟩ => ⟨S4x125x10000, .f32⟩
  | .hbm, ⟨50, _⟩ => ⟨S4x125x10000, .f32⟩
  | .hbm, ⟨51, _⟩ => ⟨S4x125x0, .f32⟩
  | .hbm, ⟨52, _⟩ => ⟨S4x125x10000, .f32⟩
  | .hbm, ⟨53, _⟩ => ⟨S4x125x10000, .f32⟩
  | .hbm, ⟨54, _⟩ => ⟨S_, .f32⟩
  | .hbm, ⟨55, _⟩ => ⟨S4x10000, .f32⟩
  | .hbm, ⟨56, _⟩ => ⟨S_, .f32⟩
  | .hbm, ⟨57, _⟩ => ⟨S4x10000, .f32⟩
  | .hbm, ⟨58, _⟩ => ⟨S4x10000, .i1⟩
  | .hbm, ⟨59, _⟩ => ⟨S_, .f32⟩
  | .hbm, ⟨60, _⟩ => ⟨S_, .f32⟩
  | .hbm, ⟨61, _⟩ => ⟨S4x10000, .f32⟩
  | .hbm, ⟨62, _⟩ => ⟨S4x10000, .f32⟩
  | .hbm, ⟨63, _⟩ => ⟨S4x10000, .f32⟩
  | .hbm, ⟨64, _⟩ => ⟨S10000x10, .f32⟩
  | .hbm, ⟨65, _⟩ => ⟨S4x10, .f32⟩
  | _, _ => ⟨S4x128x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_c_1 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v5 : Ref sig .tc := ⟨.hbm, 19, rfl⟩
abbrev main_v6 : Ref sig .tc := ⟨.hbm, 20, rfl⟩
abbrev main_c_2 : Ref sig .tc := ⟨.hbm, 21, rfl⟩
abbrev main_v7 : Ref sig .tc := ⟨.hbm, 22, rfl⟩
abbrev main_v8 : Ref sig .tc := ⟨.hbm, 23, rfl⟩
abbrev main_c_3 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_4 : Ref sig .tc := ⟨.hbm, 33, rfl⟩
abbrev main_v17 : Ref sig .tc := ⟨.hbm, 34, rfl⟩
abbrev main_v18 : Ref sig .tc := ⟨.hbm, 35, rfl⟩
abbrev main_call2_v0 : Ref sig .tc := ⟨.hbm, 36, rfl⟩
abbrev main_call2_v1 : Ref sig .tc := ⟨.hbm, 37, rfl⟩
abbrev main_v19 : Ref sig .tc := ⟨.hbm, 38, rfl⟩
abbrev main_v20 : Ref sig .tc := ⟨.hbm, 39, rfl⟩
abbrev main_call3_v0 : Ref sig .tc := ⟨.hbm, 40, rfl⟩
abbrev main_call3_v1 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_call4_v0 : Ref sig .tc := ⟨.hbm, 45, rfl⟩
abbrev main_call4_v1 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_call5_v0 : Ref sig .tc := ⟨.hbm, 50, rfl⟩
abbrev main_call5_v1 : Ref sig .tc := ⟨.hbm, 51, rfl⟩
abbrev main_v27 : Ref sig .tc := ⟨.hbm, 52, rfl⟩
abbrev main_v28 : Ref sig .tc := ⟨.hbm, 53, rfl⟩
abbrev main_cst_5 : Ref sig .tc := ⟨.hbm, 54, rfl⟩
abbrev main_v29 : Ref sig .tc := ⟨.hbm, 55, rfl⟩
abbrev main_cst_6 : Ref sig .tc := ⟨.hbm, 56, rfl⟩
abbrev main_v30 : Ref sig .tc := ⟨.hbm, 57, rfl⟩
abbrev main_v31 : Ref sig .tc := ⟨.hbm, 58, rfl⟩
abbrev main_cst_7 : Ref sig .tc := ⟨.hbm, 59, rfl⟩
abbrev main_cst_8 : Ref sig .tc := ⟨.hbm, 60, rfl⟩
abbrev main_call6_v0 : Ref sig .tc := ⟨.hbm, 61, rfl⟩
abbrev main_call6_v1 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩

abbrev nD : Nat := 1
abbrev τ : Topo := Topo.v7x

variable {F : FTy → Type} [FloatOps F]

class Facts₀ : Prop where
  bcast_S_S4x128x32 : S_.BroadcastsInDim S4x128x32 (![] : Fin 0 → Fin S4x128x32.rank)
  bcast_S4x128x32_S4x128x32x1_0_1_2 : S4x128x32.BroadcastsInDim S4x128x32x1 (![0, 1, 2] : Fin 3 → Fin S4x128x32x1.rank)
  bcast_S128x10000_S1x128x1x10000_1_3 : S128x10000.BroadcastsInDim S1x128x1x10000 (![1, 3] : Fin 2 → Fin S1x128x1x10000.rank)
  bcast_S1x128x1x10000_S4x128x32x10000_0_1_2_3 : S1x128x1x10000.BroadcastsInDim S4x128x32x10000 (![0, 1, 2, 3] : Fin 4 → Fin S4x128x32x10000.rank)
  reducesTo_S4x128x32x10000_S4x128x10000_d2 : S4x128x32x10000.ReducesTo [2] S4x128x10000
  h_S_ : 0 < S_.numel
  slices_S4x128x10000_S4x125x10000_0_0_0 : S4x128x10000.Slices ![0, 0, 0] S4x125x10000
  slices_S4x125x10000_S4x125x3_0_0_9997 : S4x125x10000.Slices ![0, 0, 9997] S4x125x3
  slices_S4x125x10000_S4x125x9997_0_0_0 : S4x125x10000.Slices ![0, 0, 0] S4x125x9997
  concatenates_S4x125x3_S4x125x9997_S4x125x10000_d2 : Shape.Concatenates [S4x125x3, S4x125x9997] S4x125x10000 2
  slices_S4x128x10000_S4x125x10000_0_1_0 : S4x128x10000.Slices ![0, 1, 0] S4x125x10000
  slices_S4x125x10000_S4x125x2_0_0_9998 : S4x125x10000.Slices ![0, 0, 9998] S4x125x2
  slices_S4x125x10000_S4x125x9998_0_0_0 : S4x125x10000.Slices ![0, 0, 0] S4x125x9998
  concatenates_S4x125x2_S4x125x9998_S4x125x10000_d2 : Shape.Concatenates [S4x125x2, S4x125x9998] S4x125x10000 2
  slices_S4x128x10000_S4x125x10000_0_2_0 : S4x128x10000.Slices ![0, 2, 0] S4x125x10000
  slices_S4x125x10000_S4x125x1_0_0_9999 : S4x125x10000.Slices ![0, 0, 9999] S4x125x1
  slices_S4x125x10000_S4x125x9999_0_0_0 : S4x125x10000.Slices ![0, 0, 0] S4x125x9999
  concatenates_S4x125x1_S4x125x9999_S4x125x10000_d2 : Shape.Concatenates [S4x125x1, S4x125x9999] S4x125x10000 2
  slices_S4x128x10000_S4x125x10000_0_3_0 : S4x128x10000.Slices ![0, 3, 0] S4x125x10000
  slices_S4x125x10000_S4x125x10000_0_0_0 : S4x125x10000.Slices ![0, 0, 0] S4x125x10000
  slices_S4x125x10000_S4x125x0_0_0_0 : S4x125x10000.Slices ![0, 0, 0] S4x125x0
  concatenates_S4x125x10000_S4x125x0_S4x125x10000_d2 : Shape.Concatenates [S4x125x10000, S4x125x0] S4x125x10000 2
  reducesTo_S4x125x10000_S4x10000_d1 : S4x125x10000.ReducesTo [1] S4x10000
  bcast_S_S4x10000 : S_.BroadcastsInDim S4x10000 (![] : Fin 0 → Fin S4x10000.rank)
  transposes_S10x10000_S10000x10_1_0 : S10x10000.Transposes [1, 0] S10000x10
  gather_S21x10000_S4x128x32x1_S4x128x32x10000_3_0_n_n_0_3_110000_wf : GatherDims.WF S21x10000 S4x128x32x1 S4x128x32x10000 [3] [0] [] [0] [] 3 ![1, 10000]
  dot_S4x10000_S10000x10_S4x10_1_0_0_1_n_n_wf : DotDims.WF S4x10000 S10000x10 S4x10 [1] [0] [0] [1] [] []

variable [Facts₀]

def gather_S21x10000_S4x128x32x1_S4x128x32x10000_3_0_n_n_0_3_110000 : GatherDims S21x10000 S4x128x32x1 S4x128x32x10000 where
  offsetDims := [3]
  collapsedSliceDims := [0]
  operandBatchingDims := []
  startIndicesBatchingDims := []
  startIndexMap := [0]
  indexVectorDim := 3
  sliceSizes := ![1, 10000]
  wf := gather_S21x10000_S4x128x32x1_S4x128x32x10000_3_0_n_n_0_3_110000_wf
def dot_S4x10000_S10000x10_S4x10_1_0_0_1_n_n : DotDims S4x10000 S10000x10 S4x10 where
  lhsContracting := [1]
  rhsContracting := [0]
  lhsNonContracting := [0]
  rhsNonContracting := [1]
  lhsBatch := []
  rhsBatch := []
  wf := dot_S4x10000_S10000x10_S4x10_1_0_0_1_n_n_wf

class Facts : Prop extends Facts₀ where

variable [Facts]
-- ==== Proof.Spec.lean ====
/-
  The encoder as functions on the extended reals, free of either program.

  A reading x is sent to its LEVEL, an integer between 0 and 20.  Row t of a batch element's SAMPLES is, entry by
  entry, the sum over the 32 channels of the level vector of that channel's reading, times the time vector of t.  Four
  consecutive rows, moved cyclically 3, 2, 1 and 0 places to the right, are multiplied entry by entry (an n-gram); the
  125 n-grams are added up; each entry of the total is replaced by +1 where it is positive and by -1 elsewhere; and the
  resulting vector of signs is paired with each of the 10 class vectors.

  The sum over the channels is written in two ways.  One counts, for each of the 21 levels, the channels at that level,
  and adds the level vectors weighted by these counts, the time vector multiplied in afterwards.  The other looks the
  level vector of each channel up and adds the 32 products with the time vector.  `sample_two_ways` says the two agree
  when the level vectors' and the time vector's entries are real numbers and every level is one of 0, ..., 20.
-/
import Idealize.ShloMosaic.PureOps.Ideal.Laws
import Idealize.ShloMosaic.Lib.ValueIdx

noncomputable section

open scoped BigOperators

namespace Cert.Hdc

open Idealize.ShloMosaic

/-! ## From the samples to the class scores -/

/-- The place a vector of 10000 entries moved cyclically k places to the right takes its entry d from:
    d + (10000 - k) on the first k places, d - k on the others. -/
def back (k : Nat) (d : Fin 10000) : Fin 10000 := ⟨(d.val + (10000 - k)) % 10000, Nat.mod_lt _ (by decide)⟩

theorem back_val_of_lt {k : Nat} {d : Fin 10000} (hk : k ≤ 10000) (h : d.val < k) : (back k d).val = d.val + (10000 - k) := by
  show (d.val + (10000 - k)) % 10000 = _
  have := d.isLt
  omega

theorem back_val_of_le {k : Nat} {d : Fin 10000} (hk : k ≤ 10000) (h : k ≤ d.val) : (back k d).val = d.val - k := by
  show (d.val + (10000 - k)) % 10000 = _
  have := d.isLt
  omega

theorem back_zero (d : Fin 10000) : back 0 d = d := Fin.ext (by
  show (d.val + (10000 - 0)) % 10000 = d.val
  have := d.isLt
  omega)

/-- The n-gram starting at row t: rows t, t+1, t+2, t+3 moved 3, 2, 1, 0 places to the right, multiplied entry by entry. -/
def gram (s : Fin 128 → Fin 10000 → EReal) (t : Fin 125) (d : Fin 10000) : EReal :=
  s ⟨t.val, by omega⟩ (back 3 d) * s ⟨t.val + 1, by omega⟩ (back 2 d) * s ⟨t.val + 2, by omega⟩ (back 1 d)
    * s ⟨t.val + 3, by omega⟩ d

/-- The 125 n-grams added up. -/
def bundle (s : Fin 128 → Fin 10000 → EReal) (d : Fin 10000) : EReal := ∑ t : Fin 125, gram s t d

/-- +1 on the positive extended reals, -1 on the others. -/
def sign (x : EReal) : EReal :=
  Scalar.select (Ideal.cmp .ogt x (Ideal.ofBits .f32 0x00000000#32)) (Ideal.ofBits .f32 0x3F800000#32)
    (Ideal.ofBits .f32 0xBF800000#32)

/-- The score of class n: the signs of the bundle paired with class vector n. -/
def score (s : Fin 128 → Fin 10000 → EReal) (cls : Fin 10 → Fin 10000 → EReal) (n : Fin 10) : EReal :=
  ∑ d : Fin 10000, sign (bundle s d) * cls n d

/-! ## The level of a reading -/

/-- The reading divided by 20, multiplied by 20, rounded to the nearest integer (ties to even), held between 0 and 20,
    and converted to a 32-bit integer. -/
def level (x : EReal) : BitVec 32 :=
  Ideal.fptosi 32
    (min (((20#32 : BitVec 32).toInt : ℝ) : EReal)
      (max (((0#32 : BitVec 32).toInt : ℝ) : EReal)
        (Ideal.liftRound Ideal.roundHalfEven
          (Ideal.div x (Ideal.ofBits .f32 0x41A00000#32) * Ideal.ofBits .f32 0x41A00000#32))))

/-! ## One entry of the samples, two ways -/

/-- 1 when the level v is l, 0 when it is not. -/
def hot (v : BitVec 32) (l : Fin 21) : EReal := (((IntOp.cmpi .eq v (BitVec.ofNat 32 l.val)).toNat : ℝ) : EReal)

/-- By counting: the number of channels at each level weights that level's entry; the time entry is multiplied in last. -/
def sampleByCount (lv : Fin 32 → BitVec 32) (sig : Fin 21 → EReal) (ts : EReal) : EReal :=
  (∑ l : Fin 21, (∑ c : Fin 32, hot (lv c) l) * sig l) * ts

/-- The row of the level table a 32-bit integer v selects: v + 21 when v is negative, v otherwise, read as a signed
    integer and held between 0 and 20. -/
def row (v : BitVec 32) : Fin 21 :=
  ⟨min (Scalar.select (IntOp.cmpi .slt v 0#32) (IntOp.addi v 21#32) v).toInt.toNat 20, by omega⟩

/-- By looking up: each channel's level entry times the time entry, the 32 products added. -/
def sampleByLookup (lv : Fin 32 → BitVec 32) (sig : Fin 21 → EReal) (ts : EReal) : EReal :=
  ∑ c : Fin 32, sig (row (lv c)) * ts

end Cert.Hdc

end
-- ==== Proof.LibMatmulPlain.lean ====
/-
  A plain matrix product read at an entry. For dimension numbers that contract the left operand's axis 1 with the right
  operand's axis 0 and have no batch axis, the product of an [A, K] and a [K, B] array accumulated into the zero splat
  has, at `(p, q)`, the value `∑ k, lhs (p, k) * rhs (k, q)` on the extended reals; for any sizes A, K, B and any two
  float formats of the operands (a change of format is the identity on the extended reals).
-/
import Idealize.ShloMosaic.PureOps.Ideal.Laws
import Idealize.ShloMosaic.Lib.ValueIdx

noncomputable section

open scoped BigOperators
open Idealize.ShloMosaic Idealize.ShloMosaic.ValueIdx

namespace MatmulPlain

/-- The matrix product into a zero accumulator at entry `(p, q)`. -/
theorem matmul_zero_apply {A K B : Nat} {φ₁ φ₂ : FTy}
    (d : DotDims ⟨2, ![A, K]⟩ ⟨2, ![K, B]⟩ ⟨2, ![A, B]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (lhs : FVec Ideal ⟨2, ![A, K]⟩ φ₁) (rhs : FVec Ideal ⟨2, ![K, B]⟩ φ₂) (p : Fin A) (q : Fin B) :
    matmul d prec lhs rhs (constant ⟨2, ![A, B]⟩ .f32 0x00000000#32) (ix2 p q)
      = ∑ k : Fin K, lhs (ix2 p k) * rhs (ix2 k q) := by
  obtain ⟨lc, rc, ln, rn, lb, rb, wf⟩ := d
  simp only at hlc hrc hln hrn hlb hrb
  subst hlc hrc hln hrn hlb hrb
  let D : DotDims ⟨2, ![A, K]⟩ ⟨2, ![K, B]⟩ ⟨2, ![A, B]⟩ := ⟨[1], [0], [0], [1], [], [], wf⟩
  refine (Ideal.matmul_constant_zero_apply D prec lhs rhs (ix2 p q)).trans ?_
  rw [← Equiv.sum_comp (contrEquiv1 D K rfl rfl).symm]
  refine Finset.sum_congr rfl fun k _ => ?_
  have hk := contrEquiv1_symm_val D K rfl rfl k
  have l0 : (D.lhsIdx (ix2 p q) ((contrEquiv1 D K rfl rfl).symm k) (0 : Fin 2)).val = p.val := by
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have l1 : (D.lhsIdx (ix2 p q) ((contrEquiv1 D K rfl rfl).symm k) (1 : Fin 2)).val = k.val :=
    (D.lhsIdx_val_of_single rfl (ix2 p q) _).trans hk
  have r0 : (D.rhsIdx (ix2 p q) ((contrEquiv1 D K rfl rfl).symm k) (0 : Fin 2)).val = k.val :=
    (D.rhsIdx_val_of_single rfl (ix2 p q) _).trans hk
  have r1 : (D.rhsIdx (ix2 p q) ((contrEquiv1 D K rfl rfl).symm k) (1 : Fin 2)).val = q.val := by
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  have el : D.lhsIdx (ix2 p q) ((contrEquiv1 D K rfl rfl).symm k) = ix2 p k := funext fun a => Fin.ext (by
    match a with
    | ⟨0, _⟩ => exact l0
    | ⟨1, _⟩ => exact l1)
  have er : D.rhsIdx (ix2 p q) ((contrEquiv1 D K rfl rfl).symm k) = ix2 k q := funext fun a => Fin.ext (by
    match a with
    | ⟨0, _⟩ => exact r0
    | ⟨1, _⟩ => exact r1)
  rw [el, er]

end MatmulPlain

end
-- ==== Proof.LibMatmulTransposed.lean ====
/-
  A matrix product with a transposed right operand, read at an entry. For dimension numbers that contract the left
  operand's axis 1 with the right operand's axis 1 and have no batch axis, the product of an [A, K] and a [B, K] array
  accumulated into the zero splat has, at (p, q), the value  sum over k of lhs (p, k) * rhs (q, k)  on the extended
  reals: the left operand times the transpose of the right one; for any sizes A, K, B and any two float formats of the
  operands (a change of format is the identity on the extended reals).
-/
import Idealize.ShloMosaic.PureOps.Ideal.Laws
import Idealize.ShloMosaic.Lib.ValueIdx

noncomputable section

open scoped BigOperators
open Idealize.ShloMosaic Idealize.ShloMosaic.ValueIdx

namespace MatmulTransposed

/-- The product with the transpose of the right operand, into a zero accumulator, at entry (p, q). -/
theorem matmul_zero_apply {A K B : Nat} {φ₁ φ₂ : FTy}
    (d : DotDims ⟨2, ![A, K]⟩ ⟨2, ![B, K]⟩ ⟨2, ![A, B]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision)
    (lhs : FVec Ideal ⟨2, ![A, K]⟩ φ₁) (rhs : FVec Ideal ⟨2, ![B, K]⟩ φ₂) (p : Fin A) (q : Fin B) :
    matmul d prec lhs rhs (constant ⟨2, ![A, B]⟩ .f32 0x00000000#32) (ix2 p q)
      = ∑ k : Fin K, lhs (ix2 p k) * rhs (ix2 q k) := by
  obtain ⟨lc, rc, ln, rn, lb, rb, wf⟩ := d
  simp only at hlc hrc hln hrn hlb hrb
  subst hlc hrc hln hrn hlb hrb
  let D : DotDims ⟨2, ![A, K]⟩ ⟨2, ![B, K]⟩ ⟨2, ![A, B]⟩ := ⟨[1], [1], [0], [0], [], [], wf⟩
  refine (Ideal.matmul_constant_zero_apply D prec lhs rhs (ix2 p q)).trans ?_
  rw [← Equiv.sum_comp (contrEquiv1 D K rfl rfl).symm]
  refine Finset.sum_congr rfl fun k _ => ?_
  have hk := contrEquiv1_symm_val D K rfl rfl k
  have l0 : (D.lhsIdx (ix2 p q) ((contrEquiv1 D K rfl rfl).symm k) (0 : Fin 2)).val = p.val := by
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have l1 : (D.lhsIdx (ix2 p q) ((contrEquiv1 D K rfl rfl).symm k) (1 : Fin 2)).val = k.val :=
    (D.lhsIdx_val_of_single rfl (ix2 p q) _).trans hk
  have r1 : (D.rhsIdx (ix2 p q) ((contrEquiv1 D K rfl rfl).symm k) (1 : Fin 2)).val = k.val :=
    (D.rhsIdx_val_of_single rfl (ix2 p q) _).trans hk
  have r0 : (D.rhsIdx (ix2 p q) ((contrEquiv1 D K rfl rfl).symm k) (0 : Fin 2)).val = q.val := by
    unfold DotDims.rhsIdx
    rw [dif_neg (show ¬(0 : Fin 2) ∈ ([] : List (Fin 2)) from List.not_mem_nil),
      dif_pos (show (0 : Fin 2) ∈ ([0] : List (Fin 2)) from List.mem_singleton.mpr rfl)]
    rfl
  have el : D.lhsIdx (ix2 p q) ((contrEquiv1 D K rfl rfl).symm k) = ix2 p k := funext fun a => Fin.ext (by
    match a with
    | ⟨0, _⟩ => exact l0
    | ⟨1, _⟩ => exact l1)
  have er : D.rhsIdx (ix2 p q) ((contrEquiv1 D K rfl rfl).symm k) = ix2 q k := funext fun a => Fin.ext (by
    match a with
    | ⟨0, _⟩ => exact r0
    | ⟨1, _⟩ => exact r1)
  rw [el, er]

end MatmulTransposed

end
-- ==== Proof.LibShiftPieces.lean ====
/-
  A cyclic shift written as two slices joined.  Moving the columns of a [T, D] array k places to the right, the last k
  columns coming round to the front, is spelt by programs as: the slice of the last k columns, joined along the column
  axis in front of the slice of the first r = D - k columns.  Read at (t, d) the joined array is the original at column
  d + r on the first k places and at column d - k on the others.  Stated for any sizes and any element type, with the
  column read named by the caller.  Also: a slice of 'rows off .. off + R' of a [T, D] array read at (t, d) is the
  original at (t + off, d).  Both are stated a second time for a [B, T, D] array (a batch axis in front, the shift along
  the last axis, the rows along the middle one).
-/
import Idealize.ShloMosaic.Lib.Pipeline.Value
import Idealize.ShloMosaic.Lib.ValueIdx

noncomputable section

namespace Cert.Lib.ShiftPieces

open Idealize.ShloMosaic Idealize.ShloMosaic.ValueIdx

/-- The last k columns joined in front of the first r columns, read at (t, d): the original at column j, where j is
    d + r when d < k and d - k when k ≤ d. -/
theorem shift2_apply {α : Type} {T D k r : Nat} (x : (⟨2, ![T, D]⟩ : Shape).Idx → α)
    (h1 : (⟨2, ![T, D]⟩ : Shape).Slices ![0, r] ⟨2, ![T, k]⟩) (h2 : (⟨2, ![T, D]⟩ : Shape).Slices ![0, 0] ⟨2, ![T, r]⟩)
    (hc : Shape.Concatenates [(⟨2, ![T, k]⟩ : Shape), ⟨2, ![T, r]⟩] ⟨2, ![T, D]⟩ 1)
    (t : Fin T) (d j : Fin D) (hlt : d.val < k → j.val = d.val + r) (hle : k ≤ d.val → j.val = d.val - k) :
    concatenate ⟨2, ![T, D]⟩ 1
        [⟨⟨2, ![T, k]⟩, extractStridedSlice ⟨2, ![T, k]⟩ ![0, r] x h1⟩, ⟨⟨2, ![T, r]⟩, extractStridedSlice ⟨2, ![T, r]⟩ ![0, 0] x h2⟩]
        hc (ix2 t d)
      = x (ix2 t j) := by
  by_cases h : d.val < k
  · refine (concatenate_pair_apply_left (t := ⟨2, ![T, D]⟩) (s₁ := ⟨2, ![T, k]⟩) (s₂ := ⟨2, ![T, r]⟩) (1 : Fin 2)
      (extractStridedSlice ⟨2, ![T, k]⟩ ![0, r] x h1) (extractStridedSlice ⟨2, ![T, r]⟩ ![0, 0] x h2) hc (ix2 t d) rfl
      (ix2 t (⟨d.val, h⟩ : Fin k)) (fun b => ?_)).trans ?_
    · match b with
      | ⟨0, _⟩ => rfl
      | ⟨1, _⟩ => rfl
    · refine extractStridedSlice_apply ![0, r] x h1 (ix2 t (⟨d.val, h⟩ : Fin k)) (ix2 t j) (fun a => ?_)
      match a with
      | ⟨0, _⟩ => show t.val = 0 + t.val; omega
      | ⟨1, _⟩ => show j.val = r + d.val; have := hlt h; omega
  · have hk : k ≤ d.val := Nat.le_of_not_lt h
    have hdr : d.val - k < r := by
      have e := hc.2.2
      have := d.isLt
      simp only [List.map, List.sum_cons, List.sum_nil] at e
      have e' : k + (r + 0) = D := e
      omega
    refine (concatenate_pair_apply_right (t := ⟨2, ![T, D]⟩) (s₁ := ⟨2, ![T, k]⟩) (s₂ := ⟨2, ![T, r]⟩) (1 : Fin 2)
      (extractStridedSlice ⟨2, ![T, k]⟩ ![0, r] x h1) (extractStridedSlice ⟨2, ![T, r]⟩ ![0, 0] x h2) hc (ix2 t d) rfl rfl
      (ix2 t (⟨d.val - k, hdr⟩ : Fin r)) (fun b hb => ?_) ?_).trans ?_
    · match b with
      | ⟨0, _⟩ => rfl
      | ⟨1, _⟩ => exact absurd rfl hb
    · show d.val - k + k = d.val; omega
    · refine extractStridedSlice_apply ![0, 0] x h2 (ix2 t (⟨d.val - k, hdr⟩ : Fin r)) (ix2 t j) (fun a => ?_)
      match a with
      | ⟨0, _⟩ => show t.val = 0 + t.val; omega
      | ⟨1, _⟩ => show j.val = 0 + (d.val - k); have := hle hk; omega

/-- Rows off, off + 1, ... of a [T, D] array as an [R, D] array, read at (t, d): the original at (t + off, d). -/
theorem rows2_apply {α : Type} {T R D off : Nat} (x : (⟨2, ![T, D]⟩ : Shape).Idx → α)
    (h : (⟨2, ![T, D]⟩ : Shape).Slices ![off, 0] ⟨2, ![R, D]⟩) (t : Fin R) (d : Fin D) (u : Fin T) (hu : u.val = t.val + off) :
    extractStridedSlice ⟨2, ![R, D]⟩ ![off, 0] x h (ix2 t d) = x (ix2 u d) := by
  refine extractStridedSlice_apply ![off, 0] x h (ix2 t d) (ix2 u d) (fun a => ?_)
  match a with
  | ⟨0, _⟩ => show u.val = off + t.val; omega
  | ⟨1, _⟩ => show d.val = 0 + d.val; omega

/-- The last k columns of a [B, T, D] array joined, along the last axis, in front of its first r columns, read at
    (b, t, d): the original at column j, where j is d + r when d < k and d - k when k ≤ d. -/
theorem shift3_apply {α : Type} {B T D k r : Nat} (x : (⟨3, ![B, T, D]⟩ : Shape).Idx → α)
    (h1 : (⟨3, ![B, T, D]⟩ : Shape).Slices ![0, 0, r] ⟨3, ![B, T, k]⟩)
    (h2 : (⟨3, ![B, T, D]⟩ : Shape).Slices ![0, 0, 0] ⟨3, ![B, T, r]⟩)
    (hc : Shape.Concatenates [(⟨3, ![B, T, k]⟩ : Shape), ⟨3, ![B, T, r]⟩] ⟨3, ![B, T, D]⟩ 2)
    (b : Fin B) (t : Fin T) (d j : Fin D) (hlt : d.val < k → j.val = d.val + r) (hle : k ≤ d.val → j.val = d.val - k) :
    concatenate ⟨3, ![B, T, D]⟩ 2
        [⟨⟨3, ![B, T, k]⟩, extractStridedSlice ⟨3, ![B, T, k]⟩ ![0, 0, r] x h1⟩,
         ⟨⟨3, ![B, T, r]⟩, extractStridedSlice ⟨3, ![B, T, r]⟩ ![0, 0, 0] x h2⟩]
        hc (ix3 b t d)
      = x (ix3 b t j) := by
  by_cases h : d.val < k
  · -- column d lies in the first piece, at its own place d
    refine (concatenate_pair_apply_left (t := ⟨3, ![B, T, D]⟩) (s₁ := ⟨3, ![B, T, k]⟩) (s₂ := ⟨3, ![B, T, r]⟩) (2 : Fin 3)
      (extractStridedSlice ⟨3, ![B, T, k]⟩ ![0, 0, r] x h1) (extractStridedSlice ⟨3, ![B, T, r]⟩ ![0, 0, 0] x h2) hc
      (ix3 b t d) rfl (ix3 b t (⟨d.val, h⟩ : Fin k)) (fun a => ?_)).trans ?_
    · match a with
      | ⟨0, _⟩ => rfl
      | ⟨1, _⟩ => rfl
      | ⟨2, _⟩ => rfl
    · refine extractStridedSlice_apply ![0, 0, r] x h1 (ix3 b t (⟨d.val, h⟩ : Fin k)) (ix3 b t j) (fun a => ?_)
      match a with
      | ⟨0, _⟩ => show b.val = 0 + b.val; omega
      | ⟨1, _⟩ => show t.val = 0 + t.val; omega
      | ⟨2, _⟩ => show j.val = r + d.val; have := hlt h; omega
  · -- column d lies in the second piece, at place d - k
    have hk : k ≤ d.val := Nat.le_of_not_lt h
    have hdr : d.val - k < r := by
      have e := hc.2.2
      have := d.isLt
      simp only [List.map, List.sum_cons, List.sum_nil] at e
      have e' : k + (r + 0) = D := e
      omega
    refine (concatenate_pair_apply_right (t := ⟨3, ![B, T, D]⟩) (s₁ := ⟨3, ![B, T, k]⟩) (s₂ := ⟨3, ![B, T, r]⟩) (2 : Fin 3)
      (extractStridedSlice ⟨3, ![B, T, k]⟩ ![0, 0, r] x h1) (extractStridedSlice ⟨3, ![B, T, r]⟩ ![0, 0, 0] x h2) hc
      (ix3 b t d) rfl rfl (ix3 b t (⟨d.val - k, hdr⟩ : Fin r)) (fun a ha => ?_) ?_).trans ?_
    · match a with
      | ⟨0, _⟩ => rfl
      | ⟨1, _⟩ => rfl
      | ⟨2, _⟩ => exact absurd rfl ha
    · show d.val - k + k = d.val; omega
    · refine extractStridedSlice_apply ![0, 0, 0] x h2 (ix3 b t (⟨d.val - k, hdr⟩ : Fin r)) (ix3 b t j) (fun a => ?_)
      match a with
      | ⟨0, _⟩ => show b.val = 0 + b.val; omega
      | ⟨1, _⟩ => show t.val = 0 + t.val; omega
      | ⟨2, _⟩ => show j.val = 0 + (d.val - k); have := hle hk; omega

/-- Rows off, off + 1, ... of every batch element of a [B, T, D] array, as a [B, R, D] array, read at (b, t, d): the
    original at (b, t + off, d). -/
theorem rows3_apply {α : Type} {B T R D off : Nat} (x : (⟨3, ![B, T, D]⟩ : Shape).Idx → α)
    (h : (⟨3, ![B, T, D]⟩ : Shape).Slices ![0, off, 0] ⟨3, ![B, R, D]⟩) (b : Fin B) (t : Fin R) (d : Fin D) (u : Fin T)
    (hu : u.val = t.val + off) :
    extractStridedSlice ⟨3, ![B, R, D]⟩ ![0, off, 0] x h (ix3 b t d) = x (ix3 b u d) := by
  refine extractStridedSlice_apply ![0, off, 0] x h (ix3 b t d) (ix3 b u d) (fun a => ?_)
  match a with
  | ⟨0, _⟩ => show b.val = 0 + b.val; omega
  | ⟨1, _⟩ => show u.val = off + t.val; omega
  | ⟨2, _⟩ => show d.val = 0 + d.val; omega

end Cert.Lib.ShiftPieces

end
-- ==== Proof.KernelBody.lean ====
/-
  One grid point's work, read entry by entry.  The body takes the block of channel counts of one batch element
  ([1, 128, 21]), the time table ([128, 10000]), the level table ([21, 10000]) and the class table ([10, 10000]) and
  stores ten class scores.  It is cut here into three stretches, each a whole-array function with its reading at an
  entry: the SAMPLES (counts times level table, times the time table entry by entry), the N-GRAMS (four row slices of
  the samples, three of them shifted cyclically, multiplied), and the SCORES (the n-grams added down the rows, the sign
  of each total, the signs paired with each class vector).  Their composition is the body's stored value, and at entry
  n it is the specification's `score` of the samples.
-/
import proofs.«142543_j35399120453698_2_alg».proof.Proof.Gen.KernelIdeal.Skeleton
import proofs.«142543_j35399120453698_2_alg».proof.Proof.Spec
import proofs.«142543_j35399120453698_2_alg».proof.Proof.LibMatmulPlain
import proofs.«142543_j35399120453698_2_alg».proof.Proof.LibMatmulTransposed
import proofs.«142543_j35399120453698_2_alg».proof.Proof.LibShiftPieces
import Idealize.ShloMosaic.Lib.Pipeline.Value
import Idealize.ShloMosaic.Lib.ValueIdx
import Idealize.ShloMosaic.PureOps.Ideal.Laws

noncomputable section

open scoped BigOperators

namespace Cert.Hdc.Body

open Idealize.ShloMosaic Idealize.ShloMosaic.ValueIdx Cert.KernelIdeal Cert.KernelIdeal.Facts₀ Cert.Hdc
open Cert.Lib.ShiftPieces

/-! ## The samples -/

/-- Counts times level table, then times the time table entry by entry. -/
def samples (v0 : Vec Ideal S128x10000 .bf16) (v3 : Vec Ideal S21x10000 .bf16) (v6 : Vec Ideal S1x128x21 .bf16) :
    FVec Ideal S128x10000 .f32 :=
  mulf
    (matmul (φ₁ := .bf16) (φ₂ := .bf16) dot_S128x21_S21x10000_S128x10000_1_0_0_1_n_n none
      (shapeCast S128x21 v6 shapeCasts_S1x128x21_S128x21 : FVec Ideal S128x21 .bf16)
      (shapeCast S21x10000 v3 shapeCasts_S21x10000_S21x10000 : FVec Ideal S21x10000 .bf16)
      (constant S128x10000 .f32 0x00000000#32))
    (extf .f32 (shapeCast S128x10000 v0 shapeCasts_S128x10000_S128x10000 : FVec Ideal S128x10000 .bf16) bitsLt_bf16_f32)

/-- Entry (t, d) of the samples: the counts of row t paired with column d of the level table, times the time entry. -/
theorem samples_apply (v0 : Vec Ideal S128x10000 .bf16) (v3 : Vec Ideal S21x10000 .bf16) (v6 : Vec Ideal S1x128x21 .bf16)
    (t : Fin 128) (d : Fin 10000) :
    samples v0 v3 v6 (ix2 t d) = (∑ l : Fin 21, v6 (ix3 0 t l) * v3 (ix2 l d)) * v0 (ix2 t d) := by
  unfold samples
  rw [mulf_apply, shapeCast_self, shapeCast_self]
  refine congrArg₂ (· * ·) ?_ rfl
  refine (MatmulPlain.matmul_zero_apply (φ₁ := .bf16) (φ₂ := .bf16) dot_S128x21_S21x10000_S128x10000_1_0_0_1_n_n rfl rfl rfl rfl rfl rfl none
    (shapeCast S128x21 v6 shapeCasts_S1x128x21_S128x21 : FVec Ideal S128x21 .bf16) (v3 : FVec Ideal S21x10000 .bf16) t d).trans ?_
  refine Finset.sum_congr rfl fun l _ => ?_
  refine congrArg₂ (· * ·) ?_ rfl
  refine shapeCast_apply v6 shapeCasts_S1x128x21_S128x21 (ix2 t l) (ix3 0 t l) ?_
  rw [Shape.rowMajor_val_three, Shape.rowMajor_val_two]
  show ((0 : Fin 1).val * 128 + t.val) * 21 + l.val = t.val * 21 + l.val
  simp

/-! ## The n-grams -/

/-- Rows 0.., 1.., 2.., 3.. of x (125 rows each), the first three shifted 3, 2, 1 columns to the right, multiplied. -/
def grams (x : FVec Ideal S128x10000 .f32) : FVec Ideal S125x10000 .f32 :=
  mulf
    (mulf
      (mulf
        (concatenate S125x10000 1
          [⟨S125x3, extractStridedSlice S125x3 ![0, 9997] (extractStridedSlice S125x10000 ![0, 0] x slices_S128x10000_o0_0_S125x10000) slices_S125x10000_o0_9997_S125x3⟩,
           ⟨S125x9997, extractStridedSlice S125x9997 ![0, 0] (extractStridedSlice S125x10000 ![0, 0] x slices_S128x10000_o0_0_S125x10000) slices_S125x10000_o0_0_S125x9997⟩]
          concatenates_S125x3_S125x9997_S125x10000_d1)
        (concatenate S125x10000 1
          [⟨S125x2, extractStridedSlice S125x2 ![0, 9998] (extractStridedSlice S125x10000 ![1, 0] x slices_S128x10000_o1_0_S125x10000) slices_S125x10000_o0_9998_S125x2⟩,
           ⟨S125x9998, extractStridedSlice S125x9998 ![0, 0] (extractStridedSlice S125x10000 ![1, 0] x slices_S128x10000_o1_0_S125x10000) slices_S125x10000_o0_0_S125x9998⟩]
          concatenates_S125x2_S125x9998_S125x10000_d1))
      (concatenate S125x10000 1
        [⟨S125x1, extractStridedSlice S125x1 ![0, 9999] (extractStridedSlice S125x10000 ![2, 0] x slices_S128x10000_o2_0_S125x10000) slices_S125x10000_o0_9999_S125x1⟩,
         ⟨S125x9999, extractStridedSlice S125x9999 ![0, 0] (extractStridedSlice S125x10000 ![2, 0] x slices_S128x10000_o2_0_S125x10000) slices_S125x10000_o0_0_S125x9999⟩]
        concatenates_S125x1_S125x9999_S125x10000_d1))
    (extractStridedSlice S125x10000 ![3, 0] x slices_S128x10000_o3_0_S125x10000)

/-- Entry (t, d) of the n-grams is the specification's n-gram of the rows of x. -/
theorem grams_apply (x : FVec Ideal S128x10000 .f32) (t : Fin 125) (d : Fin 10000) :
    grams x (ix2 t d) = gram (fun t' d' => x (ix2 t' d')) t d := by
  unfold grams gram
  rw [mulf_apply, mulf_apply, mulf_apply]
  refine congrArg₂ (· * ·) (congrArg₂ (· * ·) (congrArg₂ (· * ·) ?_ ?_) ?_) ?_
  · refine (shift2_apply (T := 125) (D := 10000) (k := 3) (r := 9997) _ slices_S125x10000_o0_9997_S125x3 slices_S125x10000_o0_0_S125x9997
      concatenates_S125x3_S125x9997_S125x10000_d1 t d (back 3 d)
      (fun h => by rw [back_val_of_lt (by decide) h]) (fun h => by rw [back_val_of_le (by decide) h])).trans ?_
    exact rows2_apply (T := 128) (R := 125) (D := 10000) (off := 0) x slices_S128x10000_o0_0_S125x10000 t (back 3 d) ⟨t.val, by omega⟩ rfl
  · refine (shift2_apply (T := 125) (D := 10000) (k := 2) (r := 9998) _ slices_S125x10000_o0_9998_S125x2 slices_S125x10000_o0_0_S125x9998
      concatenates_S125x2_S125x9998_S125x10000_d1 t d (back 2 d)
      (fun h => by rw [back_val_of_lt (by decide) h]) (fun h => by rw [back_val_of_le (by decide) h])).trans ?_
    exact rows2_apply (T := 128) (R := 125) (D := 10000) (off := 1) x slices_S128x10000_o1_0_S125x10000 t (back 2 d) ⟨t.val + 1, by omega⟩ rfl
  · refine (shift2_apply (T := 125) (D := 10000) (k := 1) (r := 9999) _ slices_S125x10000_o0_9999_S125x1 slices_S125x10000_o0_0_S125x9999
      concatenates_S125x1_S125x9999_S125x10000_d1 t d (back 1 d)
      (fun h => by rw [back_val_of_lt (by decide) h]) (fun h => by rw [back_val_of_le (by decide) h])).trans ?_
    exact rows2_apply (T := 128) (R := 125) (D := 10000) (off := 2) x slices_S128x10000_o2_0_S125x10000 t (back 1 d) ⟨t.val + 2, by omega⟩ rfl
  · exact rows2_apply (T := 128) (R := 125) (D := 10000) (off := 3) x slices_S128x10000_o3_0_S125x10000 t d ⟨t.val + 3, by omega⟩ rfl

/-! ## The scores -/

/-- The n-grams added down the rows, the sign of each total, the signs paired with each class vector; as a [1, 1, 10] array. -/
def scores (y : FVec Ideal S125x10000 .f32) (v5 : Vec Ideal S10x10000 .f32) : FVec Ideal S1x1x10 .f32 :=
  shapeCast S1x1x10
    (shapeCast S10
      (matmul (φ₁ := .f32) (φ₂ := .f32) dot_S1x10000_S10x10000_S1x10_1_1_0_0_n_n none
        (select
          (cmpf .ogt
            (shapeCast S1x10000 (multiReduction .add [0] S10000 y 0x00000000#32 reduces_S125x10000_S10000 (.inl rfl) rfl) shapeCasts_S10000_S1x10000)
            (broadcast S1x10000 (Scalar.ofBits .f32 0x00000000#32)))
          (broadcast S1x10000 (Scalar.ofBits .f32 0x3F800000#32)) (broadcast S1x10000 (Scalar.ofBits .f32 0xBF800000#32)))
        (v5 : FVec Ideal S10x10000 .f32) (constant S1x10 .f32 0x00000000#32))
      shapeCasts_S1x10_S10)
    shapeCasts_S10_S1x1x10

/-- Entry n of the scores: the signs of the column totals paired with class vector n. -/
theorem scores_apply (y : FVec Ideal S125x10000 .f32) (v5 : Vec Ideal S10x10000 .f32) (n : Fin 10) :
    scores y v5 (ix3 0 0 n) = ∑ d : Fin 10000, sign (∑ t : Fin 125, y (ix2 t d)) * v5 (ix2 n d) := by
  unfold scores
  refine (shapeCast_apply _ shapeCasts_S10_S1x1x10 (ix3 0 0 n) (ix1 n) ?_).trans ?_
  · rw [Shape.rowMajor_val_one, Shape.rowMajor_val_three]
    show n.val = ((0 : Fin 1).val * 1 + (0 : Fin 1).val) * 10 + n.val
    simp
  refine (shapeCast_apply _ shapeCasts_S1x10_S10 (ix1 n) (ix2 0 n) ?_).trans ?_
  · rw [Shape.rowMajor_val_one, Shape.rowMajor_val_two]
    show (0 : Fin 1).val * 10 + n.val = n.val
    simp
  refine (MatmulTransposed.matmul_zero_apply (φ₁ := .f32) (φ₂ := .f32) dot_S1x10000_S10x10000_S1x10_1_1_0_0_n_n rfl rfl rfl rfl rfl rfl none _
    (v5 : FVec Ideal S10x10000 .f32) 0 n).trans ?_
  refine Finset.sum_congr rfl fun d _ => ?_
  refine congrArg₂ (· * ·) ?_ rfl
  rw [select_apply, cmpf_apply, broadcast_apply, broadcast_apply, broadcast_apply]
  show sign _ = _
  refine congrArg sign ?_
  refine (shapeCast_apply _ shapeCasts_S10000_S1x10000 (ix2 0 d) (ix1 d) ?_).trans ?_
  · rw [Shape.rowMajor_val_one, Shape.rowMajor_val_two]
    show d.val = (0 : Fin 1).val * 10000 + d.val
    simp
  refine (Ideal.multiReduction_add_single y _ reduces_S125x10000_S10000 (.inl rfl) rfl (ix1 d)).trans ?_
  refine Finset.sum_congr rfl fun t _ => ?_
  refine congrArg y (funext fun a => Fin.ext ?_)
  match a with
  | ⟨0, _⟩ => rfl
  | ⟨1, _⟩ => rfl

/-! ## The body's stored value -/

/-- The value the body stores is the scores of the n-grams of the samples. -/
theorem payload_eq (v0 : Vec Ideal S128x10000 .bf16) (v3 : Vec Ideal S21x10000 .bf16) (v5 : Vec Ideal S10x10000 .f32)
    (v6 : Vec Ideal S1x128x21 .bf16) :
    Gen.k0_pay1 (F := Ideal) v0 v3 v5 v6 = scores (grams (samples v0 v3 v6)) v5 := rfl

/-- Entry n of the stored value is the specification's score of class n, of the samples 'counts times level table times
    time table' and the class table. -/
theorem payload_apply (v0 : Vec Ideal S128x10000 .bf16) (v3 : Vec Ideal S21x10000 .bf16) (v5 : Vec Ideal S10x10000 .f32)
    (v6 : Vec Ideal S1x128x21 .bf16) (n : Fin 10) :
    Gen.k0_pay1 (F := Ideal) v0 v3 v5 v6 (ix3 0 0 n)
      = score (fun t d => (∑ l : Fin 21, v6 (ix3 0 t l) * v3 (ix2 l d)) * v0 (ix2 t d)) (fun n' d => v5 (ix2 n' d)) n := by
  rw [payload_eq, scores_apply]
  unfold score bundle
  refine Finset.sum_congr rfl fun d _ => ?_
  refine congrArg₂ (· * ·) (congrArg sign (Finset.sum_congr rfl fun t _ => ?_)) rfl
  rw [grams_apply]
  refine congrArg (fun s => gram s t d) (funext fun t' => funext fun d' => samples_apply v0 v3 v6 t' d')

end Cert.Hdc.Body

end
-- ==== Proof.KernelHost.lean ====
/-
  What the host computes before the launch, as whole-array functions, and their entries on the extended reals.
  `levels` sends the array of readings to the array of their levels; `counts` sends it to the array that holds, for
  each batch element b, time t and level l, the number of channels whose reading is at level l (a sum over the 32
  channels of a comparison with l, converted to a number).  Both are written for any number format, as the programs
  spell them; on the extended reals entry (b, t, c) of the levels is the specification's `level` of the reading and
  entry (b, t, l) of the counts is the sum over the channels of the specification's `hot`.
-/
import proofs.«142543_j35399120453698_2_alg».proof.Proof.Gen.KernelIdeal
import proofs.«142543_j35399120453698_2_alg».proof.Proof.Spec
import Idealize.ShloMosaic.Lib.IdealHost
import Idealize.ShloMosaic.Lib.Pipeline.Value
import Idealize.ShloMosaic.Lib.ValueIdx
import Idealize.ShloMosaic.PureOps.Ideal.Laws

noncomputable section

open scoped BigOperators

namespace Cert.Hdc.Host

open Idealize.ShloMosaic Idealize.ShloMosaic.ValueIdx Cert.KernelIdeal Cert.KernelIdeal.Facts₀ Cert.Hdc

section AnyFormat
variable {F : FTy → Type} [FloatOps F]

/-- The levels of all readings: x / 20 * 20, rounded, held between 0 and 20, converted to integers. -/
def levels (x : FVec F S4x128x32 .f32) : IVec S4x128x32 32 :=
  fptosi 32
    (minimumf (broadcastInDim S4x128x32 ![] bcast_S_S4x128x32 (sitofp .f32 (constantI S_ 32 20#32)))
      (maximumf (broadcastInDim S4x128x32 ![] bcast_S_S4x128x32 (sitofp .f32 (constantI S_ 32 0#32)))
        (Host.roundeven
          (mulf (Host.divf x (broadcastInDim S4x128x32 ![] bcast_S_S4x128x32 (constant S_ .f32 0x41A00000#32)))
            (broadcastInDim S4x128x32 ![] bcast_S_S4x128x32 (constant S_ .f32 0x41A00000#32))))))

/-- For each (b, t, c, l): 1 if reading (b, t, c) is at level l, 0 if not (a comparison with 0, ..., 20 laid along a new
    last axis, converted to a number). -/
def hotArray (x : FVec F S4x128x32 .f32) : FVec F S4x128x32x21 .f32 :=
  uitofp .f32
    (cmpi .eq
      (broadcastInDim S4x128x32x21 ![0, 1, 2, 3] bcast_S4x128x32x1_S4x128x32x21_0_1_2_3
        (broadcastInDim S4x128x32x1 ![0, 1, 2] bcast_S4x128x32_S4x128x32x1_0_1_2 (levels x)))
      (broadcastInDim S4x128x32x21 ![0, 1, 2, 3] bcast_S1x1x1x21_S4x128x32x21_0_1_2_3 (iotaInDim S1x1x1x21 32 3)))

/-- For each (b, t, l): how many of the 32 channels have their reading at level l. -/
def counts (x : FVec F S4x128x32 .f32) : FVec F S4x128x21 .bf16 :=
  truncf .bf16
    (Host.reduceAdd (hotArray x) (constant S_ .f32 0x00000000#32) reducesTo_S4x128x32x21_S4x128x21_d2 h_S_)
    bitsLt_bf16_f32

end AnyFormat

/-- A scalar repeated over the readings' shape is the scalar at every entry. -/
theorem splat_apply {α : Type} (y : S_.Idx → α) (i : S4x128x32.Idx) :
    broadcastInDim S4x128x32 ![] bcast_S_S4x128x32 y i = y ix0 :=
  broadcastInDim_scalar_apply bcast_S_S4x128x32 y i

/-- Entry i of the levels is the level of reading i. -/
theorem levels_apply (x : FVec Ideal S4x128x32 .f32) (i : S4x128x32.Idx) : levels x i = level (x i) := by
  unfold levels level
  show Ideal.fptosi 32
      (min (broadcastInDim S4x128x32 ![] bcast_S_S4x128x32 (sitofp (F := Ideal) .f32 (constantI S_ 32 20#32)) i)
        (max (broadcastInDim S4x128x32 ![] bcast_S_S4x128x32 (sitofp (F := Ideal) .f32 (constantI S_ 32 0#32)) i)
          (Ideal.liftRound Ideal.roundHalfEven
            (Ideal.div (x i) (broadcastInDim S4x128x32 ![] bcast_S_S4x128x32 (constant (F := Ideal) S_ .f32 0x41A00000#32) i)
              * broadcastInDim S4x128x32 ![] bcast_S_S4x128x32 (constant (F := Ideal) S_ .f32 0x41A00000#32) i)))) = _
  rw [splat_apply, splat_apply, splat_apply]
  rfl

/-- The index of the four-axis comparison array that the sum over the channels visits for channel c. -/
theorem lift_channel (h : S4x128x32x21.Reduces [2] S4x128x21) (b : Fin 4) (t : Fin 128) (l : Fin 21) (c : Fin 32) :
    h.lift (ix3 b t l) c = ix4 b t c l :=
  funext fun a => Fin.ext (by
    match a with
    | ⟨0, _⟩ => rfl
    | ⟨1, _⟩ => rfl
    | ⟨2, _⟩ => rfl
    | ⟨3, _⟩ => rfl)

/-- The levels repeated along a new last axis of extent 21: entry (b, t, c, l) is the level of reading (b, t, c). -/
theorem spread_levels (x : FVec Ideal S4x128x32 .f32) (b : Fin 4) (t : Fin 128) (c : Fin 32) (l : Fin 21) :
    broadcastInDim S4x128x32x21 ![0, 1, 2, 3] bcast_S4x128x32x1_S4x128x32x21_0_1_2_3
        (broadcastInDim S4x128x32x1 ![0, 1, 2] bcast_S4x128x32_S4x128x32x1_0_1_2 (levels x)) (ix4 b t c l)
      = level (x (ix3 b t c)) := by
  refine (broadcastInDim_apply _ bcast_S4x128x32x1_S4x128x32x21_0_1_2_3 _ (ix4 b t c l) (ix4 b t c (0 : Fin 1)) (fun a => ?_)).trans ?_
  · match a with
    | ⟨0, _⟩ => show b.val = if (4 : Nat) = 1 then 0 else b.val; rw [if_neg (by decide)]
    | ⟨1, _⟩ => show t.val = if (128 : Nat) = 1 then 0 else t.val; rw [if_neg (by decide)]
    | ⟨2, _⟩ => show c.val = if (32 : Nat) = 1 then 0 else c.val; rw [if_neg (by decide)]
    | ⟨3, _⟩ => show (0 : Fin 1).val = if (1 : Nat) = 1 then 0 else l.val; rw [if_pos rfl]; rfl
  · refine (broadcastInDim_apply _ bcast_S4x128x32_S4x128x32x1_0_1_2 _ (ix4 b t c (0 : Fin 1)) (ix3 b t c) (fun a => ?_)).trans (levels_apply x _)
    match a with
    | ⟨0, _⟩ => show b.val = if (4 : Nat) = 1 then 0 else b.val; rw [if_neg (by decide)]
    | ⟨1, _⟩ => show t.val = if (128 : Nat) = 1 then 0 else t.val; rw [if_neg (by decide)]
    | ⟨2, _⟩ => show c.val = if (32 : Nat) = 1 then 0 else c.val; rw [if_neg (by decide)]

/-- The numbers 0, ..., 20 along the last axis, repeated over the other three: entry (b, t, c, l) is l. -/
theorem spread_iota (b : Fin 4) (t : Fin 128) (c : Fin 32) (l : Fin 21) :
    broadcastInDim S4x128x32x21 ![0, 1, 2, 3] bcast_S1x1x1x21_S4x128x32x21_0_1_2_3 (iotaInDim S1x1x1x21 32 3) (ix4 b t c l)
      = BitVec.ofNat 32 l.val := by
  refine (broadcastInDim_apply _ bcast_S1x1x1x21_S4x128x32x21_0_1_2_3 _ (ix4 b t c l)
    (ix4 (0 : Fin 1) (0 : Fin 1) (0 : Fin 1) l) (fun a => ?_)).trans rfl
  match a with
  | ⟨0, _⟩ => show (0 : Fin 1).val = if (1 : Nat) = 1 then 0 else b.val; rw [if_pos rfl]; rfl
  | ⟨1, _⟩ => show (0 : Fin 1).val = if (1 : Nat) = 1 then 0 else t.val; rw [if_pos rfl]; rfl
  | ⟨2, _⟩ => show (0 : Fin 1).val = if (1 : Nat) = 1 then 0 else c.val; rw [if_pos rfl]; rfl
  | ⟨3, _⟩ => show l.val = if (21 : Nat) = 1 then 0 else l.val; rw [if_neg (by decide)]

/-- Entry (b, t, c, l) of the comparison array is the specification's `hot`. -/
theorem hotArray_apply (x : FVec Ideal S4x128x32 .f32) (b : Fin 4) (t : Fin 128) (c : Fin 32) (l : Fin 21) :
    hotArray x (ix4 b t c l) = hot (level (x (ix3 b t c))) l := by
  unfold hotArray
  show (((IntOp.cmpi .eq
      (broadcastInDim S4x128x32x21 ![0, 1, 2, 3] bcast_S4x128x32x1_S4x128x32x21_0_1_2_3
        (broadcastInDim S4x128x32x1 ![0, 1, 2] bcast_S4x128x32_S4x128x32x1_0_1_2 (levels x)) (ix4 b t c l))
      (broadcastInDim S4x128x32x21 ![0, 1, 2, 3] bcast_S1x1x1x21_S4x128x32x21_0_1_2_3 (iotaInDim S1x1x1x21 32 3) (ix4 b t c l))).toNat : ℝ) : EReal) = _
  rw [spread_levels, spread_iota]
  rfl

/-- Entry (b, t, l) of the counts: the number of channels c with the level of reading (b, t, c) equal to l. -/
theorem counts_apply (x : FVec Ideal S4x128x32 .f32) (b : Fin 4) (t : Fin 128) (l : Fin 21) :
    counts x (ix3 b t l) = ∑ c : Fin 32, hot (level (x (ix3 b t c))) l := by
  unfold counts
  rw [truncf_apply]
  simp only [Host.reduceAdd, Ideal.hostReduceAdd_def]
  rw [Ideal.hostReduceAdd_single reducesTo_S4x128x32x21_S4x128x21_d2 (by decide)]
  rw [constant_apply, Ideal.ofBits_zero_f32, zero_add]
  refine Finset.sum_congr rfl fun c _ => ?_
  exact (congrArg (hotArray x) (lift_channel _ b t l c)).trans (hotArray_apply x b t c l)

end Cert.Hdc.Host

end
-- ==== Proof.KernelArrays.lean ====
/-
  From the grid points to the result array.  The launch visits the four batch elements; at point b it hands the body
  block b of the counts and the three whole tables and writes the ten scores back as block b of a [4, 1, 10] array,
  which the host then views as [4, 10].  Here: what the region finds in its input arrays (the counts of the readings,
  and the tables unchanged), each block as entries of its array, the written-back block as entries of one function
  `scores3` on the whole array, the four blocks covering the array, the view, and the run with its result named.
-/
import proofs.«142543_j35399120453698_2_alg».proof.Proof.Gen.KernelIdeal.Frame
import proofs.«142543_j35399120453698_2_alg».proof.Proof.KernelBody
import proofs.«142543_j35399120453698_2_alg».proof.Proof.KernelHost
import Idealize.ShloMosaic.Lib.Pipeline.Value
import Idealize.ShloMosaic.Lib.ValueIdx
import Idealize.ShloMosaic.Lib.StableHlo.Run
import Idealize.ShloMosaic.Lib.Tactic

noncomputable section

open scoped BigOperators

namespace Cert.Hdc.Arrays

open Idealize.ShloMosaic Idealize.ShloMosaic.TcCoe Idealize.SL.Sem Idealize.ShloMosaic.StableHlo Idealize.ShloMosaic.ValueIdx
open Idealize.ShloMosaic.Pipeline (Dat)
open Cert.KernelIdeal Cert.KernelIdeal.Gen Cert.Hdc

/-! ## What the region finds in its arrays -/

section Found
variable {F : FTy → Type} [FloatOps F]
variable (m : (ℓ : Loc nD τ sig) → Buf (Elt F) ℓ)

/-- The counts array holds the counts of the readings. -/
theorem found_counts (c : Dev nD) :
    (V m c main_v9 : S4x128x21.Idx → Elt F .bf16) = Host.counts (m ((c : Thread nD τ).loc main_arg0)) := by
  dsimp only [V, V0]
  simp only [hostOps0, hostOps0_1, hostOps0_2, hostOps0_3, hostOps0_4, hostOps0_5, hostOps0_6, List.flatten_cons,
    List.flatten_nil, List.append_nil, List.cons_append, List.nil_append]
  after_results_simp <;> rfl

/-- The time table as the region finds it: the argument, its format changed. -/
theorem found_times (c : Dev nD) :
    (V m c main_v10 : S128x10000.Idx → Elt F .bf16)
      = truncf .bf16 (m ((c : Thread nD τ).loc main_arg3)) Facts₀.bitsLt_bf16_f32 := by
  dsimp only [V, V0]
  simp only [hostOps0, hostOps0_1, hostOps0_2, hostOps0_3, hostOps0_4, hostOps0_5, hostOps0_6, List.flatten_cons,
    List.flatten_nil, List.append_nil, List.cons_append, List.nil_append]
  after_results_simp <;> rfl

/-- The level table as the region finds it: the argument, its format changed. -/
theorem found_levels (c : Dev nD) :
    (V m c main_v11 : S21x10000.Idx → Elt F .bf16)
      = truncf .bf16 (m ((c : Thread nD τ).loc main_arg1)) Facts₀.bitsLt_bf16_f32 := by
  dsimp only [V, V0]
  simp only [hostOps0, hostOps0_1, hostOps0_2, hostOps0_3, hostOps0_4, hostOps0_5, hostOps0_6, List.flatten_cons,
    List.flatten_nil, List.append_nil, List.cons_append, List.nil_append]
  after_results_simp <;> rfl

/-! ## The blocks -/

/-- The block index of each window over the four points: the counts and the result move with the point along their
    first axis; the tables are taken whole. -/
theorem index_counts : ∀ t : Fin cfg0.N,
    win0_0.index t (0 : Fin 3) = t.val ∧ win0_0.index t (1 : Fin 3) = 0 ∧ win0_0.index t (2 : Fin 3) = 0 :=
  (by decide +kernel : ∀ t : Fin grid0.N, _)
theorem index_times : ∀ t : Fin cfg0.N, win0_1.index t (0 : Fin 2) = 0 ∧ win0_1.index t (1 : Fin 2) = 0 :=
  (by decide +kernel : ∀ t : Fin grid0.N, _)
theorem index_levels : ∀ t : Fin cfg0.N, win0_2.index t (0 : Fin 2) = 0 ∧ win0_2.index t (1 : Fin 2) = 0 :=
  (by decide +kernel : ∀ t : Fin grid0.N, _)
theorem index_classes : ∀ t : Fin cfg0.N, win0_3.index t (0 : Fin 2) = 0 ∧ win0_3.index t (1 : Fin 2) = 0 :=
  (by decide +kernel : ∀ t : Fin grid0.N, _)
theorem index_result : ∀ t : Fin cfg0.N,
    win0_4.index t (0 : Fin 3) = t.val ∧ win0_4.index t (1 : Fin 3) = 0 ∧ win0_4.index t (2 : Fin 3) = 0 :=
  (by decide +kernel : ∀ t : Fin grid0.N, _)

/-- A grid point is one of the four batch elements. -/
theorem point_lt (t : Fin cfg0.N) : t.val < 4 := by
  have h := t.isLt
  have e : cfg0.N = 4 := N_0
  omega

/-- The batch element of a grid point. -/
def batchOf (t : Fin cfg0.N) : Fin 4 := ⟨t.val, point_lt t⟩

/-- Entry (0, t', l) of the counts block at point t is entry (t, t', l) of the counts array. -/
theorem block_counts (c : Dev nD) (t : Fin cfg0.N) (t' : Fin 128) (l : Fin 21) :
    (iblk m c 0 t : Vec F S1x128x21 .bf16) (ix3 0 t' l)
      = (V m c main_v9 : S4x128x21.Idx → Elt F .bf16) (ix3 (batchOf t) t' l) := by
  unfold iblk
  rw [View.read_apply]
  show V m c main_v9 _ = V m c main_v9 _
  congr 1
  funext a
  apply Fin.ext
  obtain ⟨e0, e1, e2⟩ := index_counts t
  match a with
  | ⟨0, _⟩ => show win0_0.index t 0 * 1 + 1 * 0 = t.val; rw [e0]; omega
  | ⟨1, _⟩ => show win0_0.index t 1 * 128 + 1 * t'.val = t'.val; rw [e1]; omega
  | ⟨2, _⟩ => show win0_0.index t 2 * 21 + 1 * l.val = l.val; rw [e2]; omega

/-- The time table's block at every point is the whole table. -/
theorem block_times (c : Dev nD) (t : Fin cfg0.N) :
    (iblk m c 1 t : Vec F S128x10000 .bf16) = (V m c main_v10 : S128x10000.Idx → Elt F .bf16) := by
  funext j
  unfold iblk
  rw [View.read_apply]
  show V m c main_v10 _ = V m c main_v10 _
  congr 1
  funext a
  apply Fin.ext
  obtain ⟨e0, e1⟩ := index_times t
  match a with
  | ⟨0, _⟩ => show win0_1.index t 0 * 128 + 1 * (j 0).val = (j 0).val; rw [e0]; omega
  | ⟨1, _⟩ => show win0_1.index t 1 * 10000 + 1 * (j 1).val = (j 1).val; rw [e1]; omega

/-- The level table's block at every point is the whole table. -/
theorem block_levels (c : Dev nD) (t : Fin cfg0.N) :
    (iblk m c 2 t : Vec F S21x10000 .bf16) = (V m c main_v11 : S21x10000.Idx → Elt F .bf16) := by
  funext j
  unfold iblk
  rw [View.read_apply]
  show V m c main_v11 _ = V m c main_v11 _
  congr 1
  funext a
  apply Fin.ext
  obtain ⟨e0, e1⟩ := index_levels t
  match a with
  | ⟨0, _⟩ => show win0_2.index t 0 * 21 + 1 * (j 0).val = (j 0).val; rw [e0]; omega
  | ⟨1, _⟩ => show win0_2.index t 1 * 10000 + 1 * (j 1).val = (j 1).val; rw [e1]; omega

/-- The class table's block at every point is the whole table, which is the argument. -/
theorem block_classes (c : Dev nD) (t : Fin cfg0.N) :
    (iblk m c 3 t : Vec F S10x10000 .f32) = (m ((c : Thread nD τ).loc main_arg4) : S10x10000.Idx → Elt F .f32) := by
  funext j
  unfold iblk
  rw [View.read_apply]
  show V m c main_arg4 _ = m ((c : Thread nD τ).loc main_arg4) j
  rw [V_main_arg4]
  congr 1
  funext a
  apply Fin.ext
  obtain ⟨e0, e1⟩ := index_classes t
  match a with
  | ⟨0, _⟩ => show win0_3.index t 0 * 10 + 1 * (j 0).val = (j 0).val; rw [e0]; omega
  | ⟨1, _⟩ => show win0_3.index t 1 * 10000 + 1 * (j 1).val = (j 1).val; rw [e1]; omega

end Found

/-! ## The result, on the extended reals -/

section Value
variable (m : (ℓ : Loc nD τ sig) → Buf (Elt Ideal) ℓ) (ρ : Dev nD → PrngReg)

/-- Entry (t, d) of batch element b's samples, by counting (the specification's first way). -/
def sampleOf (x0 : S4x128x32.Idx → EReal) (x1 : S21x10000.Idx → EReal) (x3 : S128x10000.Idx → EReal) (b : Fin 4)
    (t : Fin 128) (d : Fin 10000) : EReal :=
  sampleByCount (fun c => level (x0 (ix3 b t c))) (fun l => x1 (ix2 l d)) (x3 (ix2 t d))

/-- The scores of all batch elements as a [4, 1, 10] array. -/
def scores3 (x0 : S4x128x32.Idx → EReal) (x1 : S21x10000.Idx → EReal) (x3 : S128x10000.Idx → EReal)
    (x4 : S10x10000.Idx → EReal) : S4x1x10.Idx → EReal :=
  fun i => score (sampleOf x0 x1 x3 (i 0)) (fun n d => x4 (ix2 n d)) (i 2)

/-- The same as a [4, 10] array: the result. -/
def scores2 (x0 : S4x128x32.Idx → EReal) (x1 : S21x10000.Idx → EReal) (x3 : S128x10000.Idx → EReal)
    (x4 : S10x10000.Idx → EReal) : S4x10.Idx → EReal :=
  fun i => score (sampleOf x0 x1 x3 (i 0)) (fun n d => x4 (ix2 n d)) (i 1)

/-- The arguments' contents, named. -/
abbrev readings (c : Dev nD) : S4x128x32.Idx → EReal := m ((c : Thread nD τ).loc main_arg0)
abbrev levelTable (c : Dev nD) : S21x10000.Idx → EReal := m ((c : Thread nD τ).loc main_arg1)
abbrev timeTable (c : Dev nD) : S128x10000.Idx → EReal := m ((c : Thread nD τ).loc main_arg3)
abbrev classTable (c : Dev nD) : S10x10000.Idx → EReal := m ((c : Thread nD τ).loc main_arg4)

/-- The samples the body forms from a block of counts of batch element b and the two tables are batch element b's
    samples by counting. -/
theorem samples_of_blocks (x0 : S4x128x32.Idx → EReal) (x1 : S21x10000.Idx → EReal) (x3 : S128x10000.Idx → EReal) (b : Fin 4)
    (v6 : Vec Ideal S1x128x21 .bf16) (v3 : Vec Ideal S21x10000 .bf16) (v0 : Vec Ideal S128x10000 .bf16)
    (h6 : ∀ (t' : Fin 128) (l : Fin 21), v6 (ix3 0 t' l) = Host.counts (F := Ideal) x0 (ix3 b t' l))
    (h3 : ∀ i, v3 i = x1 i) (h0 : ∀ i, v0 i = x3 i) (t' : Fin 128) (d : Fin 10000) :
    (∑ l : Fin 21, v6 (ix3 0 t' l) * v3 (ix2 l d)) * v0 (ix2 t' d) = sampleOf x0 x1 x3 b t' d := by
  unfold sampleOf sampleByCount
  rw [h0]
  refine congrArg₂ (· * ·) (Finset.sum_congr rfl fun l _ => ?_) rfl
  rw [h6, h3, Host.counts_apply]

theorem hz3 : (![0, 0, 0] : Fin 3 → Nat) = fun _ => 0 := funext fun a => by fin_cases a <;> rfl
theorem hz2 : (![0, 0] : Fin 2 → Nat) = fun _ => 0 := funext fun a => by fin_cases a <;> rfl

/-- What point t writes back is block t of the scores. -/
theorem flushed_scores (c : Dev nD) (t : Fin cfg0.N) :
    (dats m 0 c).flushed 4 t
      = ((cfg0.win 4).blk t).view.read (Elt Ideal) (scores3 (readings m c) (levelTable m c) (timeTable m c) (classTable m c)) := by
  show (cfg0.win 4).cut (grid0.coords t) ((dats m 0 c).after 4 t) = _
  rw [after0_4]
  unfold out0_4
  rw [View.canon_unit_zero hz3]
  simp only [View.ld_unit_zero (S := S128x10000) hz2, View.ld_unit_zero (S := S21x10000) hz2,
    View.ld_unit_zero (S := S10x10000) hz2, View.ld_unit_zero (S := S1x128x21) hz3]
  funext j
  rw [View.read_apply]
  show (k0_pay1 (F := Ideal) (iblk m c 1 t) (iblk m c 2 t) (iblk m c 3 t) (iblk m c 0 t) : S1x1x10.Idx → EReal) j
      = scores3 (readings m c) (levelTable m c) (timeTable m c) (classTable m c) (((View.whole main_v12).slice ((win0 4).rect t)).emb j)
  have h0 : (j 0).val < 1 := (j 0).isLt
  have h1 : (j 1).val < 1 := (j 1).isLt
  have hj : (j : S1x1x10.Idx) = ix3 0 0 (j 2) := by
    funext a
    apply Fin.ext
    match a with
    | ⟨0, _⟩ => show (j 0).val = 0; omega
    | ⟨1, _⟩ => show (j 1).val = 0; omega
    | ⟨2, _⟩ => rfl
  have he : (((View.whole main_v12).slice ((win0 4).rect t)).emb j : S4x1x10.Idx) = ix3 (batchOf t) 0 (j 2) := by
    funext a
    apply Fin.ext
    obtain ⟨e0, e1, e2⟩ := index_result t
    match a with
    | ⟨0, _⟩ => show win0_4.index t 0 * 1 + 1 * (j 0).val = t.val; rw [e0]; omega
    | ⟨1, _⟩ => show win0_4.index t 1 * 1 + 1 * (j 1).val = 0; rw [e1]; omega
    | ⟨2, _⟩ => show win0_4.index t 2 * 10 + 1 * (j 2).val = (j 2).val; rw [e2]; omega
  rw [he]
  refine (congrArg (k0_pay1 (F := Ideal) (iblk m c 1 t) (iblk m c 2 t) (iblk m c 3 t) (iblk m c 0 t)) hj).trans ?_
  refine (Body.payload_apply (iblk m c 1 t) (iblk m c 2 t) (iblk m c 3 t) (iblk m c 0 t) (j 2)).trans ?_
  show score _ _ (j 2) = score (sampleOf (readings m c) (levelTable m c) (timeTable m c) (batchOf t)) _ (j 2)
  rw [block_classes]
  refine congrArg (fun s => score s (fun n d => classTable m c (ix2 n d)) (j 2)) ?_
  refine funext fun t' => funext fun d => ?_
  refine samples_of_blocks (readings m c) (levelTable m c) (timeTable m c) (batchOf t) (iblk m c 0 t) (iblk m c 2 t) (iblk m c 1 t)
    (fun t'' l => ?_) (fun i => ?_) (fun i => ?_) t' d
  · rw [block_counts, found_counts]
  · rw [block_levels, found_levels]; rfl
  · rw [block_times, found_times]; rfl

/-- An entry of the [4, 1, 10] array lies in point t's block exactly when its first coordinate is t. -/
theorem mem_block (t : Fin cfg0.N) (i : S4x1x10.Idx) :
    i ∈ ((cfg0.win 4).blk t).view.set ↔ ∀ a : Fin 3, win0_4.index t a * S1x1x10.size a ≤ (i a).val ∧ (i a).val < win0_4.index t a * S1x1x10.size a + S1x1x10.size a := by
  show i ∈ ((View.whole main_v12).slice (win0_4.rect t)).set ↔ _
  rw [View.set_slice_whole, Rect.mem_set_unit]
  exact Iff.rfl

/-- The four blocks cover the array, so it ends holding the scores. -/
theorem final_scores (c : Dev nD) :
    (dats m 0 c).arrAt 4 cfg0.N = scores3 (readings m c) (levelTable m c) (timeTable m c) (classTable m c) :=
  (dats m 0 c).arrAt_eq_of_cover 4 _ (fun t _ => flushed_scores m c t) fun i => by
    have hi0 : (i 0).val < 4 := (i 0).isLt
    have hi1 : (i 1).val < 1 := (i 1).isLt
    have hi2 : (i 2).val < 10 := (i 2).isLt
    have hN : cfg0.N = 4 := N_0
    obtain ⟨t, ht⟩ : ∃ t : Fin cfg0.N, t.val = (i 0).val := ⟨⟨(i 0).val, by omega⟩, rfl⟩
    refine ⟨t, flush0_4 t, ?_⟩
    rw [mem_block]
    obtain ⟨e0, e1, e2⟩ := index_result t
    intro a
    match a with
    | ⟨0, _⟩ => show win0_4.index t 0 * 1 ≤ (i 0).val ∧ (i 0).val < win0_4.index t 0 * 1 + 1; rw [e0]; omega
    | ⟨1, _⟩ => show win0_4.index t 1 * 1 ≤ (i 1).val ∧ (i 1).val < win0_4.index t 1 * 1 + 1; rw [e1]; omega
    | ⟨2, _⟩ => show win0_4.index t 2 * 10 ≤ (i 2).val ∧ (i 2).val < win0_4.index t 2 * 10 + 10; rw [e2]; omega

/-- The result buffer after the host's view of the [4, 1, 10] array as [4, 10]. -/
theorem viewed_scores (c : Dev nD) :
    (Pipeline.afterTail₀ cfgs (dats m) 0 (V0 m) [hostOps1] c main_v13 : S4x10.Idx → EReal)
      = scores2 (readings m c) (levelTable m c) (timeTable m c) (classTable m c) := by
  unfold Pipeline.afterTail₀
  show StableHlo.after hostOps1 _ (Proc.devRef .tc main_v13) = _
  after_results
  have e : Pipeline.withArrays (cfgs 0).spec c (V0 m c) (fun w => (dats m 0 c).arrAt w (cfgs 0).N) (Proc.tc.devRef main_v12)
      = (dats m 0 c).arrAt 4 cfg0.N :=
    Pipeline.withArrays_arr spec0 launch0.win.arr_inj c (V0 m c) (fun w => (dats m 0 c).arrAt w (cfgs 0).N) 4
  rw [e, final_scores]
  funext i
  show shapeCast S4x10 (scores3 (readings m c) (levelTable m c) (timeTable m c) (classTable m c)) Facts₀.shapeCasts_S4x1x10_S4x10 i = _
  refine (shapeCast_apply _ Facts₀.shapeCasts_S4x1x10_S4x10 i (ix3 (i 0) 0 (i 1)) ?_).trans rfl
  rw [Shape.rowMajor_val_three, Shape.rowMajor_val_two]
  show ((i 0).val * 1 + (0 : Fin 1).val) * 10 + (i 1).val = (i 0).val * 10 + (i 1).val
  simp

/-- THE RUN of the idealized kernel, read: every weakly fair execution ends with the result buffer at the scores of the
    arguments (samples formed by counting) and the arguments unchanged. -/
theorem run : θ_run defs (onTc (τ := τ) (main (F := Ideal))) ⟨m, fun _ => 0, ρ⟩ (fun r => ∀ c : Dev nD,
      r.2.mem ((c.tc : Thread nD τ).loc main_v13) = scores2 (readings m c) (levelTable m c) (timeTable m c) (classTable m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_v13 (Pipeline.mem_restRefs_of main_v13 (by decide) (by decide))).trans (viewed_scores m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 3).trans (((dats m 0 c).arrAt_in 3 rfl _).trans ((A_eq m c 3).trans (V_main_arg4 m c)))⟩) (run_main m ρ)

end Value

end Cert.Hdc.Arrays

end
-- ==== Proof.RefStages.lean ====
/-
  The reference program as four whole-array functions, in the order it computes them, written for any number format
  exactly as the program spells each step: the LEVELS of the readings; the SAMPLES (each level wrapped and looked up in
  the level table, multiplied by the time table repeated over batch elements and channels, added over the 32 channels);
  the N-GRAMS (four slices of 125 rows, three of them cyclically shifted as two slices joined, multiplied left to
  right); and the SCORES (n-grams added over the rows, each total compared with 0 and replaced by +1 or -1, the signs
  contracted with the transposed class table).  `result` is their composition.
-/
import proofs.«142543_j35399120453698_2_alg».proof.Proof.Gen.ReferenceIdeal

noncomputable section

namespace Cert.Hdc.RefStages

open Idealize.ShloMosaic Cert.ReferenceIdeal Cert.ReferenceIdeal.Facts₀

variable {F : FTy → Type} [FloatOps F]

/-- The levels of all readings: x / 20 * 20, rounded, held between 0 and 20, converted to integers. -/
def levels (x0 : FVec F S4x128x32 .f32) : IVec S4x128x32 32 :=
  fptosi 32
    (minimumf (broadcastInDim S4x128x32 ![] bcast_S_S4x128x32 (sitofp .f32 (constantI S_ 32 20#32)))
      (maximumf (broadcastInDim S4x128x32 ![] bcast_S_S4x128x32 (sitofp .f32 (constantI S_ 32 0#32)))
        (Host.roundeven
          (mulf (Host.divf x0 (broadcastInDim S4x128x32 ![] bcast_S_S4x128x32 (constant S_ .f32 0x41A00000#32)))
            (broadcastInDim S4x128x32 ![] bcast_S_S4x128x32 (constant S_ .f32 0x41A00000#32))))))

/-- A level read as a row number of the table: 21 added where it is negative. -/
def wrapped (lv : IVec S4x128x32 32) : IVec S4x128x32 32 :=
  select (cmpi .slt lv (broadcastInDim S4x128x32 ![] bcast_S_S4x128x32 (constantI S_ 32 0#32)))
    (addi lv (broadcastInDim S4x128x32 ![] bcast_S_S4x128x32 (constantI S_ 32 21#32))) lv

/-- The samples: for each (b, t, d) the sum over the channels c of table(row of level (b, t, c), d) * time(t, d). -/
def samples (lv : IVec S4x128x32 32) (x1 : FVec F S21x10000 .f32) (x3 : FVec F S128x10000 .f32) : FVec F S4x128x10000 .f32 :=
  Host.reduceAdd
    (mulf
      (Host.gather gather_S21x10000_S4x128x32x1_S4x128x32x10000_3_0_n_n_0_3_110000 x1
        (broadcastInDim S4x128x32x1 ![0, 1, 2] bcast_S4x128x32_S4x128x32x1_0_1_2 (wrapped lv)))
      (broadcastInDim S4x128x32x10000 ![0, 1, 2, 3] bcast_S1x128x1x10000_S4x128x32x10000_0_1_2_3
        (broadcastInDim S1x128x1x10000 ![1, 3] bcast_S128x10000_S1x128x1x10000_1_3 x3)))
    (constant S_ .f32 0x00000000#32) reducesTo_S4x128x32x10000_S4x128x10000_d2 h_S_

/-- The n-grams: rows t, t+1, t+2, t+3 of each batch element's samples, shifted 3, 2, 1, 0 places, multiplied. -/
def grams (s : FVec F S4x128x10000 .f32) : FVec F S4x125x10000 .f32 :=
  mulf
    (mulf
      (mulf
        (concatenate S4x125x10000 2
          [⟨S4x125x3, extractStridedSlice S4x125x3 ![0, 0, 9997] (extractStridedSlice S4x125x10000 ![0, 0, 0] s slices_S4x128x10000_S4x125x10000_0_0_0) slices_S4x125x10000_S4x125x3_0_0_9997⟩,
           ⟨S4x125x9997, extractStridedSlice S4x125x9997 ![0, 0, 0] (extractStridedSlice S4x125x10000 ![0, 0, 0] s slices_S4x128x10000_S4x125x10000_0_0_0) slices_S4x125x10000_S4x125x9997_0_0_0⟩]
          concatenates_S4x125x3_S4x125x9997_S4x125x10000_d2)
        (concatenate S4x125x10000 2
          [⟨S4x125x2, extractStridedSlice S4x125x2 ![0, 0, 9998] (extractStridedSlice S4x125x10000 ![0, 1, 0] s slices_S4x128x10000_S4x125x10000_0_1_0) slices_S4x125x10000_S4x125x2_0_0_9998⟩,
           ⟨S4x125x9998, extractStridedSlice S4x125x9998 ![0, 0, 0] (extractStridedSlice S4x125x10000 ![0, 1, 0] s slices_S4x128x10000_S4x125x10000_0_1_0) slices_S4x125x10000_S4x125x9998_0_0_0⟩]
          concatenates_S4x125x2_S4x125x9998_S4x125x10000_d2))
      (concatenate S4x125x10000 2
        [⟨S4x125x1, extractStridedSlice S4x125x1 ![0, 0, 9999] (extractStridedSlice S4x125x10000 ![0, 2, 0] s slices_S4x128x10000_S4x125x10000_0_2_0) slices_S4x125x10000_S4x125x1_0_0_9999⟩,
         ⟨S4x125x9999, extractStridedSlice S4x125x9999 ![0, 0, 0] (extractStridedSlice S4x125x10000 ![0, 2, 0] s slices_S4x128x10000_S4x125x10000_0_2_0) slices_S4x125x10000_S4x125x9999_0_0_0⟩]
        concatenates_S4x125x1_S4x125x9999_S4x125x10000_d2))
    (concatenate S4x125x10000 2
      [⟨S4x125x10000, extractStridedSlice S4x125x10000 ![0, 0, 0] (extractStridedSlice S4x125x10000 ![0, 3, 0] s slices_S4x128x10000_S4x125x10000_0_3_0) slices_S4x125x10000_S4x125x10000_0_0_0⟩,
       ⟨S4x125x0, extractStridedSlice S4x125x0 ![0, 0, 0] (extractStridedSlice S4x125x10000 ![0, 3, 0] s slices_S4x128x10000_S4x125x10000_0_3_0) slices_S4x125x10000_S4x125x0_0_0_0⟩]
      concatenates_S4x125x10000_S4x125x0_S4x125x10000_d2)

/-- The scores: n-grams added over the rows, the sign of each total, the signs contracted with the transposed class table. -/
def scores (g : FVec F S4x125x10000 .f32) (x4 : FVec F S10x10000 .f32) : FVec F S4x10 .f32 :=
  Host.dotGeneral dot_S4x10000_S10000x10_S4x10_1_0_0_1_n_n none
    (select
      (cmpf .ogt (Host.reduceAdd g (constant S_ .f32 0x00000000#32) reducesTo_S4x125x10000_S4x10000_d1 h_S_)
        (broadcastInDim S4x10000 ![] bcast_S_S4x10000 (constant S_ .f32 0x00000000#32)))
      (broadcastInDim S4x10000 ![] bcast_S_S4x10000 (constant S_ .f32 0x3F800000#32))
      (broadcastInDim S4x10000 ![] bcast_S_S4x10000 (constant S_ .f32 0xBF800000#32)))
    (transpose S10000x10 [1, 0] x4 transposes_S10x10000_S10000x10_1_0)

/-- The reference's result as one function of its four live arguments. -/
def result (x0 : FVec F S4x128x32 .f32) (x1 : FVec F S21x10000 .f32) (x3 : FVec F S128x10000 .f32) (x4 : FVec F S10x10000 .f32) :
    FVec F S4x10 .f32 :=
  scores (grams (samples (levels x0) x1 x3)) x4

end Cert.Hdc.RefStages

end
-- ==== Proof.RefRun.lean ====
/-
  The reference program run.  Its 61 host operations, in order, and the run of the whole list: every weakly fair
  execution terminates, the result buffer ends at `RefStages.result` of the four live arguments, and the arguments end
  unchanged.  The list is cut into four stretches — levels, samples, n-grams, scores — and each stretch is read back
  over an ARBITRARY starting valuation: what it leaves in its last buffer is the corresponding stage function of what
  it found in the buffers it reads, and it writes no argument.  Composing the four readings gives the result without
  ever forming the one large term in which the samples would occur seven times and the levels twenty-one.
-/
import proofs.«142543_j35399120453698_2_alg».proof.Proof.Gen.ReferenceIdeal
import proofs.«142543_j35399120453698_2_alg».proof.Proof.RefStages
import Idealize.ShloMosaic.Lib.StableHlo.Run

noncomputable section

namespace Cert.Hdc.RefRun

open Idealize.ShloMosaic Idealize.ShloMosaic.TcCoe Idealize.SL.Sem Idealize.ShloMosaic.StableHlo
open Cert.ReferenceIdeal Cert.ReferenceIdeal.Facts₀

variable {F : FTy → Type} [FloatOps F]

/-! ## The operations -/

/-- The first stretch: from the readings to their levels (16 operations). -/
abbrev opsA : List (HloOp τ sig (Elt F)) :=
  [ nullary main_cst (constant S_ .f32 0x41A00000#32),
    unary main_cst main_v0 (broadcastInDim S4x128x32 ![] bcast_S_S4x128x32 : (⟨S_, .f32⟩ : BufTy).Contents (Elt F) → (⟨S4x128x32, .f32⟩ : BufTy).Contents (Elt F)),
    binary main_arg0 main_v0 main_v1 (Host.divf : (⟨S4x128x32, .f32⟩ : BufTy).Contents (Elt F) → (⟨S4x128x32, .f32⟩ : BufTy).Contents (Elt F) → (⟨S4x128x32, .f32⟩ : BufTy).Contents (Elt F)),
    nullary main_cst_0 (constant S_ .f32 0x41A00000#32),
    unary main_cst_0 main_v2 (broadcastInDim S4x128x32 ![] bcast_S_S4x128x32 : (⟨S_, .f32⟩ : BufTy).Contents (Elt F) → (⟨S4x128x32, .f32⟩ : BufTy).Contents (Elt F)),
    binary main_v1 main_v2 main_v3 (mulf : (⟨S4x128x32, .f32⟩ : BufTy).Contents (Elt F) → (⟨S4x128x32, .f32⟩ : BufTy).Contents (Elt F) → (⟨S4x128x32, .f32⟩ : BufTy).Contents (Elt F)),
    TRef.unary (TRef.of (T := ⟨S4x128x32, .f32⟩) main_v3) (TRef.of (T := ⟨S4x128x32, .f32⟩) main_v4) Host.roundeven,
    nullary main_c (constantI S_ 32 0#32),
    nullary main_c_1 (constantI S_ 32 20#32),
    TRef.unary (TRef.of (T := ⟨S_, .i32⟩) main_c) (TRef.of (T := ⟨S_, .f32⟩) main_call1_v0) (sitofp .f32),
    TRef.unary (TRef.of (T := ⟨S_, .f32⟩) main_call1_v0) (TRef.of (T := ⟨S4x128x32, .f32⟩) main_call1_v1) (broadcastInDim S4x128x32 ![] bcast_S_S4x128x32),
    TRef.binary (TRef.of (T := ⟨S4x128x32, .f32⟩) main_call1_v1) (TRef.of (T := ⟨S4x128x32, .f32⟩) main_v4) (TRef.of (T := ⟨S4x128x32, .f32⟩) main_call1_v2) maximumf,
    TRef.unary (TRef.of (T := ⟨S_, .i32⟩) main_c_1) (TRef.of (T := ⟨S_, .f32⟩) main_call1_v3) (sitofp .f32),
    TRef.unary (TRef.of (T := ⟨S_, .f32⟩) main_call1_v3) (TRef.of (T := ⟨S4x128x32, .f32⟩) main_call1_v4) (broadcastInDim S4x128x32 ![] bcast_S_S4x128x32),
    TRef.binary (TRef.of (T := ⟨S4x128x32, .f32⟩) main_call1_v4) (TRef.of (T := ⟨S4x128x32, .f32⟩) main_call1_v2) (TRef.of (T := ⟨S4x128x32, .f32⟩) main_v5) minimumf,
    unary main_v5 main_v6 (fptosi 32 : (⟨S4x128x32, .f32⟩ : BufTy).Contents (Elt F) → (⟨S4x128x32, .i32⟩ : BufTy).Contents (Elt F)) ]

/-- The second stretch: from the levels and the two tables to the samples (14 operations). -/
abbrev opsB : List (HloOp τ sig (Elt F)) :=
  [ nullary main_c_2 (constantI S_ 32 0#32),
    unary main_c_2 main_v7 (broadcastInDim S4x128x32 ![] bcast_S_S4x128x32 : (⟨S_, .i32⟩ : BufTy).Contents (Elt F) → (⟨S4x128x32, .i32⟩ : BufTy).Contents (Elt F)),
    binary main_v6 main_v7 main_v8 (cmpi .slt : (⟨S4x128x32, .i32⟩ : BufTy).Contents (Elt F) → (⟨S4x128x32, .i32⟩ : BufTy).Contents (Elt F) → (⟨S4x128x32, .i1⟩ : BufTy).Contents (Elt F)),
    nullary main_c_3 (constantI S_ 32 21#32),
    unary main_c_3 main_v9 (broadcastInDim S4x128x32 ![] bcast_S_S4x128x32 : (⟨S_, .i32⟩ : BufTy).Contents (Elt F) → (⟨S4x128x32, .i32⟩ : BufTy).Contents (Elt F)),
    binary main_v6 main_v9 main_v10 (addi : (⟨S4x128x32, .i32⟩ : BufTy).Contents (Elt F) → (⟨S4x128x32, .i32⟩ : BufTy).Contents (Elt F) → (⟨S4x128x32, .i32⟩ : BufTy).Contents (Elt F)),
    ternary main_v8 main_v10 main_v6 main_v11 (select : (⟨S4x128x32, .i1⟩ : BufTy).Contents (Elt F) → (⟨S4x128x32, .i32⟩ : BufTy).Contents (Elt F) → (⟨S4x128x32, .i32⟩ : BufTy).Contents (Elt F) → (⟨S4x128x32, .i32⟩ : BufTy).Contents (Elt F)),
    unary main_v11 main_v12 (broadcastInDim S4x128x32x1 ![0, 1, 2] bcast_S4x128x32_S4x128x32x1_0_1_2 : (⟨S4x128x32, .i32⟩ : BufTy).Contents (Elt F) → (⟨S4x128x32x1, .i32⟩ : BufTy).Contents (Elt F)),
    binary main_arg1 main_v12 main_v13 ((fun x i => Host.gather gather_S21x10000_S4x128x32x1_S4x128x32x10000_3_0_n_n_0_3_110000 x i) : (⟨S21x10000, .f32⟩ : BufTy).Contents (Elt F) → (⟨S4x128x32x1, .i32⟩ : BufTy).Contents (Elt F) → (⟨S4x128x32x10000, .f32⟩ : BufTy).Contents (Elt F)),
    unary main_arg3 main_v14 (broadcastInDim S1x128x1x10000 ![1, 3] bcast_S128x10000_S1x128x1x10000_1_3 : (⟨S128x10000, .f32⟩ : BufTy).Contents (Elt F) → (⟨S1x128x1x10000, .f32⟩ : BufTy).Contents (Elt F)),
    unary main_v14 main_v15 (broadcastInDim S4x128x32x10000 ![0, 1, 2, 3] bcast_S1x128x1x10000_S4x128x32x10000_0_1_2_3 : (⟨S1x128x1x10000, .f32⟩ : BufTy).Contents (Elt F) → (⟨S4x128x32x10000, .f32⟩ : BufTy).Contents (Elt F)),
    binary main_v13 main_v15 main_v16 (mulf : (⟨S4x128x32x10000, .f32⟩ : BufTy).Contents (Elt F) → (⟨S4x128x32x10000, .f32⟩ : BufTy).Contents (Elt F) → (⟨S4x128x32x10000, .f32⟩ : BufTy).Contents (Elt F)),
    nullary main_cst_4 (constant S_ .f32 0x00000000#32),
    binary main_v16 main_cst_4 main_v17 ((fun x v => Host.reduceAdd x v reducesTo_S4x128x32x10000_S4x128x10000_d2 h_S_) : (⟨S4x128x32x10000, .f32⟩ : BufTy).Contents (Elt F) → (⟨S_, .f32⟩ : BufTy).Contents (Elt F) → (⟨S4x128x10000, .f32⟩ : BufTy).Contents (Elt F)) ]

/-- The third stretch: from the samples to the n-grams (19 operations). -/
abbrev opsC : List (HloOp τ sig (Elt F)) :=
  [ unary main_v17 main_v18 ((extractStridedSlice S4x125x10000 ![0, 0, 0] · slices_S4x128x10000_S4x125x10000_0_0_0) : (⟨S4x128x10000, .f32⟩ : BufTy).Contents (Elt F) → (⟨S4x125x10000, .f32⟩ : BufTy).Contents (Elt F)),
    TRef.unary (TRef.of (T := ⟨S4x125x10000, .f32⟩) main_v18) (TRef.of (T := ⟨S4x125x3, .f32⟩) main_call2_v0) (extractStridedSlice S4x125x3 ![0, 0, 9997] · slices_S4x125x10000_S4x125x3_0_0_9997),
    TRef.unary (TRef.of (T := ⟨S4x125x10000, .f32⟩) main_v18) (TRef.of (T := ⟨S4x125x9997, .f32⟩) main_call2_v1) (extractStridedSlice S4x125x9997 ![0, 0, 0] · slices_S4x125x10000_S4x125x9997_0_0_0),
    TRef.binary (TRef.of (T := ⟨S4x125x3, .f32⟩) main_call2_v0) (TRef.of (T := ⟨S4x125x9997, .f32⟩) main_call2_v1) (TRef.of (T := ⟨S4x125x10000, .f32⟩) main_v19) (fun a b => concatenate S4x125x10000 2 [⟨S4x125x3, a⟩, ⟨S4x125x9997, b⟩] concatenates_S4x125x3_S4x125x9997_S4x125x10000_d2),
    unary main_v17 main_v20 ((extractStridedSlice S4x125x10000 ![0, 1, 0] · slices_S4x128x10000_S4x125x10000_0_1_0) : (⟨S4x128x10000, .f32⟩ : BufTy).Contents (Elt F) → (⟨S4x125x10000, .f32⟩ : BufTy).Contents (Elt F)),
    TRef.unary (TRef.of (T := ⟨S4x125x10000, .f32⟩) main_v20) (TRef.of (T := ⟨S4x125x2, .f32⟩) main_call3_v0) (extractStridedSlice S4x125x2 ![0, 0, 9998] · slices_S4x125x10000_S4x125x2_0_0_9998),
    TRef.unary (TRef.of (T := ⟨S4x125x10000, .f32⟩) main_v20) (TRef.of (T := ⟨S4x125x9998, .f32⟩) main_call3_v1) (extractStridedSlice S4x125x9998 ![0, 0, 0] · slices_S4x125x10000_S4x125x9998_0_0_0),
    TRef.binary (TRef.of (T := ⟨S4x125x2, .f32⟩) main_call3_v0) (TRef.of (T := ⟨S4x125x9998, .f32⟩) main_call3_v1) (TRef.of (T := ⟨S4x125x10000, .f32⟩) main_v21) (fun a b => concatenate S4x125x10000 2 [⟨S4x125x2, a⟩, ⟨S4x125x9998, b⟩] concatenates_S4x125x2_S4x125x9998_S4x125x10000_d2),
    binary main_v19 main_v21 main_v22 (mulf : (⟨S4x125x10000, .f32⟩ : BufTy).Contents (Elt F) → (⟨S4x125x10000, .f32⟩ : BufTy).Contents (Elt F) → (⟨S4x125x10000, .f32⟩ : BufTy).Contents (Elt F)),
    unary main_v17 main_v23 ((extractStridedSlice S4x125x10000 ![0, 2, 0] · slices_S4x128x10000_S4x125x10000_0_2_0) : (⟨S4x128x10000, .f32⟩ : BufTy).Contents (Elt F) → (⟨S4x125x10000, .f32⟩ : BufTy).Contents (Elt F)),
    TRef.unary (TRef.of (T := ⟨S4x125x10000, .f32⟩) main_v23) (TRef.of (T := ⟨S4x125x1, .f32⟩) main_call4_v0) (extractStridedSlice S4x125x1 ![0, 0, 9999] · slices_S4x125x10000_S4x125x1_0_0_9999),
    TRef.unary (TRef.of (T := ⟨S4x125x10000, .f32⟩) main_v23) (TRef.of (T := ⟨S4x125x9999, .f32⟩) main_call4_v1) (extractStridedSlice S4x125x9999 ![0, 0, 0] · slices_S4x125x10000_S4x125x9999_0_0_0),
    TRef.binary (TRef.of (T := ⟨S4x125x1, .f32⟩) main_call4_v0) (TRef.of (T := ⟨S4x125x9999, .f32⟩) main_call4_v1) (TRef.of (T := ⟨S4x125x10000, .f32⟩) main_v24) (fun a b => concatenate S4x125x10000 2 [⟨S4x125x1, a⟩, ⟨S4x125x9999, b⟩] concatenates_S4x125x1_S4x125x9999_S4x125x10000_d2),
    binary main_v22 main_v24 main_v25 (mulf : (⟨S4x125x10000, .f32⟩ : BufTy).Contents (Elt F) → (⟨S4x125x10000, .f32⟩ : BufTy).Contents (Elt F) → (⟨S4x125x10000, .f32⟩ : BufTy).Contents (Elt F)),
    unary main_v17 main_v26 ((extractStridedSlice S4x125x10000 ![0, 3, 0] · slices_S4x128x10000_S4x125x10000_0_3_0) : (⟨S4x128x10000, .f32⟩ : BufTy).Contents (Elt F) → (⟨S4x125x10000, .f32⟩ : BufTy).Contents (Elt F)),
    TRef.unary (TRef.of (T := ⟨S4x125x10000, .f32⟩) main_v26) (TRef.of (T := ⟨S4x125x10000, .f32⟩) main_call5_v0) (extractStridedSlice S4x125x10000 ![0, 0, 0] · slices_S4x125x10000_S4x125x10000_0_0_0),
    TRef.unary (TRef.of (T := ⟨S4x125x10000, .f32⟩) main_v26) (TRef.of (T := ⟨S4x125x0, .f32⟩) main_call5_v1) (extractStridedSlice S4x125x0 ![0, 0, 0] · slices_S4x125x10000_S4x125x0_0_0_0),
    TRef.binary (TRef.of (T := ⟨S4x125x10000, .f32⟩) main_call5_v0) (TRef.of (T := ⟨S4x125x0, .f32⟩) main_call5_v1) (TRef.of (T := ⟨S4x125x10000, .f32⟩) main_v27) (fun a b => concatenate S4x125x10000 2 [⟨S4x125x10000, a⟩, ⟨S4x125x0, b⟩] concatenates_S4x125x10000_S4x125x0_S4x125x10000_d2),
    binary main_v25 main_v27 main_v28 (mulf : (⟨S4x125x10000, .f32⟩ : BufTy).Contents (Elt F) → (⟨S4x125x10000, .f32⟩ : BufTy).Contents (Elt F) → (⟨S4x125x10000, .f32⟩ : BufTy).Contents (Elt F)) ]

/-- The fourth stretch: from the n-grams and the class table to the scores (12 operations). -/
abbrev opsD : List (HloOp τ sig (Elt F)) :=
  [ nullary main_cst_5 (constant S_ .f32 0x00000000#32),
    binary main_v28 main_cst_5 main_v29 ((fun x v => Host.reduceAdd x v reducesTo_S4x125x10000_S4x10000_d1 h_S_) : (⟨S4x125x10000, .f32⟩ : BufTy).Contents (Elt F) → (⟨S_, .f32⟩ : BufTy).Contents (Elt F) → (⟨S4x10000, .f32⟩ : BufTy).Contents (Elt F)),
    nullary main_cst_6 (constant S_ .f32 0x00000000#32),
    unary main_cst_6 main_v30 (broadcastInDim S4x10000 ![] bcast_S_S4x10000 : (⟨S_, .f32⟩ : BufTy).Contents (Elt F) → (⟨S4x10000, .f32⟩ : BufTy).Contents (Elt F)),
    binary main_v29 main_v30 main_v31 (cmpf .ogt : (⟨S4x10000, .f32⟩ : BufTy).Contents (Elt F) → (⟨S4x10000, .f32⟩ : BufTy).Contents (Elt F) → (⟨S4x10000, .i1⟩ : BufTy).Contents (Elt F)),
    nullary main_cst_7 (constant S_ .f32 0x3F800000#32),
    nullary main_cst_8 (constant S_ .f32 0xBF800000#32),
    TRef.unary (TRef.of (T := ⟨S_, .f32⟩) main_cst_7) (TRef.of (T := ⟨S4x10000, .f32⟩) main_call6_v0) (broadcastInDim S4x10000 ![] bcast_S_S4x10000),
    TRef.unary (TRef.of (T := ⟨S_, .f32⟩) main_cst_8) (TRef.of (T := ⟨S4x10000, .f32⟩) main_call6_v1) (broadcastInDim S4x10000 ![] bcast_S_S4x10000),
    TRef.ternary (TRef.of (T := ⟨S4x10000, .i1⟩) main_v31) (TRef.of (T := ⟨S4x10000, .f32⟩) main_call6_v0) (TRef.of (T := ⟨S4x10000, .f32⟩) main_call6_v1) (TRef.of (T := ⟨S4x10000, .f32⟩) main_v32) select,
    unary main_arg4 main_v33 ((transpose S10000x10 [1, 0] · transposes_S10x10000_S10000x10_1_0) : (⟨S10x10000, .f32⟩ : BufTy).Contents (Elt F) → (⟨S10000x10, .f32⟩ : BufTy).Contents (Elt F)),
    binary main_v32 main_v33 main_v34 ((fun l r => Host.dotGeneral dot_S4x10000_S10000x10_S4x10_1_0_0_1_n_n none l r) : (⟨S4x10000, .f32⟩ : BufTy).Contents (Elt F) → (⟨S10000x10, .f32⟩ : BufTy).Contents (Elt F) → (⟨S4x10, .f32⟩ : BufTy).Contents (Elt F)) ]

/-- All 61 operations, in program order. -/
abbrev ops : List (HloOp τ sig (Elt F)) :=
  [ nullary main_cst (constant S_ .f32 0x41A00000#32),
    unary main_cst main_v0 (broadcastInDim S4x128x32 ![] bcast_S_S4x128x32 : (⟨S_, .f32⟩ : BufTy).Contents (Elt F) → (⟨S4x128x32, .f32⟩ : BufTy).Contents (Elt F)),
    binary main_arg0 main_v0 main_v1 (Host.divf : (⟨S4x128x32, .f32⟩ : BufTy).Contents (Elt F) → (⟨S4x128x32, .f32⟩ : BufTy).Contents (Elt F) → (⟨S4x128x32, .f32⟩ : BufTy).Contents (Elt F)),
    nullary main_cst_0 (constant S_ .f32 0x41A00000#32),
    unary main_cst_0 main_v2 (broadcastInDim S4x128x32 ![] bcast_S_S4x128x32 : (⟨S_, .f32⟩ : BufTy).Contents (Elt F) → (⟨S4x128x32, .f32⟩ : BufTy).Contents (Elt F)),
    binary main_v1 main_v2 main_v3 (mulf : (⟨S4x128x32, .f32⟩ : BufTy).Contents (Elt F) → (⟨S4x128x32, .f32⟩ : BufTy).Contents (Elt F) → (⟨S4x128x32, .f32⟩ : BufTy).Contents (Elt F)),
    TRef.unary (TRef.of (T := ⟨S4x128x32, .f32⟩) main_v3) (TRef.of (T := ⟨S4x128x32, .f32⟩) main_v4) Host.roundeven,
    nullary main_c (constantI S_ 32 0#32),
    nullary main_c_1 (constantI S_ 32 20#32),
    TRef.unary (TRef.of (T := ⟨S_, .i32⟩) main_c) (TRef.of (T := ⟨S_, .f32⟩) main_call1_v0) (sitofp .f32),
    TRef.unary (TRef.of (T := ⟨S_, .f32⟩) main_call1_v0) (TRef.of (T := ⟨S4x128x32, .f32⟩) main_call1_v1) (broadcastInDim S4x128x32 ![] bcast_S_S4x128x32),
    TRef.binary (TRef.of (T := ⟨S4x128x32, .f32⟩) main_call1_v1) (TRef.of (T := ⟨S4x128x32, .f32⟩) main_v4) (TRef.of (T := ⟨S4x128x32, .f32⟩) main_call1_v2) maximumf,
    TRef.unary (TRef.of (T := ⟨S_, .i32⟩) main_c_1) (TRef.of (T := ⟨S_, .f32⟩) main_call1_v3) (sitofp .f32),
    TRef.unary (TRef.of (T := ⟨S_, .f32⟩) main_call1_v3) (TRef.of (T := ⟨S4x128x32, .f32⟩) main_call1_v4) (broadcastInDim S4x128x32 ![] bcast_S_S4x128x32),
    TRef.binary (TRef.of (T := ⟨S4x128x32, .f32⟩) main_call1_v4) (TRef.of (T := ⟨S4x128x32, .f32⟩) main_call1_v2) (TRef.of (T := ⟨S4x128x32, .f32⟩) main_v5) minimumf,
    unary main_v5 main_v6 (fptosi 32 : (⟨S4x128x32, .f32⟩ : BufTy).Contents (Elt F) → (⟨S4x128x32, .i32⟩ : BufTy).Contents (Elt F)),
    nullary main_c_2 (constantI S_ 32 0#32),
    unary main_c_2 main_v7 (broadcastInDim S4x128x32 ![] bcast_S_S4x128x32 : (⟨S_, .i32⟩ : BufTy).Contents (Elt F) → (⟨S4x128x32, .i32⟩ : BufTy).Contents (Elt F)),
    binary main_v6 main_v7 main_v8 (cmpi .slt : (⟨S4x128x32, .i32⟩ : BufTy).Contents (Elt F) → (⟨S4x128x32, .i32⟩ : BufTy).Contents (Elt F) → (⟨S4x128x32, .i1⟩ : BufTy).Contents (Elt F)),
    nullary main_c_3 (constantI S_ 32 21#32),
    unary main_c_3 main_v9 (broadcastInDim S4x128x32 ![] bcast_S_S4x128x32 : (⟨S_, .i32⟩ : BufTy).Contents (Elt F) → (⟨S4x128x32, .i32⟩ : BufTy).Contents (Elt F)),
    binary main_v6 main_v9 main_v10 (addi : (⟨S4x128x32, .i32⟩ : BufTy).Contents (Elt F) → (⟨S4x128x32, .i32⟩ : BufTy).Contents (Elt F) → (⟨S4x128x32, .i32⟩ : BufTy).Contents (Elt F)),
    ternary main_v8 main_v10 main_v6 main_v11 (select : (⟨S4x128x32, .i1⟩ : BufTy).Contents (Elt F) → (⟨S4x128x32, .i32⟩ : BufTy).Contents (Elt F) → (⟨S4x128x32, .i32⟩ : BufTy).Contents (Elt F) → (⟨S4x128x32, .i32⟩ : BufTy).Contents (Elt F)),
    unary main_v11 main_v12 (broadcastInDim S4x128x32x1 ![0, 1, 2] bcast_S4x128x32_S4x128x32x1_0_1_2 : (⟨S4x128x32, .i32⟩ : BufTy).Contents (Elt F) → (⟨S4x128x32x1, .i32⟩ : BufTy).Contents (Elt F)),
    binary main_arg1 main_v12 main_v13 ((fun x i => Host.gather gather_S21x10000_S4x128x32x1_S4x128x32x10000_3_0_n_n_0_3_110000 x i) : (⟨S21x10000, .f32⟩ : BufTy).Contents (Elt F) → (⟨S4x128x32x1, .i32⟩ : BufTy).Contents (Elt F) → (⟨S4x128x32x10000, .f32⟩ : BufTy).Contents (Elt F)),
    unary main_arg3 main_v14 (broadcastInDim S1x128x1x10000 ![1, 3] bcast_S128x10000_S1x128x1x10000_1_3 : (⟨S128x10000, .f32⟩ : BufTy).Contents (Elt F) → (⟨S1x128x1x10000, .f32⟩ : BufTy).Contents (Elt F)),
    unary main_v14 main_v15 (broadcastInDim S4x128x32x10000 ![0, 1, 2, 3] bcast_S1x128x1x10000_S4x128x32x10000_0_1_2_3 : (⟨S1x128x1x10000, .f32⟩ : BufTy).Contents (Elt F) → (⟨S4x128x32x10000, .f32⟩ : BufTy).Contents (Elt F)),
    binary main_v13 main_v15 main_v16 (mulf : (⟨S4x128x32x10000, .f32⟩ : BufTy).Contents (Elt F) → (⟨S4x128x32x10000, .f32⟩ : BufTy).Contents (Elt F) → (⟨S4x128x32x10000, .f32⟩ : BufTy).Contents (Elt F)),
    nullary main_cst_4 (constant S_ .f32 0x00000000#32),
    binary main_v16 main_cst_4 main_v17 ((fun x v => Host.reduceAdd x v reducesTo_S4x128x32x10000_S4x128x10000_d2 h_S_) : (⟨S4x128x32x10000, .f32⟩ : BufTy).Contents (Elt F) → (⟨S_, .f32⟩ : BufTy).Contents (Elt F) → (⟨S4x128x10000, .f32⟩ : BufTy).Contents (Elt F)),
    unary main_v17 main_v18 ((extractStridedSlice S4x125x10000 ![0, 0, 0] · slices_S4x128x10000_S4x125x10000_0_0_0) : (⟨S4x128x10000, .f32⟩ : BufTy).Contents (Elt F) → (⟨S4x125x10000, .f32⟩ : BufTy).Contents (Elt F)),
    TRef.unary (TRef.of (T := ⟨S4x125x10000, .f32⟩) main_v18) (TRef.of (T := ⟨S4x125x3, .f32⟩) main_call2_v0) (extractStridedSlice S4x125x3 ![0, 0, 9997] · slices_S4x125x10000_S4x125x3_0_0_9997),
    TRef.unary (TRef.of (T := ⟨S4x125x10000, .f32⟩) main_v18) (TRef.of (T := ⟨S4x125x9997, .f32⟩) main_call2_v1) (extractStridedSlice S4x125x9997 ![0, 0, 0] · slices_S4x125x10000_S4x125x9997_0_0_0),
    TRef.binary (TRef.of (T := ⟨S4x125x3, .f32⟩) main_call2_v0) (TRef.of (T := ⟨S4x125x9997, .f32⟩) main_call2_v1) (TRef.of (T := ⟨S4x125x10000, .f32⟩) main_v19) (fun a b => concatenate S4x125x10000 2 [⟨S4x125x3, a⟩, ⟨S4x125x9997, b⟩] concatenates_S4x125x3_S4x125x9997_S4x125x10000_d2),
    unary main_v17 main_v20 ((extractStridedSlice S4x125x10000 ![0, 1, 0] · slices_S4x128x10000_S4x125x10000_0_1_0) : (⟨S4x128x10000, .f32⟩ : BufTy).Contents (Elt F) → (⟨S4x125x10000, .f32⟩ : BufTy).Contents (Elt F)),
    TRef.unary (TRef.of (T := ⟨S4x125x10000, .f32⟩) main_v20) (TRef.of (T := ⟨S4x125x2, .f32⟩) main_call3_v0) (extractStridedSlice S4x125x2 ![0, 0, 9998] · slices_S4x125x10000_S4x125x2_0_0_9998),
    TRef.unary (TRef.of (T := ⟨S4x125x10000, .f32⟩) main_v20) (TRef.of (T := ⟨S4x125x9998, .f32⟩) main_call3_v1) (extractStridedSlice S4x125x9998 ![0, 0, 0] · slices_S4x125x10000_S4x125x9998_0_0_0),
    TRef.binary (TRef.of (T := ⟨S4x125x2, .f32⟩) main_call3_v0) (TRef.of (T := ⟨S4x125x9998, .f32⟩) main_call3_v1) (TRef.of (T := ⟨S4x125x10000, .f32⟩) main_v21) (fun a b => concatenate S4x125x10000 2 [⟨S4x125x2, a⟩, ⟨S4x125x9998, b⟩] concatenates_S4x125x2_S4x125x9998_S4x125x10000_d2),
    binary main_v19 main_v21 main_v22 (mulf : (⟨S4x125x10000, .f32⟩ : BufTy).Contents (Elt F) → (⟨S4x125x10000, .f32⟩ : BufTy).Contents (Elt F) → (⟨S4x125x10000, .f32⟩ : BufTy).Contents (Elt F)),
    unary main_v17 main_v23 ((extractStridedSlice S4x125x10000 ![0, 2, 0] · slices_S4x128x10000_S4x125x10000_0_2_0) : (⟨S4x128x10000, .f32⟩ : BufTy).Contents (Elt F) → (⟨S4x125x10000, .f32⟩ : BufTy).Contents (Elt F)),
    TRef.unary (TRef.of (T := ⟨S4x125x10000, .f32⟩) main_v23) (TRef.of (T := ⟨S4x125x1, .f32⟩) main_call4_v0) (extractStridedSlice S4x125x1 ![0, 0, 9999] · slices_S4x125x10000_S4x125x1_0_0_9999),
    TRef.unary (TRef.of (T := ⟨S4x125x10000, .f32⟩) main_v23) (TRef.of (T := ⟨S4x125x9999, .f32⟩) main_call4_v1) (extractStridedSlice S4x125x9999 ![0, 0, 0] · slices_S4x125x10000_S4x125x9999_0_0_0),
    TRef.binary (TRef.of (T := ⟨S4x125x1, .f32⟩) main_call4_v0) (TRef.of (T := ⟨S4x125x9999, .f32⟩) main_call4_v1) (TRef.of (T := ⟨S4x125x10000, .f32⟩) main_v24) (fun a b => concatenate S4x125x10000 2 [⟨S4x125x1, a⟩, ⟨S4x125x9999, b⟩] concatenates_S4x125x1_S4x125x9999_S4x125x10000_d2),
    binary main_v22 main_v24 main_v25 (mulf : (⟨S4x125x10000, .f32⟩ : BufTy).Contents (Elt F) → (⟨S4x125x10000, .f32⟩ : BufTy).Contents (Elt F) → (⟨S4x125x10000, .f32⟩ : BufTy).Contents (Elt F)),
    unary main_v17 main_v26 ((extractStridedSlice S4x125x10000 ![0, 3, 0] · slices_S4x128x10000_S4x125x10000_0_3_0) : (⟨S4x128x10000, .f32⟩ : BufTy).Contents (Elt F) → (⟨S4x125x10000, .f32⟩ : BufTy).Contents (Elt F)),
    TRef.unary (TRef.of (T := ⟨S4x125x10000, .f32⟩) main_v26) (TRef.of (T := ⟨S4x125x10000, .f32⟩) main_call5_v0) (extractStridedSlice S4x125x10000 ![0, 0, 0] · slices_S4x125x10000_S4x125x10000_0_0_0),
    TRef.unary (TRef.of (T := ⟨S4x125x10000, .f32⟩) main_v26) (TRef.of (T := ⟨S4x125x0, .f32⟩) main_call5_v1) (extractStridedSlice S4x125x0 ![0, 0, 0] · slices_S4x125x10000_S4x125x0_0_0_0),
    TRef.binary (TRef.of (T := ⟨S4x125x10000, .f32⟩) main_call5_v0) (TRef.of (T := ⟨S4x125x0, .f32⟩) main_call5_v1) (TRef.of (T := ⟨S4x125x10000, .f32⟩) main_v27) (fun a b => concatenate S4x125x10000 2 [⟨S4x125x10000, a⟩, ⟨S4x125x0, b⟩] concatenates_S4x125x10000_S4x125x0_S4x125x10000_d2),
    binary main_v25 main_v27 main_v28 (mulf : (⟨S4x125x10000, .f32⟩ : BufTy).Contents (Elt F) → (⟨S4x125x10000, .f32⟩ : BufTy).Contents (Elt F) → (⟨S4x125x10000, .f32⟩ : BufTy).Contents (Elt F)),
    nullary main_cst_5 (constant S_ .f32 0x00000000#32),
    binary main_v28 main_cst_5 main_v29 ((fun x v => Host.reduceAdd x v reducesTo_S4x125x10000_S4x10000_d1 h_S_) : (⟨S4x125x10000, .f32⟩ : BufTy).Contents (Elt F) → (⟨S_, .f32⟩ : BufTy).Contents (Elt F) → (⟨S4x10000, .f32⟩ : BufTy).Contents (Elt F)),
    nullary main_cst_6 (constant S_ .f32 0x00000000#32),
    unary main_cst_6 main_v30 (broadcastInDim S4x10000 ![] bcast_S_S4x10000 : (⟨S_, .f32⟩ : BufTy).Contents (Elt F) → (⟨S4x10000, .f32⟩ : BufTy).Contents (Elt F)),
    binary main_v29 main_v30 main_v31 (cmpf .ogt : (⟨S4x10000, .f32⟩ : BufTy).Contents (Elt F) → (⟨S4x10000, .f32⟩ : BufTy).Contents (Elt F) → (⟨S4x10000, .i1⟩ : BufTy).Contents (Elt F)),
    nullary main_cst_7 (constant S_ .f32 0x3F800000#32),
    nullary main_cst_8 (constant S_ .f32 0xBF800000#32),
    TRef.unary (TRef.of (T := ⟨S_, .f32⟩) main_cst_7) (TRef.of (T := ⟨S4x10000, .f32⟩) main_call6_v0) (broadcastInDim S4x10000 ![] bcast_S_S4x10000),
    TRef.unary (TRef.of (T := ⟨S_, .f32⟩) main_cst_8) (TRef.of (T := ⟨S4x10000, .f32⟩) main_call6_v1) (broadcastInDim S4x10000 ![] bcast_S_S4x10000),
    TRef.ternary (TRef.of (T := ⟨S4x10000, .i1⟩) main_v31) (TRef.of (T := ⟨S4x10000, .f32⟩) main_call6_v0) (TRef.of (T := ⟨S4x10000, .f32⟩) main_call6_v1) (TRef.of (T := ⟨S4x10000, .f32⟩) main_v32) select,
    unary main_arg4 main_v33 ((transpose S10000x10 [1, 0] · transposes_S10x10000_S10000x10_1_0) : (⟨S10x10000, .f32⟩ : BufTy).Contents (Elt F) → (⟨S10000x10, .f32⟩ : BufTy).Contents (Elt F)),
    binary main_v32 main_v33 main_v34 ((fun l r => Host.dotGeneral dot_S4x10000_S10000x10_S4x10_1_0_0_1_n_n none l r) : (⟨S4x10000, .f32⟩ : BufTy).Contents (Elt F) → (⟨S10000x10, .f32⟩ : BufTy).Contents (Elt F) → (⟨S4x10, .f32⟩ : BufTy).Contents (Elt F)) ]

/-- The list is the four stretches one after the other. -/
theorem ops_split : (ops : List (HloOp τ sig (Elt F))) = opsA ++ (opsB ++ (opsC ++ opsD)) := rfl

set_option maxRecDepth 8192 in
set_option maxHeartbeats 4000000 in
/-- The program is its operations in sequence. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore references only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., binary_bufs_sub .., unary_bufs_sub .., unary_bufs_sub .., unary_bufs_sub .., binary_bufs_sub .., unary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., binary_bufs_sub .., nullary_bufs_sub .., binary_bufs_sub .., nullary_bufs_sub .., unary_bufs_sub .., binary_bufs_sub .., nullary_bufs_sub .., nullary_bufs_sub .., unary_bufs_sub .., unary_bufs_sub .., ternary_bufs_sub .., unary_bufs_sub .., binary_bufs_sub ..⟩

/-! ## Reading a list of operations back -/

/-- Running one list after another. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- Closes "this list of operations does not write this buffer": each operation writes its own result buffer only, and
    that is another buffer. -/
macro "not_written" : tactic => `(tactic| (
  refine StableHlo.after_of_forall_not_mem _ _ (List.forall_iff_forall_mem.mp ?_)
  simp only [opsA, opsB, opsC, opsD, ops, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

variable (W : Valuation τ sig (Elt F))

/-! ## The four stretches -/

/-- The first stretch leaves the levels of the readings it finds. -/
theorem stretchA :
    (after opsA W (Proc.devRef .tc main_v6) : S4x128x32.Idx → BitVec 32)
      = RefStages.levels (W (Proc.devRef .tc main_arg0) : S4x128x32.Idx → F .f32) := by
  after_results_simp <;> rfl
theorem keepA_arg1 : after opsA W (Proc.devRef .tc main_arg1) = W (Proc.devRef .tc main_arg1) := by not_written
theorem keepA_arg3 : after opsA W (Proc.devRef .tc main_arg3) = W (Proc.devRef .tc main_arg3) := by not_written
theorem keepA_arg4 : after opsA W (Proc.devRef .tc main_arg4) = W (Proc.devRef .tc main_arg4) := by not_written

/-- The second stretch leaves the samples of the levels and tables it finds. -/
theorem stretchB :
    (after opsB W (Proc.devRef .tc main_v17) : S4x128x10000.Idx → F .f32)
      = RefStages.samples (W (Proc.devRef .tc main_v6) : S4x128x32.Idx → BitVec 32)
          (W (Proc.devRef .tc main_arg1) : S21x10000.Idx → F .f32) (W (Proc.devRef .tc main_arg3) : S128x10000.Idx → F .f32) := by
  after_results_simp <;> rfl
theorem keepB_arg4 : after opsB W (Proc.devRef .tc main_arg4) = W (Proc.devRef .tc main_arg4) := by not_written

/-- The third stretch leaves the n-grams of the samples it finds. -/
theorem stretchC :
    (after opsC W (Proc.devRef .tc main_v28) : S4x125x10000.Idx → F .f32)
      = RefStages.grams (W (Proc.devRef .tc main_v17) : S4x128x10000.Idx → F .f32) := by
  after_results_simp <;> rfl
theorem keepC_arg4 : after opsC W (Proc.devRef .tc main_arg4) = W (Proc.devRef .tc main_arg4) := by not_written

/-- The fourth stretch leaves the scores of the n-grams and class table it finds. -/
theorem stretchD :
    (after opsD W (Proc.devRef .tc main_v34) : S4x10.Idx → F .f32)
      = RefStages.scores (W (Proc.devRef .tc main_v28) : S4x125x10000.Idx → F .f32)
          (W (Proc.devRef .tc main_arg4) : S10x10000.Idx → F .f32) := by
  after_results_simp <;> rfl

/-! ## The whole list -/

/-- What the 61 operations leave in the result buffer: the stages composed. -/
theorem value :
    (after ops W (Proc.devRef .tc main_v34) : S4x10.Idx → F .f32)
      = RefStages.result (W (Proc.devRef .tc main_arg0) : S4x128x32.Idx → F .f32) (W (Proc.devRef .tc main_arg1) : S21x10000.Idx → F .f32)
          (W (Proc.devRef .tc main_arg3) : S128x10000.Idx → F .f32) (W (Proc.devRef .tc main_arg4) : S10x10000.Idx → F .f32) := by
  rw [ops_split, after_append, after_append, after_append]
  rw [stretchD, stretchC, keepC_arg4, stretchB, keepB_arg4, stretchA, keepA_arg1, keepA_arg3, keepA_arg4]
  rfl

/-- No operation writes an argument. -/
theorem keep_arg0 : after ops W (Proc.devRef .tc main_arg0) = W (Proc.devRef .tc main_arg0) := by not_written
theorem keep_arg1 : after ops W (Proc.devRef .tc main_arg1) = W (Proc.devRef .tc main_arg1) := by not_written
theorem keep_arg2 : after ops W (Proc.devRef .tc main_arg2) = W (Proc.devRef .tc main_arg2) := by not_written
theorem keep_arg3 : after ops W (Proc.devRef .tc main_arg3) = W (Proc.devRef .tc main_arg3) := by not_written
theorem keep_arg4 : after ops W (Proc.devRef .tc main_arg4) = W (Proc.devRef .tc main_arg4) := by not_written

/-! ## The run -/

/-- On every device, for any float values, from any memory with zero counters: every weakly fair execution of the
    reference terminates with the result buffer at the stages composed, of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v34)
        = RefStages.result (m ((c.tc : Thread nD τ).loc main_arg0)) (m ((c.tc : Thread nD τ).loc main_arg1))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v34).trans (value (launchContents m c)),
      (h c main_arg0).trans (keep_arg0 (launchContents m c)),
      (h c main_arg1).trans (keep_arg1 (launchContents m c)),
      (h c main_arg2).trans (keep_arg2 (launchContents m c)),
      (h c main_arg3).trans (keep_arg3 (launchContents m c)),
      (h c main_arg4).trans (keep_arg4 (launchContents m c))⟩)
    (run_seq scopedRefs_eq scopedSems_eq defs main (fun _ => ops) main_eq (fun _ => ops_sub) m ρ)

end Cert.Hdc.RefRun

end
-- ==== Proof.RefValue.lean ====
/-
  The reference's result, read entry by entry.

  Entry (b, n) of the result is the score of class n for batch element b: the sum over the 10000 places d of the
  sign at d times entry d of class vector n. The sign at d is +1 where the bundle at d is positive and -1 elsewhere;
  the bundle at d is the sum over the 125 starting rows t of the n-gram at (t, d); the n-gram is the product of the
  samples' rows t, t+1, t+2, t+3 moved cyclically 3, 2, 1, 0 places to the right; and entry (t, d) of the samples is
  the sum over the 32 channels c of entry d of the level-table row that the level of reading (b, t, c) selects,
  times entry (t, d) of the time table.

  The steps, each over explicit coordinates and for any array handed to the step:
    * the level: the integer computed from one reading is the specification's level of it;
    * the lookup: a table row is selected by the level, 21 added when negative, read as a signed integer and held
      between 0 and 20;
    * the sum over the channels, the initial 0 dropped;
    * a cyclic move: two column blocks of an array swapped, read at a column in either block;
    * the product of the four moved row blocks, the sum over the starting rows, the sign, the pairing with a class
      vector.
  No finiteness is needed anywhere: every step is a reading at an index or 0 + x = x.
-/
import proofs.«142543_j35399120453698_2_alg».proof.Proof.RefStages
import proofs.«142543_j35399120453698_2_alg».proof.Proof.Spec
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.Hdc.Ref

open Idealize.ShloMosaic Idealize.ShloMosaic.ValueIdx Cert.ReferenceIdeal Cert.Hdc

/-! ## The level of a reading -/

/-- A scalar repeated over all readings reads the scalar. -/
theorem scalar_at {α : Type} (h : S_.BroadcastsInDim S4x128x32 ![]) (y : S_.Idx → α) (i : S4x128x32.Idx) :
    broadcastInDim S4x128x32 ![] h y i = y ix0 :=
  broadcastInDim_scalar_apply h y i

/-- The chain divide, multiply, round to even, hold between two bounds, convert, read at one index: each step acts
    on the entries at that index. -/
theorem level_chain_at (x0 A B K : FVec Ideal S4x128x32 .f32) (i : S4x128x32.Idx) :
    fptosi 32 (minimumf A (maximumf B (Host.roundeven (mulf (Host.divf x0 K) K)))) i
      = Ideal.fptosi 32 (min (A i) (max (B i) (Ideal.liftRound Ideal.roundHalfEven (Ideal.div (x0 i) (K i) * K i)))) :=
  rfl

/-- The integer the reference computes from one reading is that reading's level. -/
theorem levels_apply (x0 : FVec Ideal S4x128x32 .f32) (b : Fin 4) (t : Fin 128) (c : Fin 32) :
    RefStages.levels (F := Ideal) x0 (ix3 b t c) = level (x0 (ix3 b t c)) := by
  unfold RefStages.levels
  rw [level_chain_at, scalar_at, scalar_at, scalar_at]
  rfl

/-- The wrapped level at one index: 21 is added to a negative one. -/
theorem wrapped_apply (lv : IVec S4x128x32 32) (b : Fin 4) (t : Fin 128) (c : Fin 32) :
    RefStages.wrapped lv (ix3 b t c)
      = Scalar.select (IntOp.cmpi .slt (lv (ix3 b t c)) 0#32) (IntOp.addi (lv (ix3 b t c)) 21#32) (lv (ix3 b t c)) := by
  unfold RefStages.wrapped
  rw [select_apply]
  show Scalar.select (IntOp.cmpi .slt (lv (ix3 b t c)) (broadcastInDim S4x128x32 ![] _ (constantI S_ 32 0#32) (ix3 b t c)))
      (IntOp.addi (lv (ix3 b t c)) (broadcastInDim S4x128x32 ![] _ (constantI S_ 32 21#32) (ix3 b t c))) (lv (ix3 b t c)) = _
  rw [scalar_at, scalar_at]
  rfl

/-! ## The lookup in the level table -/

/-- The lookup read at an index, for any array of start indices: entry (b, t, c, d) of the result is entry d of the
    table's row whose number is start index (b, t, c) read as a signed integer and held between 0 and 20. On the
    table's first axis the slice has one row, so the start is held at most 21 - 1 and nothing is added to it; on the
    second the slice is the whole row, so the start is 0 and the result's last coordinate is added. -/
theorem gather_read {α : Type} (x1 : S21x10000.Idx → α) (idx : IVec S4x128x32x1 32)
    (b : Fin 4) (t : Fin 128) (c : Fin 32) (d : Fin 10000) :
    Host.gather gather_S21x10000_S4x128x32x1_S4x128x32x10000_3_0_n_n_0_3_110000 x1 idx (ix4 b t c d)
      = x1 (ix2 (⟨min (idx (ix4 b t c (0 : Fin 1))).toInt.toNat 20, by omega⟩ : Fin 21) d) := by
  unfold Host.gather
  refine congrArg x1 (funext fun a => Fin.ext ?_)
  match a with
  | ⟨0, _⟩ =>
    show gather_S21x10000_S4x128x32x1_S4x128x32x10000_3_0_n_n_0_3_110000.start (ix4 b t c d) idx 0
        + gather_S21x10000_S4x128x32x1_S4x128x32x10000_3_0_n_n_0_3_110000.batchCoord (ix4 b t c d) 0
        + gather_S21x10000_S4x128x32x1_S4x128x32x10000_3_0_n_n_0_3_110000.offCoord (ix4 b t c d) 0
      = min (idx (ix4 b t c (0 : Fin 1))).toInt.toNat 20
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S21x10000_S4x128x32x1_S4x128x32x10000_3_0_n_n_0_3_110000.startIndexMap
      from List.mem_singleton.mpr rfl)]
    have hsi : gather_S21x10000_S4x128x32x1_S4x128x32x10000_3_0_n_n_0_3_110000.siIdx (ix4 b t c d)
        ⟨List.idxOf (0 : Fin 2) gather_S21x10000_S4x128x32x1_S4x128x32x10000_3_0_n_n_0_3_110000.startIndexMap,
          List.idxOf_lt_length_iff.2 (List.mem_singleton.mpr rfl)⟩ = ix4 b t c (0 : Fin 1) := by
      funext e; refine Fin.ext ?_
      match e with
      | ⟨0, _⟩ => rfl
      | ⟨1, _⟩ => rfl
      | ⟨2, _⟩ => rfl
      | ⟨3, _⟩ => rfl
    rw [hsi]
    rfl
  | ⟨1, _⟩ =>
    show gather_S21x10000_S4x128x32x1_S4x128x32x10000_3_0_n_n_0_3_110000.start (ix4 b t c d) idx 1
        + gather_S21x10000_S4x128x32x1_S4x128x32x10000_3_0_n_n_0_3_110000.batchCoord (ix4 b t c d) 1
        + gather_S21x10000_S4x128x32x1_S4x128x32x10000_3_0_n_n_0_3_110000.offCoord (ix4 b t c d) 1
      = d.val
    rw [GatherDims.batchCoord_eq_zero _ _ _ List.not_mem_nil]
    unfold GatherDims.start
    rw [dif_neg (show ¬ (1 : Fin 2) ∈ gather_S21x10000_S4x128x32x1_S4x128x32x10000_3_0_n_n_0_3_110000.startIndexMap
      from by decide)]
    unfold GatherDims.offCoord
    rw [dif_pos (show (1 : Fin 2) ∈ gather_S21x10000_S4x128x32x1_S4x128x32x10000_3_0_n_n_0_3_110000.sKept from by decide)]
    simp only [Nat.zero_add]
    rfl

/-! ## The sum over the channels -/

/-- The sum over the channel axis read at (b, t, d): the initial value plus the 32 entries (b, t, c, d). -/
theorem channel_sum_at (y : FVec Ideal S4x128x32x10000 .f32) (z : FVec Ideal S_ .f32)
    (h' : S4x128x32x10000.ReducesTo [2] S4x128x10000) (hz : 0 < S_.numel) (b : Fin 4) (t : Fin 128) (d : Fin 10000) :
    Host.reduceAdd y z h' hz (ix3 b t d) = z (Shape.Idx.first hz) + ∑ c : Fin 32, y (ix4 b t c d) := by
  simp only [Host.reduceAdd, Ideal.hostReduceAdd_def]
  rw [Ideal.hostReduceAdd_single h' (by decide)]
  refine congrArg (_ + ·) (Finset.sum_congr rfl fun k _ => ?_)
  exact congrArg y (funext fun a => Fin.ext (by
    match a with | ⟨0, _⟩ => rfl | ⟨1, _⟩ => rfl | ⟨2, _⟩ => rfl | ⟨3, _⟩ => rfl))

/-- The time table repeated over batch elements and channels reads entry (t, d). -/
theorem time_at (x3 : FVec Ideal S128x10000 .f32) (h1 : S128x10000.BroadcastsInDim S1x128x1x10000 ![1, 3])
    (h2 : S1x128x1x10000.BroadcastsInDim S4x128x32x10000 ![0, 1, 2, 3]) (b : Fin 4) (t : Fin 128) (c : Fin 32) (d : Fin 10000) :
    broadcastInDim S4x128x32x10000 ![0, 1, 2, 3] h2 (broadcastInDim S1x128x1x10000 ![1, 3] h1 x3) (ix4 b t c d)
      = x3 (ix2 t d) := by
  rw [broadcastInDim_apply _ h2 _ (ix4 b t c d) (ix4 (0 : Fin 1) t (0 : Fin 1) d) (fun a => by
    match a with
    | ⟨0, _⟩ => show 0 = if (1 : Nat) = 1 then 0 else b.val; rw [if_pos rfl]
    | ⟨1, _⟩ => show t.val = if (128 : Nat) = 1 then 0 else t.val; rw [if_neg (by decide)]
    | ⟨2, _⟩ => show 0 = if (1 : Nat) = 1 then 0 else c.val; rw [if_pos rfl]
    | ⟨3, _⟩ => show d.val = if (10000 : Nat) = 1 then 0 else d.val; rw [if_neg (by decide)])]
  exact broadcastInDim_apply _ h1 x3 (ix4 (0 : Fin 1) t (0 : Fin 1) d) (ix2 t d) (fun a => by
    match a with
    | ⟨0, _⟩ => show t.val = if (128 : Nat) = 1 then 0 else t.val; rw [if_neg (by decide)]
    | ⟨1, _⟩ => show d.val = if (10000 : Nat) = 1 then 0 else d.val; rw [if_neg (by decide)])

/-- The wrapped levels given a trailing axis of length one read the wrapped level. -/
theorem start_at (w : IVec S4x128x32 32) (h : S4x128x32.BroadcastsInDim S4x128x32x1 ![0, 1, 2])
    (b : Fin 4) (t : Fin 128) (c : Fin 32) :
    broadcastInDim S4x128x32x1 ![0, 1, 2] h w (ix4 b t c (0 : Fin 1)) = w (ix3 b t c) :=
  broadcastInDim_apply _ h w (ix4 b t c (0 : Fin 1)) (ix3 b t c) (fun a => by
    match a with
    | ⟨0, _⟩ => show b.val = if (4 : Nat) = 1 then 0 else b.val; rw [if_neg (by decide)]
    | ⟨1, _⟩ => show t.val = if (128 : Nat) = 1 then 0 else t.val; rw [if_neg (by decide)]
    | ⟨2, _⟩ => show c.val = if (32 : Nat) = 1 then 0 else c.val; rw [if_neg (by decide)])

/-- Row t, entry d of the samples of batch element b, from any array of levels: the sum over the channels of the
    looked-up level entry times the time entry. -/
theorem samples_apply (lv : IVec S4x128x32 32) (x1 : FVec Ideal S21x10000 .f32) (x3 : FVec Ideal S128x10000 .f32)
    (b : Fin 4) (t : Fin 128) (d : Fin 10000) :
    RefStages.samples (F := Ideal) lv x1 x3 (ix3 b t d)
      = sampleByLookup (fun c => lv (ix3 b t c)) (fun l => x1 (ix2 l d)) (x3 (ix2 t d)) := by
  unfold RefStages.samples
  rw [channel_sum_at]
  show Ideal.ofBits .f32 0x00000000#32 + _ = _
  rw [Ideal.ofBits_zero_f32, zero_add]
  show _ = ∑ c : Fin 32, x1 (ix2 (row (lv (ix3 b t c))) d) * x3 (ix2 t d)
  refine Finset.sum_congr rfl fun c _ => ?_
  rw [mulf_apply, gather_read, time_at]
  refine congrArg (· * x3 (ix2 t d)) (congrArg x1 (funext fun a => Fin.ext ?_))
  match a with
  | ⟨0, _⟩ =>
    show min (broadcastInDim S4x128x32x1 ![0, 1, 2] _ (RefStages.wrapped lv) (ix4 b t c (0 : Fin 1))).toInt.toNat 20
      = (row (lv (ix3 b t c))).val
    rw [start_at, wrapped_apply]
    rfl
  | ⟨1, _⟩ => rfl

/-! ## A cyclic move to the right, read entry by entry -/

theorem roll_read {α : Type} {m r : Nat} (hmr : m + r = 10000) (y : S4x125x10000.Idx → α)
    (lo : (⟨3, ![4, 125, m]⟩ : Shape).Idx → α) (hi : (⟨3, ![4, 125, r]⟩ : Shape).Idx → α)
    (hlo : ∀ (b : Fin 4) (t : Fin 125) (e : Fin m), lo (ix3 b t e) = y (ix3 b t ⟨r + e.val, by omega⟩))
    (hhi : ∀ (b : Fin 4) (t : Fin 125) (e : Fin r), hi (ix3 b t e) = y (ix3 b t ⟨e.val, by omega⟩))
    (h : Shape.Concatenates [(⟨3, ![4, 125, m]⟩ : Shape), ⟨3, ![4, 125, r]⟩] S4x125x10000 2)
    (b : Fin 4) (t : Fin 125) (d : Fin 10000) :
    concatenate S4x125x10000 2 [⟨(⟨3, ![4, 125, m]⟩ : Shape), lo⟩, ⟨(⟨3, ![4, 125, r]⟩ : Shape), hi⟩] h (ix3 b t d)
      = y (ix3 b t (back m d)) := by
  have hd := d.isLt
  by_cases hlt : d.val < m
  · refine (concatenate_pair_apply_left (t := S4x125x10000) (s₁ := ⟨3, ![4, 125, m]⟩) (s₂ := ⟨3, ![4, 125, r]⟩)
      (2 : Fin 3) lo hi h (ix3 b t d) rfl (ix3 b t ⟨d.val, hlt⟩) (fun a => by
        match a with | ⟨0, _⟩ => rfl | ⟨1, _⟩ => rfl | ⟨2, _⟩ => rfl)).trans ?_
    rw [hlo]
    refine congrArg y (funext fun a => Fin.ext ?_)
    match a with
    | ⟨0, _⟩ => rfl
    | ⟨1, _⟩ => rfl
    | ⟨2, _⟩ =>
      show r + d.val = (back m d).val
      rw [back_val_of_lt (by omega) hlt]; omega
  · have hle : m ≤ d.val := Nat.not_lt.1 hlt
    refine (concatenate_pair_apply_right (t := S4x125x10000) (s₁ := ⟨3, ![4, 125, m]⟩) (s₂ := ⟨3, ![4, 125, r]⟩)
      (2 : Fin 3) lo hi h (ix3 b t d) rfl rfl (ix3 b t ⟨d.val - m, by omega⟩)
      (fun a ha => by
        match a with
        | ⟨0, _⟩ => rfl
        | ⟨1, _⟩ => rfl
        | ⟨2, _⟩ => exact absurd rfl ha)
      (by show d.val - m + m = d.val; omega)).trans ?_
    rw [hhi]
    refine congrArg y (funext fun a => Fin.ext ?_)
    match a with
    | ⟨0, _⟩ => rfl
    | ⟨1, _⟩ => rfl
    | ⟨2, _⟩ =>
      show d.val - m = (back m d).val
      rw [back_val_of_le (by omega) hle]

/-- Nothing moves when the second piece is empty. -/
theorem back_full (d : Fin 10000) : back 10000 d = d := Fin.ext (by
  show (d.val + (10000 - 10000)) % 10000 = d.val
  have := d.isLt
  omega)

/-- A block of w columns starting at column o, read at (b, t, e): column o + e of the array. -/
theorem col_slice_at {α : Type} {w : Nat} (o : Nat) (y : S4x125x10000.Idx → α)
    (h : S4x125x10000.Slices ![0, 0, o] ⟨3, ![4, 125, w]⟩) (how : o + w ≤ 10000) (b : Fin 4) (t : Fin 125) (e : Fin w) :
    extractStridedSlice ⟨3, ![4, 125, w]⟩ ![0, 0, o] y h (ix3 b t e) = y (ix3 b t ⟨o + e.val, by omega⟩) :=
  extractStridedSlice_apply ![0, 0, o] y h (ix3 b t e) _ (fun a => by
    match a with
    | ⟨0, _⟩ => show b.val = 0 + b.val; omega
    | ⟨1, _⟩ => show t.val = 0 + t.val; omega
    | ⟨2, _⟩ => rfl)

/-- A block of 125 rows starting at row o, read at (b, t, d): row o + t of the array. -/
theorem row_slice_at {α : Type} (o : Nat) (s : S4x128x10000.Idx → α)
    (h : S4x128x10000.Slices ![0, o, 0] S4x125x10000) (ho : o + 125 ≤ 128) (b : Fin 4) (t : Fin 125) (d : Fin 10000) :
    extractStridedSlice S4x125x10000 ![0, o, 0] s h (ix3 b t d) = s (ix3 b ⟨o + t.val, by omega⟩ d) :=
  extractStridedSlice_apply ![0, o, 0] s h (ix3 b t d) _ (fun a => by
    match a with
    | ⟨0, _⟩ => show b.val = 0 + b.val; omega
    | ⟨1, _⟩ => rfl
    | ⟨2, _⟩ => show d.val = 0 + d.val; omega)

/-- The last m columns of an array put in front of its first r: the array moved m places to the right. -/
theorem rolled_at {α : Type} {m r : Nat} (hmr : m + r = 10000) (y : S4x125x10000.Idx → α)
    (h1 : S4x125x10000.Slices ![0, 0, r] ⟨3, ![4, 125, m]⟩) (h2 : S4x125x10000.Slices ![0, 0, 0] ⟨3, ![4, 125, r]⟩)
    (hc : Shape.Concatenates [(⟨3, ![4, 125, m]⟩ : Shape), ⟨3, ![4, 125, r]⟩] S4x125x10000 2)
    (b : Fin 4) (t : Fin 125) (d : Fin 10000) :
    concatenate S4x125x10000 2
        [⟨(⟨3, ![4, 125, m]⟩ : Shape), extractStridedSlice ⟨3, ![4, 125, m]⟩ ![0, 0, r] y h1⟩,
         ⟨(⟨3, ![4, 125, r]⟩ : Shape), extractStridedSlice ⟨3, ![4, 125, r]⟩ ![0, 0, 0] y h2⟩] hc (ix3 b t d)
      = y (ix3 b t (back m d)) :=
  roll_read hmr y _ _ (fun b t e => col_slice_at r y h1 (by omega) b t e)
    (fun b t e => (col_slice_at 0 y h2 (by omega) b t e).trans
      (congrArg y (funext fun a => Fin.ext (by
        match a with
        | ⟨0, _⟩ => rfl
        | ⟨1, _⟩ => rfl
        | ⟨2, _⟩ => show 0 + e.val = e.val; omega))))
    hc b t d

/-- Two indices with the same coordinates read the same entry. -/
theorem at_eq {α : Type} (s : S4x128x10000.Idx → α) (b : Fin 4) {t t' : Fin 128} {d d' : Fin 10000}
    (ht : t.val = t'.val) (hd : d.val = d'.val) : s (ix3 b t d) = s (ix3 b t' d') := by
  obtain rfl := Fin.ext ht
  obtain rfl := Fin.ext hd
  rfl

/-! ## The n-grams -/

/-- The product of the four moved row blocks at (b, t, d) is the n-gram starting at row t. -/
theorem grams_apply (s : FVec Ideal S4x128x10000 .f32) (b : Fin 4) (t : Fin 125) (d : Fin 10000) :
    RefStages.grams (F := Ideal) s (ix3 b t d) = gram (fun t' d' => s (ix3 b t' d')) t d := by
  unfold RefStages.grams gram
  rw [mulf_apply, mulf_apply, mulf_apply]
  refine congrArg₂ (· * ·) (congrArg₂ (· * ·) (congrArg₂ (· * ·) ?_ ?_) ?_) ?_
  · exact (rolled_at (m := 3) (r := 9997) rfl _ _ _ _ b t d).trans
      ((row_slice_at 0 s _ (by decide) b t (back 3 d)).trans (at_eq s b (by show 0 + t.val = t.val; omega) rfl))
  · exact (rolled_at (m := 2) (r := 9998) rfl _ _ _ _ b t d).trans
      ((row_slice_at 1 s _ (by decide) b t (back 2 d)).trans (at_eq s b (by show 1 + t.val = t.val + 1; omega) rfl))
  · exact (rolled_at (m := 1) (r := 9999) rfl _ _ _ _ b t d).trans
      ((row_slice_at 2 s _ (by decide) b t (back 1 d)).trans (at_eq s b (by show 2 + t.val = t.val + 2; omega) rfl))
  · exact (rolled_at (m := 10000) (r := 0) rfl _ _ _ _ b t d).trans
      ((row_slice_at 3 s _ (by decide) b t (back 10000 d)).trans
        (at_eq s b (by show 3 + t.val = t.val + 3; omega) (congrArg Fin.val (back_full d))))

/-! ## The scores -/

/-- The sum over the row axis read at (b, d): the initial value plus the 125 entries (b, t, d). -/
theorem row_sum_at (g : FVec Ideal S4x125x10000 .f32) (z : FVec Ideal S_ .f32)
    (h' : S4x125x10000.ReducesTo [1] S4x10000) (hz : 0 < S_.numel) (b : Fin 4) (d : Fin 10000) :
    Host.reduceAdd g z h' hz (ix2 b d) = z (Shape.Idx.first hz) + ∑ t : Fin 125, g (ix3 b t d) := by
  simp only [Host.reduceAdd, Ideal.hostReduceAdd_def]
  rw [Ideal.hostReduceAdd_single h' (by decide)]
  refine congrArg (_ + ·) (Finset.sum_congr rfl fun k _ => ?_)
  exact congrArg g (funext fun a => Fin.ext (by
    match a with | ⟨0, _⟩ => rfl | ⟨1, _⟩ => rfl | ⟨2, _⟩ => rfl))

/-- A scalar repeated over all (b, d) reads the scalar. -/
theorem scalar_at2 {α : Type} (h : S_.BroadcastsInDim S4x10000 ![]) (y : S_.Idx → α) (i : S4x10000.Idx) :
    broadcastInDim S4x10000 ![] h y i = y ix0 :=
  broadcastInDim_scalar_apply h y i

/-- A sum over the row axis that starts from 0 is the sum of the 125 entries. -/
theorem row_sum_zero_at (g : FVec Ideal S4x125x10000 .f32) (h' : S4x125x10000.ReducesTo [1] S4x10000) (hz : 0 < S_.numel)
    (b : Fin 4) (d : Fin 10000) :
    Host.reduceAdd g (constant (F := Ideal) S_ .f32 0x00000000#32) h' hz (ix2 b d) = ∑ t : Fin 125, g (ix3 b t d) := by
  rw [row_sum_at]
  show Ideal.ofBits .f32 0x00000000#32 + _ = _
  rw [Ideal.ofBits_zero_f32, zero_add]

/-- The left operand's index of the contraction: the result's first coordinate, then the contracted one. -/
theorem lhs_coord0 (i : S4x10.Idx) (q : dot_S4x10000_S10000x10_S4x10_1_0_0_1_n_n.contr.Idx) :
    (dot_S4x10000_S10000x10_S4x10_1_0_0_1_n_n.lhsIdx i q 0).val = (i 0).val := by
  unfold DotDims.lhsIdx
  rw [dif_neg (show ¬(0 : Fin S4x10000.rank) ∈ dot_S4x10000_S10000x10_S4x10_1_0_0_1_n_n.lhsBatch by decide),
    dif_pos (show (0 : Fin S4x10000.rank) ∈ dot_S4x10000_S10000x10_S4x10_1_0_0_1_n_n.lhsNonContracting by decide)]
  rfl
theorem lhs_coord1 (i : S4x10.Idx) (q : dot_S4x10000_S10000x10_S4x10_1_0_0_1_n_n.contr.Idx) :
    (dot_S4x10000_S10000x10_S4x10_1_0_0_1_n_n.lhsIdx i q 1).val = (q ⟨0, by decide⟩).val :=
  dot_S4x10000_S10000x10_S4x10_1_0_0_1_n_n.lhsIdx_val_of_single rfl i q
/-- The right operand's index: the contracted coordinate, then the result's second one. -/
theorem rhs_coord0 (i : S4x10.Idx) (q : dot_S4x10000_S10000x10_S4x10_1_0_0_1_n_n.contr.Idx) :
    (dot_S4x10000_S10000x10_S4x10_1_0_0_1_n_n.rhsIdx i q 0).val = (q ⟨0, by decide⟩).val :=
  dot_S4x10000_S10000x10_S4x10_1_0_0_1_n_n.rhsIdx_val_of_single rfl i q
theorem rhs_coord1 (i : S4x10.Idx) (q : dot_S4x10000_S10000x10_S4x10_1_0_0_1_n_n.contr.Idx) :
    (dot_S4x10000_S10000x10_S4x10_1_0_0_1_n_n.rhsIdx i q 1).val = (i 1).val := by
  unfold DotDims.rhsIdx
  rw [dif_neg (show ¬(1 : Fin S10000x10.rank) ∈ dot_S4x10000_S10000x10_S4x10_1_0_0_1_n_n.rhsBatch by decide),
    dif_pos (show (1 : Fin S10000x10.rank) ∈ dot_S4x10000_S10000x10_S4x10_1_0_0_1_n_n.rhsNonContracting by decide)]
  rfl

/-- The contraction with the transposed class table read at (b, n): the sum over the places d of the left array at
    (b, d) times the class table at (n, d). -/
theorem contract_at (v : FVec Ideal S4x10000 .f32) (x4 : FVec Ideal S10x10000 .f32)
    (ht : S10x10000.Transposes [1, 0] S10000x10) (b : Fin 4) (n : Fin 10) :
    Host.dotGeneral dot_S4x10000_S10000x10_S4x10_1_0_0_1_n_n none v (transpose S10000x10 [1, 0] x4 ht) (ix2 b n)
      = ∑ d : Fin 10000, v (ix2 b d) * x4 (ix2 n d) := by
  have htr : ∀ d : Fin 10000, transpose S10000x10 [1, 0] x4 ht (ix2 d n) = x4 (ix2 n d) := fun d =>
    transpose_apply [1, 0] x4 ht (ix2 d n) (ix2 n d) (fun a => match a with
      | ⟨0, _⟩ => rfl
      | ⟨1, _⟩ => rfl)
  generalize transpose S10000x10 [1, 0] x4 ht = y1 at htr ⊢
  simp only [Host.dotGeneral]
  rw [Ideal.dotGeneral_apply,
    ← Equiv.sum_comp (contrEquiv1 dot_S4x10000_S10000x10_S4x10_1_0_0_1_n_n 10000 rfl rfl).symm]
  refine Finset.sum_congr rfl fun k _ => ?_
  have hk := contrEquiv1_symm_val dot_S4x10000_S10000x10_S4x10_1_0_0_1_n_n 10000 rfl rfl k
  have el : dot_S4x10000_S10000x10_S4x10_1_0_0_1_n_n.lhsIdx (ix2 b n)
      ((contrEquiv1 dot_S4x10000_S10000x10_S4x10_1_0_0_1_n_n 10000 rfl rfl).symm k) = ix2 b k :=
    funext fun a => Fin.ext (by
      match a with
      | ⟨0, _⟩ => exact lhs_coord0 _ _
      | ⟨1, _⟩ => exact (lhs_coord1 _ _).trans hk)
  have er : dot_S4x10000_S10000x10_S4x10_1_0_0_1_n_n.rhsIdx (ix2 b n)
      ((contrEquiv1 dot_S4x10000_S10000x10_S4x10_1_0_0_1_n_n 10000 rfl rfl).symm k) = ix2 k n :=
    funext fun a => Fin.ext (by
      match a with
      | ⟨0, _⟩ => exact (rhs_coord0 _ _).trans hk
      | ⟨1, _⟩ => exact rhs_coord1 _ _)
  rw [el, er, htr]

/-- The scores from any array of n-grams: the n-grams added over the rows, the sign of each total, the signs paired
    with class vector n. -/
theorem scores_apply (g : FVec Ideal S4x125x10000 .f32) (x4 : FVec Ideal S10x10000 .f32) (b : Fin 4) (n : Fin 10) :
    RefStages.scores (F := Ideal) g x4 (ix2 b n)
      = ∑ d : Fin 10000, sign (∑ t : Fin 125, g (ix3 b t d)) * x4 (ix2 n d) := by
  unfold RefStages.scores
  rw [contract_at]
  refine Finset.sum_congr rfl fun d _ => ?_
  refine congrArg (· * x4 (ix2 n d)) ?_
  rw [select_apply, cmpf_apply, row_sum_zero_at, scalar_at2, scalar_at2, scalar_at2]
  rfl

/-! ## The result -/

/-- THE RESULT OF THE REFERENCE, ENTRY BY ENTRY: the score of class n for batch element b. -/
theorem ref_value_of
    (grams_apply : ∀ (s : FVec Ideal S4x128x10000 .f32) (b : Fin 4) (t : Fin 125) (d : Fin 10000),
      RefStages.grams (F := Ideal) s (ix3 b t d) = gram (fun t' d' => s (ix3 b t' d')) t d)
    (scores_apply : ∀ (g : FVec Ideal S4x125x10000 .f32) (x4 : FVec Ideal S10x10000 .f32) (b : Fin 4) (n : Fin 10),
      RefStages.scores (F := Ideal) g x4 (ix2 b n) = ∑ d : Fin 10000, sign (∑ t : Fin 125, g (ix3 b t d)) * x4 (ix2 n d))
    (x0 : FVec Ideal S4x128x32 .f32) (x1 : FVec Ideal S21x10000 .f32) (x3 : FVec Ideal S128x10000 .f32)
    (x4 : FVec Ideal S10x10000 .f32) (b : Fin 4) (n : Fin 10) :
    RefStages.result (F := Ideal) x0 x1 x3 x4 (ix2 b n)
      = score (fun t d => sampleByLookup (fun c => level (x0 (ix3 b t c))) (fun l => x1 (ix2 l d)) (x3 (ix2 t d)))
          (fun n' d => x4 (ix2 n' d)) n := by
  unfold RefStages.result
  rw [scores_apply]
  show _ = ∑ d : Fin 10000, sign (∑ t : Fin 125, gram (fun t d => sampleByLookup (fun c => level (x0 (ix3 b t c)))
    (fun l => x1 (ix2 l d)) (x3 (ix2 t d))) t d) * x4 (ix2 n d)
  refine Finset.sum_congr rfl fun d _ => ?_
  refine congrArg (fun z => sign z * x4 (ix2 n d)) (Finset.sum_congr rfl fun t _ => ?_)
  rw [grams_apply]
  refine congrArg (fun s => gram s t d) (funext fun t' => funext fun d' => ?_)
  rw [samples_apply]
  exact congrArg (fun lv => sampleByLookup lv (fun l => x1 (ix2 l d')) (x3 (ix2 t' d')))
    (funext fun c => levels_apply x0 b t' c)

theorem ref_value (x0 : FVec Ideal S4x128x32 .f32) (x1 : FVec Ideal S21x10000 .f32) (x3 : FVec Ideal S128x10000 .f32)
    (x4 : FVec Ideal S10x10000 .f32) (b : Fin 4) (n : Fin 10) :
    RefStages.result (F := Ideal) x0 x1 x3 x4 (ix2 b n)
      = score (fun t d => sampleByLookup (fun c => level (x0 (ix3 b t c))) (fun l => x1 (ix2 l d)) (x3 (ix2 t d)))
          (fun n' d => x4 (ix2 n' d)) n :=
  ref_value_of grams_apply scores_apply x0 x1 x3 x4 b n

end Cert.Hdc.Ref

end
-- ==== Proof.LibRealValued.lean ====
/-
  Extended reals that are real numbers, and what keeps them so.

  A program read on exact numbers computes on the extended reals, where the usual laws of arithmetic hold
  only away from the infinities (a factor does not distribute over a sum that mixes the two infinities; a
  quotient is a product with the reciprocal only for a nonzero finite divisor). A proof that needs such a law
  therefore carries, through the program's operations, the fact that every quantity met on the way is the
  image of a real number. This file is that bookkeeping, free of any particular program:

    * `IsReal z`: z is the image of a real;  `IsPos z`: of a positive real;
    * reals are closed under products, sums, finite sums, cosine, sine and the absolute value `max z (-z)`;
      the exponential of a real is a POSITIVE real;
    * zero plus a sum of positive reals over a nonempty finite index type is a NONZERO real (what makes a
      normalizing sum of exponentials safe to divide by);
    * `coe_sum`: the inclusion of the reals commutes with a finite sum.
-/
import Idealize.ShloMosaic.PureOps.Ideal.Laws

noncomputable section

namespace Cert.RealValued

open Idealize.ShloMosaic

/-- The inclusion of the reals in the extended reals commutes with a finite sum. -/
theorem coe_sum {ι : Type} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- `z` is the image of a real number. -/
def IsReal (z : EReal) : Prop := ∃ r : ℝ, z = (r : EReal)

/-- `z` is the image of a positive real number. -/
def IsPos (z : EReal) : Prop := ∃ r : ℝ, 0 < r ∧ z = (r : EReal)

theorem IsPos.isReal {z : EReal} (h : IsPos z) : IsReal z := let ⟨r, _, e⟩ := h; ⟨r, e⟩

theorem isReal_coe (r : ℝ) : IsReal (r : EReal) := ⟨r, rfl⟩

theorem isReal_zero : IsReal (0 : EReal) := ⟨0, rfl⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.add {a b : EReal} (ha : IsReal a) (hb : IsReal b) : IsReal (a + b) := by
  obtain ⟨r, rfl⟩ := ha; obtain ⟨s, rfl⟩ := hb; exact ⟨r + s, (EReal.coe_add r s).symm⟩

/-- A finite sum of reals is a real. -/
theorem isReal_sum {ι : Type} (s : Finset ι) (f : ι → EReal) (h : ∀ i ∈ s, IsReal (f i)) : IsReal (∑ i ∈ s, f i) := by
  classical
  induction s using Finset.induction_on with
  | empty => simpa using isReal_zero
  | insert i s hi ih =>
    rw [Finset.sum_insert hi]
    exact (h i (Finset.mem_insert_self i s)).add (ih fun j hj => h j (Finset.mem_insert_of_mem hj))

/-- The cosine of a real is a real. -/
theorem IsReal.cos {a : EReal} (ha : IsReal a) : IsReal (Ideal.cos a) := by
  obtain ⟨r, rfl⟩ := ha; exact ⟨Real.cos r, Ideal.cos_coe r⟩

/-- The sine of a real is a real. -/
theorem IsReal.sin {a : EReal} (ha : IsReal a) : IsReal (Ideal.sin a) := by
  obtain ⟨r, rfl⟩ := ha; exact ⟨Real.sin r, Ideal.sin_coe r⟩

/-- The exponential of a real is a POSITIVE real. -/
theorem IsReal.exp_pos {a : EReal} (ha : IsReal a) : IsPos (Ideal.exp a) := by
  obtain ⟨r, rfl⟩ := ha; exact ⟨Real.exp r, Real.exp_pos r, Ideal.exp_coe r⟩

/-- The absolute value `max z (-z)` of a real is a real. -/
theorem IsReal.abs {a : EReal} (ha : IsReal a) : IsReal (max a (-a)) := by
  obtain ⟨r, rfl⟩ := ha
  refine ⟨max r (-r), ?_⟩
  rw [← EReal.coe_neg]
  exact (EReal.coe_strictMono.monotone.map_max).symm

/-- Zero plus a sum of positive reals over a nonempty finite index type is a NONZERO real. -/
theorem zero_add_sum_pos {ι : Type} [Fintype ι] [Nonempty ι] (f : ι → EReal) (h : ∀ i, IsPos (f i)) :
    ∃ s : ℝ, s ≠ 0 ∧ (0 : EReal) + ∑ i, f i = (s : EReal) := by
  classical
  choose r hr using h
  have e : (∑ i, f i) = ((∑ i, r i : ℝ) : EReal) := by
    rw [coe_sum]; exact Finset.sum_congr rfl fun i _ => (hr i).2
  refine ⟨∑ i, r i, ne_of_gt (Finset.sum_pos (fun i _ => (hr i).1) Finset.univ_nonempty), ?_⟩
  rw [zero_add, e]

end Cert.RealValued

end
-- ==== Proof.TwoWays.lean ====
/-
  The two ways of adding a channel sum agree, and the level of a reading is one of 0, ..., 20.

  A level is produced by converting an extended real held between 0 and 20 to a 32-bit integer, rounding toward
  zero.  Such an extended real is a real number r with 0 ≤ r ≤ 20, its integer part lies between 0 and 20, far inside
  the range of a signed 32-bit integer, so the conversion is the word of a natural number below 21.

  On such a word the row of the level table it selects is the number itself, and the comparison with the word of a
  level l gives 1 exactly when the two numbers are equal.  The sum over the levels of (the number of channels at
  that level) times (that level's entry) is therefore, after exchanging the two sums, the sum over the channels of the
  entry of that channel's level.  The exchange and the multiplication by the time entry are laws of the real numbers;
  they are applied to real numbers only, which is why every entry is asked to be real.
-/
import proofs.«142543_j35399120453698_2_alg».proof.Proof.Spec
import proofs.«142543_j35399120453698_2_alg».proof.Proof.LibRealValued

noncomputable section

open scoped BigOperators

namespace Cert.Hdc

open Idealize.ShloMosaic Cert.RealValued

/-! ## The level is one of 0, ..., 20 -/

/-- Converting a real number between 0 and 20 to a signed 32-bit integer gives the word of its integer part, a
    natural number below 21: the bounds of the 32-bit range are never met. -/
theorem fptosi_of_mem (r : ℝ) (h0 : 0 ≤ r) (h20 : r ≤ 20) :
    ∃ n : Fin 21, Ideal.fptosi 32 (r : EReal) = BitVec.ofNat 32 n.val := by
  have hf0 : 0 ≤ ⌊r⌋ := Int.floor_nonneg.mpr h0
  have hf20 : ⌊r⌋ ≤ 20 := by
    have h : ⌊r⌋ ≤ ⌊(20 : ℝ)⌋ := Int.floor_le_floor h20
    simpa using h
  refine ⟨⟨⌊r⌋.toNat, by omega⟩, ?_⟩
  rw [Ideal.fptosi, Ideal.toIntClamped_coe, if_pos h0]
  have hp : ((2 ^ (32 - 1) : Nat) : Int) = 2147483648 := by norm_num
  have e : max (-((2 ^ (32 - 1) : Nat) : Int)) (min (((2 ^ (32 - 1) : Nat) : Int) - 1) ⌊r⌋)
      = ((⌊r⌋.toNat : Nat) : Int) := by
    rw [hp]
    omega
  rw [e]
  exact BitVec.ofInt_natCast 32 _

/-- An extended real held between 0 and 20 converts to the word of a natural number below 21. -/
theorem fptosi_clamp (z : EReal) :
    ∃ n : Fin 21, Ideal.fptosi 32 (min ((20 : ℝ) : EReal) (max ((0 : ℝ) : EReal) z)) = BitVec.ofNat 32 n.val := by
  have hlo : ((0 : ℝ) : EReal) ≤ min ((20 : ℝ) : EReal) (max ((0 : ℝ) : EReal) z) :=
    le_min (EReal.coe_le_coe_iff.mpr (by norm_num)) (le_max_left _ _)
  have hhi : min ((20 : ℝ) : EReal) (max ((0 : ℝ) : EReal) z) ≤ ((20 : ℝ) : EReal) := min_le_left _ _
  generalize min ((20 : ℝ) : EReal) (max ((0 : ℝ) : EReal) z) = w at hlo hhi
  induction w using EReal.rec with
  | bot => exact absurd hlo (not_le.mpr (EReal.bot_lt_coe 0))
  | top => exact absurd hhi (not_le.mpr (EReal.coe_lt_top 20))
  | coe r => exact fptosi_of_mem r (EReal.coe_le_coe_iff.mp hlo) (EReal.coe_le_coe_iff.mp hhi)

theorem level_range (x : EReal) : ∃ n : Fin 21, level x = BitVec.ofNat 32 n.val := by
  have h20 : (((20#32 : BitVec 32).toInt : ℝ) : EReal) = ((20 : ℝ) : EReal) := by
    have : (20#32 : BitVec 32).toInt = 20 := by decide
    rw [this]; norm_num
  have h0 : (((0#32 : BitVec 32).toInt : ℝ) : EReal) = ((0 : ℝ) : EReal) := by
    have : (0#32 : BitVec 32).toInt = 0 := by decide
    rw [this]; norm_num
  unfold level
  rw [h20, h0]
  exact fptosi_clamp _

/-! ## Words of small numbers -/

/-- The word of a natural number below 21 is not negative, reads back as itself and selects its own row. -/
theorem row_ofNat (n : Fin 21) : row (BitVec.ofNat 32 n.val) = n := by
  revert n; decide

/-- Two natural numbers below 21 have the same word exactly when they are equal. -/
theorem cmpi_eq_ofNat (n l : Fin 21) :
    IntOp.cmpi .eq (BitVec.ofNat 32 n.val) (BitVec.ofNat 32 l.val) = if n = l then 1#1 else 0#1 := by
  revert n l; decide

theorem hot_ofNat (n l : Fin 21) : hot (BitVec.ofNat 32 n.val) l = if n = l then 1 else 0 := by
  unfold hot
  rw [cmpi_eq_ofNat]
  by_cases h : n = l
  · rw [if_pos h, if_pos h]; norm_num
  · rw [if_neg h, if_neg h]; norm_num

/-! ## The channel sum, two ways -/

/-- In the real numbers: weighting each level's entry by the number of channels at that level and adding over the
    levels is adding, over the channels, the entry of each channel's level. -/
theorem count_eq_lookup (n : Fin 32 → Fin 21) (s : Fin 21 → ℝ) :
    ∑ l : Fin 21, (∑ c : Fin 32, (if n c = l then (1 : ℝ) else 0)) * s l = ∑ c : Fin 32, s (n c) := by
  calc ∑ l : Fin 21, (∑ c : Fin 32, (if n c = l then (1 : ℝ) else 0)) * s l
      = ∑ l : Fin 21, ∑ c : Fin 32, (if n c = l then s l else 0) := by
        refine Finset.sum_congr rfl fun l _ => ?_
        rw [Finset.sum_mul]
        refine Finset.sum_congr rfl fun c _ => ?_
        by_cases h : n c = l
        · rw [if_pos h, if_pos h, one_mul]
        · rw [if_neg h, if_neg h, zero_mul]
    _ = ∑ c : Fin 32, ∑ l : Fin 21, (if n c = l then s l else 0) := Finset.sum_comm
    _ = ∑ c : Fin 32, s (n c) := by
        refine Finset.sum_congr rfl fun c _ => ?_
        rw [Finset.sum_ite_eq]
        exact if_pos (Finset.mem_univ _)

theorem sample_two_ways (lv : Fin 32 → BitVec 32) (hlv : ∀ c, ∃ n : Fin 21, lv c = BitVec.ofNat 32 n.val)
    (sig : Fin 21 → EReal) (hsig : ∀ l, IsReal (sig l)) (ts : EReal) (hts : IsReal ts) :
    sampleByCount lv sig ts = sampleByLookup lv sig ts := by
  choose n hn using hlv
  choose s hs using hsig
  obtain ⟨τ, rfl⟩ := hts
  -- the counting side is the image of a real number
  have hcount : sampleByCount lv sig (τ : EReal)
      = (((∑ l : Fin 21, (∑ c : Fin 32, (if n c = l then (1 : ℝ) else 0)) * s l) * τ : ℝ) : EReal) := by
    unfold sampleByCount
    rw [EReal.coe_mul, coe_sum]
    congr 1
    refine Finset.sum_congr rfl fun l _ => ?_
    rw [EReal.coe_mul, coe_sum, hs l]
    congr 1
    refine Finset.sum_congr rfl fun c _ => ?_
    rw [hn c, hot_ofNat]
    by_cases h : n c = l
    · rw [if_pos h, if_pos h]; norm_num
    · rw [if_neg h, if_neg h]; norm_num
  -- and so is the looking-up side
  have hlookup : sampleByLookup lv sig (τ : EReal) = (((∑ c : Fin 32, s (n c)) * τ : ℝ) : EReal) := by
    unfold sampleByLookup
    rw [Finset.sum_mul, coe_sum]
    refine Finset.sum_congr rfl fun c _ => ?_
    rw [hn c, row_ofNat, hs (n c), EReal.coe_mul]
  rw [hcount, hlookup, count_eq_lookup]

end Cert.Hdc

end
-- ==== Proof.LibFiniteInputs.lean ====
/-
  Finite inputs are real numbers.  A precondition of the form  all (|x| < +∞)  evaluates, at the extended reals, the
  conjunction over all entries of an array  x  of  max x (-x) < ⊤ : the binary32 word 0x7F800000 denotes ⊤, and
  max x (-x) < ⊤  excludes  x = ⊤  and  x = ⊥ .  So when the conjunction (a reduction by "and" into a scalar, from the
  constant true) comes out 1, every entry of  x  is the image of a real number.  Stated for an array of any shape.
-/
import Idealize.ShloMosaic.Lib.ReduceAll
import Idealize.ShloMosaic.Lib.IdealHost
import Idealize.ShloMosaic.Lib.ValueIdx
import proofs.«142543_j35399120453698_2_alg».proof.Proof.LibRealValued

noncomputable section

namespace Cert.Lib.FiniteInputs

open Idealize.ShloMosaic Idealize.ShloMosaic.ValueIdx Cert.RealValued

/-- A rank-0 array has one index. -/
instance subsingleton_scalar_idx : Subsingleton (⟨0, ![]⟩ : Shape).Idx := ⟨fun a b => funext fun d => d.elim0⟩

/-- The f32 word 0x7F800000 denotes +∞. -/
theorem inf_word : Ideal.ofBits .f32 0x7F800000#32 = (⊤ : EReal) := by simp [Ideal.ofBits, Ideal.ieee]

/-- An extended real whose absolute value max x (-x) is below ⊤ is neither infinity: it is a real number. -/
theorem isReal_of_abs_lt_top (x : EReal) (h : max x (-x) < ⊤) : IsReal x := by
  rw [max_lt_iff] at h
  induction x using EReal.rec with
  | bot => exact absurd h.2 (by simp)
  | coe r => exact ⟨r, rfl⟩
  | top => exact absurd h.1 (by simp)

/-- On one value: the comparison |x| < +∞ came out 1, so x is a real number. -/
theorem isReal_of_cmp (x : Ideal .f32)
    (h : FloatOps.cmpf .olt (FloatOps.hostAbsf x) (Ideal.ofBits .f32 0x7F800000#32) = 1#1) : IsReal x := by
  rw [inf_word] at h
  apply isReal_of_abs_lt_top
  by_contra hn
  have : FloatOps.cmpf .olt (FloatOps.hostAbsf x) (⊤ : EReal) = 0#1 := by
    show Ideal.cmp .olt (max (x : EReal) (-(x : EReal))) ⊤ = 0#1
    unfold Ideal.cmp
    simp [hn]
  rw [this] at h
  exact absurd h (by decide)

/-- The conjunction over all entries of |x| < +∞ (a reduction by "and" into a scalar) came out 1: every entry
    of x is a real number. -/
theorem all_lt_inf {s : Shape} {axes : List (Fin s.rank)} (x : FVec Ideal s .f32)
    (hb : (⟨0, ![]⟩ : Shape).BroadcastsInDim s (![] : Fin 0 → Fin s.rank)) (hr : s.ReducesTo axes (⟨0, ![]⟩ : Shape)) (hu : 0 < (⟨0, ![]⟩ : Shape).numel) (j : (⟨0, ![]⟩ : Shape).Idx)
    (e : Host.reduce IntOp.andi (cmpf .olt (Host.absf x) (broadcastInDim s ![] hb (constant (F := Ideal) (⟨0, ![]⟩ : Shape) .f32 0x7F800000#32)))
          (constantI (⟨0, ![]⟩ : Shape) 1 1#1) hr hu j = 1#1) (i : s.Idx) : IsReal (x i) := by
  have hi := Host.reduce_andi_all _ _ hr hu j e i
  rw [cmpf_apply, broadcastInDim_scalar_apply, constant_apply] at hi
  exact isReal_of_cmp (x i) hi

end Cert.Lib.FiniteInputs

end
-- ==== Proof.FiniteTables.lean ====
/-
  Finite tables are tables of real numbers.

  The precondition is the conjunction of five statements, one for each array: every entry of the array has an absolute
  value below +∞.  Each statement is itself a conjunction over the entries of the array, and the five are joined two
  at a time, from the left.  When the whole comes out 1, so does each of the five (a conjunction of two bits is 1
  only when both are), and a statement that came out 1 says that every entry of its array is neither infinity, that
  is, the image of a real number.  This is read off here for the table of level vectors and the table of time vectors.
-/
import proofs.«142543_j35399120453698_2_alg».proof.Pre_finite_inputs
import proofs.«142543_j35399120453698_2_alg».proof.Proof.LibFiniteInputs
import Idealize.ShloMosaic.Lib.Affine

noncomputable section

namespace Cert.Hdc

open Idealize.ShloMosaic Idealize.ShloMosaic.ValueIdx Cert.RealValued

/-- A conjunction of two arrays of bits is 1 at an index only when both arrays are 1 there. -/
theorem andi_apply_eq_one {s : Shape} (x y : IVec s 1) (j : s.Idx) (h : andi x y j = 1#1) :
    x j = 1#1 ∧ y j = 1#1 :=
  IntOp.andi_eq_one.1 h

variable [Cert.Pre_finite_inputs.Facts]

theorem tables_real (a0 : FVec Ideal Cert.Pre_finite_inputs.S4x128x32 .f32)
    (a1 : FVec Ideal Cert.Pre_finite_inputs.S21x10000 .f32) (a2 : FVec Ideal Cert.Pre_finite_inputs.S32x10000 .f32)
    (a3 : FVec Ideal Cert.Pre_finite_inputs.S128x10000 .f32) (a4 : FVec Ideal Cert.Pre_finite_inputs.S10x10000 .f32)
    (h : Cert.Pre_finite_inputs.fn (F := Ideal) a0 a1 a2 a3 a4 = fun _ => 1#1) :
    (∀ i, Cert.RealValued.IsReal (a1 i)) ∧ (∀ i, Cert.RealValued.IsReal (a3 i)) := by
  -- the value of the precondition at its one index
  have hj := congrFun h ix0
  dsimp only [Cert.Pre_finite_inputs.fn, Cert.Pre_finite_inputs.fn_part1] at hj
  -- the conjunction is ((((p0 and p1) and p2) and p3) and p4): peel it from the right
  have h4 := andi_apply_eq_one _ _ _ hj
  have h3 := andi_apply_eq_one _ _ _ h4.1
  have h2 := andi_apply_eq_one _ _ _ h3.1
  have h1 := andi_apply_eq_one _ _ _ h2.1
  exact ⟨fun i => Cert.Lib.FiniteInputs.all_lt_inf a1 _ _ _ ix0 h1.2 i,
    fun i => Cert.Lib.FiniteInputs.all_lt_inf a3 _ _ _ ix0 h3.2 i⟩

end Cert.Hdc

end
-- ==== Proof.lean ====
/-
  A hyperdimensional n-gram encoder, two ways.  Each reading of a [4, 128, 32] array is sent to a level 0, ..., 20 and
  the level's vector of 10000 entries is looked up in a table; over the 32 channels these vectors, each multiplied entry
  by entry by the time vector of its row, are added into a sample row; four consecutive sample rows, moved cyclically
  3, 2, 1 and 0 places, are multiplied into an n-gram; the 125 n-grams are added; the sign of each entry is taken; and
  the signs are paired with each of 10 class vectors.

  The kernel does not look the level vectors up.  The host counts, for each row and each level, the channels at that
  level; the kernel multiplies this [128, 21] matrix of counts by the [21, 10000] level table and multiplies the time
  table in afterwards, one batch element per grid point, and from there follows the same steps as the reference.
  So the two programs differ in one place only, the sample rows, and there

      (sum over levels l of (number of channels at l) * table(l, d)) * time(t, d)
        = sum over channels c of table(level of c, d) * time(t, d),

  which holds because every level lies in 0, ..., 20 (the value converted to an integer was held between 0 and 20) and
  because the tables' entries are real numbers (the precondition), so that the products distribute over the sums.
  The frames are the generated ones; the idealization rewrote nothing.
-/
import proofs.«142543_j35399120453698_2_alg».proof.Defs
import proofs.«142543_j35399120453698_2_alg».proof.Proof.Gen.Kernel
import proofs.«142543_j35399120453698_2_alg».proof.Proof.Gen.Kernel.Skeleton
import proofs.«142543_j35399120453698_2_alg».proof.Proof.Gen.Kernel.Launch
import proofs.«142543_j35399120453698_2_alg».proof.Proof.Gen.Kernel.Points
import proofs.«142543_j35399120453698_2_alg».proof.Proof.Gen.Kernel.Frame
import proofs.«142543_j35399120453698_2_alg».proof.Proof.Gen.KernelIdeal
import proofs.«142543_j35399120453698_2_alg».proof.Proof.Gen.KernelIdeal.Skeleton
import proofs.«142543_j35399120453698_2_alg».proof.Proof.Gen.KernelIdeal.Launch
import proofs.«142543_j35399120453698_2_alg».proof.Proof.Gen.KernelIdeal.Points
import proofs.«142543_j35399120453698_2_alg».proof.Proof.Gen.KernelIdeal.Frame
import proofs.«142543_j35399120453698_2_alg».proof.Proof.Gen.ReferenceIdeal
import proofs.«142543_j35399120453698_2_alg».proof.Proof.Gen.Pre_finite_inputs
import proofs.«142543_j35399120453698_2_alg».proof.Proof.KernelArrays
import proofs.«142543_j35399120453698_2_alg».proof.Proof.RefRun
import proofs.«142543_j35399120453698_2_alg».proof.Proof.RefValue
import proofs.«142543_j35399120453698_2_alg».proof.Proof.TwoWays
import proofs.«142543_j35399120453698_2_alg».proof.Proof.FiniteTables
import Idealize.ShloMosaic.Adequacy
import Idealize.ShloMosaic.Init

noncomputable section

namespace Cert.Proof

open Idealize.ShloMosaic Idealize.SL.Sem Idealize.ShloMosaic.ValueIdx

/-- The three programs run and leave their arguments as they were. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.Hdc.RefRun.run (F := Ideal) m ρ)

/-- Nothing was rewritten on the way to the extended reals. -/
theorem preserves : Cert.preserves_Kernel_KernelIdeal := trivial

/-- On the extended reals, from memories that agree on the arguments, both programs end with the same scores: the
    kernel's samples formed by counting are the reference's samples formed by looking up. -/
theorem algebraic : Cert.algebraic_KernelIdeal_ReferenceIdeal := by
  intro m ρ m' ρ' hpre hagree
  refine ⟨fun c => Cert.Hdc.Arrays.scores2 (Cert.Hdc.Arrays.readings m c) (Cert.Hdc.Arrays.levelTable m c)
    (Cert.Hdc.Arrays.timeTable m c) (Cert.Hdc.Arrays.classTable m c), Cert.Hdc.Arrays.run m ρ, ?_⟩
  refine (θ_run Cert.ReferenceIdeal.defs _ _).mono (fun _ h c => ⟨(h c).1.trans ?_, (h c).2⟩)
    (Cert.Hdc.RefRun.run (F := Ideal) m' ρ')
  rw [(hagree c).1, (hagree c).2.1, (hagree c).2.2.2.1, (hagree c).2.2.2.2]
  obtain ⟨hlevels, htimes⟩ := Cert.Hdc.tables_real _ _ _ _ _ (hpre c)
  funext i
  obtain ⟨b, n, rfl⟩ : ∃ (b : Fin 4) (n : Fin 10), i = ix2 b n := ⟨i 0, i 1, eq_ix2 i⟩
  rw [Cert.Hdc.Ref.ref_value]
  unfold Cert.Hdc.Arrays.scores2
  refine congrArg (fun s => Cert.Hdc.score s _ n) (funext fun t => funext fun d => ?_)
  exact (Cert.Hdc.sample_two_ways _ (fun _ => Cert.Hdc.level_range _) _ (fun _ => hlevels _) _ (htimes _)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
